-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048x32 : Shape := ⟨2, ![2048, 32]⟩
abbrev S32x32 : Shape := ⟨2, ![32, 32]⟩
abbrev S32 : Shape := ⟨1, ![32]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x32 : S_.BroadcastsInDim S2048x32 (![] : Fin 0 → Fin S2048x32.rank)
  reducesTo_S2048x32_S_d0_1 : S2048x32.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_v28 : IVec S_ 1) (main_v33 : IVec S2048x2048 1) : IVec S_ 1 :=
  let main_c_12 : IVec S_ 1 := constantI S_ 1 1#1
  let main_v34 : IVec S_ 1 := (fun x v => Host.reduce IntOp.andi x v reducesTo_S2048x2048_S_d0_1 h_S_) main_v33 main_c_12
  let main_v35 : IVec S_ 1 := andi main_v28 main_v34
  main_v35

def fn_part1 {F : FTy → Type} [FloatOps F] (main_arg0 : FVec F S2048x2048 .f32) (main_arg4 : FVec F S32x32 .f32) (main_arg5 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_cst_10 : FVec F S_ .f32 := constant S_ .f32 0x00000000#32
  let main_v29 : FVec F S2048x2048 .f32 := broadcastInDim S2048x2048 ![] bcast_S_S2048x2048 main_cst_10
  let main_v30 : IVec S2048x2048 1 := cmpf .oeq main_arg0 main_v29
  let main_cst_11 : FVec F S_ .f32 := constant S_ .f32 0x3F800000#32
  let main_v31 : FVec F S2048x2048 .f32 := broadcastInDim S2048x2048 ![] bcast_S_S2048x2048 main_cst_11
  let main_v32 : IVec S2048x2048 1 := cmpf .oeq main_arg0 main_v31
  let main_v33 : IVec S2048x2048 1 := ori main_v30 main_v32
  fn_part2 (F := F) main_v28 main_v33

def fn {F : FTy → Type} [FloatOps F] (main_arg0 : FVec F S2048x2048 .f32) (main_arg1 : FVec F S2048x32 .f32) (main_arg2 : FVec F S32x32 .f32) (main_arg3 : FVec F S32 .f32) (main_arg4 : FVec F S32x32 .f32) (main_arg5 : FVec F S32 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x32 .f32 := Host.absf main_arg1
  let main_cst_0 : FVec F S_ .f32 := constant S_ .f32 0x7F800000#32
  let main_v5 : FVec F S2048x32 .f32 := broadcastInDim S2048x32 ![] bcast_S_S2048x32 main_cst_0
  let main_v6 : IVec S2048x32 1 := cmpf .olt main_v4 main_v5
  let main_c_1 : IVec S_ 1 := constantI S_ 1 1#1
  let main_v7 : IVec S_ 1 := (fun x v => Host.reduce IntOp.andi x v reducesTo_S2048x32_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg0 main_arg4 main_arg5 main_v13 main_v16
-- ==== Kernel.lean ====
abbrev S2048x2048 : Shape := ⟨2, ![2048, 2048]⟩
abbrev S2048x32 : Shape := ⟨2, ![2048, 32]⟩
abbrev S32x32 : Shape := ⟨2, ![32, 32]⟩
abbrev S32 : Shape := ⟨1, ![32]⟩
abbrev S1x32 : Shape := ⟨2, ![1, 32]⟩
abbrev S32x2048 : Shape := ⟨2, ![32, 2048]⟩
abbrev S2048 : Shape := ⟨1, ![2048]⟩
abbrev S1x2048 : Shape := ⟨2, ![1, 2048]⟩
abbrev S32x1 : Shape := ⟨2, ![32, 1]⟩

abbrev nBuf : Space → Nat
  | .hbm => 9
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x32, .f32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x32, .f32⟩
  | .hbm, ⟨7, _⟩ => ⟨S1x32, .f32⟩
  | .hbm, ⟨8, _⟩ => ⟨S2048x32, .f32⟩
  | .local _ .vmem, ⟨0, _⟩ => ⟨S2048x2048, .f32⟩
  | .local _ .vmem, ⟨1, _⟩ => ⟨S2048x32, .f32⟩
  | .local _ .vmem, ⟨2, _⟩ => ⟨S32x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S2048x32, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

class Facts₀ : Prop where
  shapeCasts_S32_S1x32 : S32.ShapeCasts S1x32
  inb_S2048x2048_S2048x2048_0_0 : ∀ a, (![0, 0] : Fin 2 → Nat) a + S2048x2048.size a ≤ S2048x2048.size a
  h_S2048x2048 : 0 < S2048x2048.numel
  inb_S2048x32_S2048x32_0_0 : ∀ a, (![0, 0] : Fin 2 → Nat) a + S2048x32.size a ≤ S2048x32.size a
  h_S2048x32 : 0 < S2048x32.numel
  transposes_S2048x32_p1_0_S32x2048 : S2048x32.Transposes [1, 0] S32x2048
  reduces_S2048x2048_S2048 : S2048x2048.Reduces [0] S2048
  shapeCasts_S2048_S1x2048 : S2048.ShapeCasts S1x2048
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  broadcasts_S1x2048_S32x2048 : S1x2048.Broadcasts S32x2048
  inb_S1x32_S1x32_0_0 : ∀ a, (![0, 0] : Fin 2 → Nat) a + S1x32.size a ≤ S1x32.size a
  h_S1x32 : 0 < S1x32.numel
  shapeCasts_S1x32_S1x32 : S1x32.ShapeCasts S1x32
  transposes_S1x32_p1_0_S32x1 : S1x32.Transposes [1, 0] S32x1
  broadcasts_S32x1_S32x2048 : S32x1.Broadcasts S32x2048
  transposes_S32x2048_p1_0_S2048x32 : S32x2048.Transposes [1, 0] S2048x32
  dot_S32x32_S32x2048_S32x2048_1_0_0_1_n_n_wf : DotDims.WF S32x32 S32x2048 S32x2048 [1] [0] [0] [1] [] []
  dot_S32x2048_S2048x2048_S32x2048_1_0_0_1_n_n_wf : DotDims.WF S32x2048 S2048x2048 S32x2048 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole

variable [Facts₀]

def dot_S32x32_S32x2048_S32x2048_1_0_0_1_n_n : DotDims S32x32 S32x2048 S32x2048 where
  lhsContracting := [1]
  rhsContracting := [0]
  lhsNonContracting := [0]
  rhsNonContracting := [1]
  lhsBatch := []
  rhsBatch := []
  wf := dot_S32x32_S32x2048_S32x2048_1_0_0_1_n_n_wf
def dot_S32x2048_S2048x2048_S32x2048_1_0_0_1_n_n : DotDims S32x2048 S2048x2048 S32x2048 where
  lhsContracting := [1]
  rhsContracting := [0]
  lhsNonContracting := [0]
  rhsNonContracting := [1]
  lhsBatch := []
  rhsBatch := []
  wf := dot_S32x2048_S2048x2048_S32x2048_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v0) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_v2) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S2048x32 : Shape := ⟨2, ![2048, 32]⟩
abbrev S32x32 : Shape := ⟨2, ![32, 32]⟩
abbrev S32 : Shape := ⟨1, ![32]⟩
abbrev S_ : Shape := ⟨0, ![]⟩
abbrev S4194304 : Shape := ⟨1, ![4194304]⟩
abbrev S4194304x1 : Shape := ⟨2, ![4194304, 1]⟩
abbrev S2048 : Shape := ⟨1, ![2048]⟩
abbrev S4196352 : Shape := ⟨1, ![4196352]⟩
abbrev S4196352x1 : Shape := ⟨2, ![4196352, 1]⟩
abbrev S4196352x32 : Shape := ⟨2, ![4196352, 32]⟩
abbrev S1x32 : Shape := ⟨2, ![1, 32]⟩

abbrev nBuf : Space → Nat
  | .hbm => 276
  | .vmem => 0
  | .smem => 0
  | _ => 0

abbrev hbmTy0_0 (i : Nat) : BufTy := match i % 128 with
  | 0 => ⟨S2048x2048, .f32⟩
  | 1 => ⟨S2048x32, .f32⟩
  | 2 => ⟨S32x32, .f32⟩
  | 3 => ⟨S32, .f32⟩
  | 4 => ⟨S32x32, .f32⟩
  | 5 => ⟨S32, .f32⟩
  | 6 => ⟨S_, .f32⟩
  | 7 => ⟨S2048x2048, .f32⟩
  | 8 => ⟨S2048x2048, .i1⟩
  | 9 => ⟨S4194304, .i1⟩
  | 10 => ⟨S4194304, .i32⟩
  | 11 => ⟨S_, .i32⟩
  | 12 => ⟨S_, .i32⟩
  | 13 => ⟨S4194304, .i32⟩
  | 14 => ⟨S_, .i32⟩
  | 15 => ⟨S4194304, .i32⟩
  | 16 => ⟨S_, .i32⟩
  | 17 => ⟨S_, .i32⟩
  | 18 => ⟨S4194304, .i32⟩
  | 19 => ⟨S4194304, .i32⟩
  | 20 => ⟨S_, .i32⟩
  | 21 => ⟨S4194304, .i32⟩
  | 22 => ⟨S4194304, .i1⟩
  | 23 => ⟨S_, .i32⟩
  | 24 => ⟨S4194304, .i32⟩
  | 25 => ⟨S4194304, .i32⟩
  | 26 => ⟨S4194304, .i32⟩
  | 27 => ⟨S4194304x1, .i32⟩
  | 28 => ⟨S_, .i32⟩
  | 29 => ⟨S4194304, .i32⟩
  | 30 => ⟨S4194304, .i32⟩
  | 31 => ⟨S_, .i32⟩
  | 32 => ⟨S_, .i32⟩
  | 33 => ⟨S4194304, .i32⟩
  | 34 => ⟨S_, .i32⟩
  | 35 => ⟨S4194304, .i32⟩
  | 36 => ⟨S4194304, .i32⟩
  | 37 => ⟨S4194304, .i32⟩
  | 38 => ⟨S_, .i32⟩
  | 39 => ⟨S4194304, .i32⟩
  | 40 => ⟨S4194304, .i1⟩
  | 41 => ⟨S4194304, .i32⟩
  | 42 => ⟨S4194304, .i32⟩
  | 43 => ⟨S_, .i32⟩
  | 44 => ⟨S4194304, .i32⟩
  | 45 => ⟨S4194304, .i1⟩
  | 46 => ⟨S4194304, .i1⟩
  | 47 => ⟨S_, .i32⟩
  | 48 => ⟨S4194304, .i32⟩
  | 49 => ⟨S4194304, .i32⟩
  | 50 => ⟨S4194304, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S4194304, .i32⟩
  | 58 => ⟨S4194304, .i32⟩
  | 59 => ⟨S_, .i32⟩
  | 60 => ⟨S4194304, .i32⟩
  | 61 => ⟨S4194304, .i1⟩
  | 62 => ⟨S_, .i32⟩
  | 63 => ⟨S4194304, .i32⟩
  | 64 => ⟨S4194304, .i1⟩
  | 65 => ⟨S_, .i32⟩
  | 66 => ⟨S_, .i1⟩
  | 67 => ⟨S4194304, .i1⟩
  | 68 => ⟨S4194304, .i1⟩
  | 69 => ⟨S4194304, .i1⟩
  | 70 => ⟨S4194304, .i32⟩
  | 71 => ⟨S4194304, .i32⟩
  | 72 => ⟨S4194304, .i32⟩
  | 73 => ⟨S_, .i32⟩
  | 74 => ⟨S4194304, .i32⟩
  | 75 => ⟨S4194304, .i32⟩
  | 76 => ⟨S4194304, .i32⟩
  | 77 => ⟨S_, .i32⟩
  | 78 => ⟨S4194304, .i32⟩
  | 79 => ⟨S4194304, .i1⟩
  | 80 => ⟨S4194304, .i32⟩
  | 81 => ⟨S4194304, .i32⟩
  | 82 => ⟨S_, .i32⟩
  | 83 => ⟨S4194304, .i32⟩
  | 84 => ⟨S4194304, .i1⟩
  | 85 => ⟨S4194304, .i1⟩
  | 86 => ⟨S_, .i32⟩
  | 87 => ⟨S4194304, .i32⟩
  | 88 => ⟨S4194304, .i32⟩
  | 89 => ⟨S4194304, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S4194304, .i32⟩
  | 97 => ⟨S4194304, .i32⟩
  | 98 => ⟨S_, .i32⟩
  | 99 => ⟨S4194304, .i32⟩
  | 100 => ⟨S4194304, .i1⟩
  | 101 => ⟨S_, .i32⟩
  | 102 => ⟨S4194304, .i32⟩
  | 103 => ⟨S4194304, .i1⟩
  | 104 => ⟨S_, .i32⟩
  | 105 => ⟨S_, .i1⟩
  | 106 => ⟨S4194304, .i1⟩
  | 107 => ⟨S4194304, .i1⟩
  | 108 => ⟨S4194304, .i1⟩
  | 109 => ⟨S4194304, .i32⟩
  | 110 => ⟨S4194304, .i32⟩
  | 111 => ⟨S4194304, .i32⟩
  | 112 => ⟨S4194304, .i32⟩
  | 113 => ⟨S2048x2048, .i32⟩
  | 114 => ⟨S_, .i32⟩
  | 115 => ⟨S_, .i32⟩
  | 116 => ⟨S4194304, .i32⟩
  | 117 => ⟨S4194304, .i1⟩
  | 118 => ⟨S_, .i32⟩
  | 119 => ⟨S_, .i32⟩
  | 120 => ⟨S4194304, .i32⟩
  | 121 => ⟨S4194304, .i32⟩
  | 122 => ⟨S_, .i32⟩
  | 123 => ⟨S_, .i32⟩
  | 124 => ⟨S4194304, .i32⟩
  | 125 => ⟨S4194304, .i32⟩
  | 126 => ⟨S2048x32, .f32⟩
  | 127 => ⟨S2048, .i32⟩
  | _ => ⟨S2048x2048, .f32⟩

abbrev hbmTy0_1 (i : Nat) : BufTy := match i % 128 with
  | 0 => ⟨S4196352, .i32⟩
  | 1 => ⟨S4196352, .i32⟩
  | 2 => ⟨S_, .f32⟩
  | 3 => ⟨S2048, .f32⟩
  | 4 => ⟨S_, .i32⟩
  | 5 => ⟨S4196352, .i32⟩
  | 6 => ⟨S4196352, .i1⟩
  | 7 => ⟨S_, .i32⟩
  | 8 => ⟨S4196352, .i32⟩
  | 9 => ⟨S4196352, .i32⟩
  | 10 => ⟨S4196352, .i32⟩
  | 11 => ⟨S4196352x1, .i32⟩
  | 12 => ⟨S_, .f32⟩
  | 13 => ⟨S4196352, .f32⟩
  | 14 => ⟨S2048, .f32⟩
  | 15 => ⟨S_, .f32⟩
  | 16 => ⟨S2048, .f32⟩
  | 17 => ⟨S2048, .i1⟩
  | 18 => ⟨S_, .f32⟩
  | 19 => ⟨S2048, .f32⟩
  | 20 => ⟨S2048, .f32⟩
  | 21 => ⟨S2048, .f32⟩
  | 22 => ⟨S_, .f32⟩
  | 23 => ⟨S_, .f32⟩
  | 24 => ⟨S2048, .f32⟩
  | 25 => ⟨S2048, .f32⟩
  | 26 => ⟨S_, .i32⟩
  | 27 => ⟨S4196352, .i32⟩
  | 28 => ⟨S4196352, .i1⟩
  | 29 => ⟨S_, .i32⟩
  | 30 => ⟨S4196352, .i32⟩
  | 31 => ⟨S4196352, .i32⟩
  | 32 => ⟨S4196352, .i32⟩
  | 33 => ⟨S4196352x1, .i32⟩
  | 34 => ⟨S4196352, .f32⟩
  | 35 => ⟨S_, .i32⟩
  | 36 => ⟨S4196352, .i32⟩
  | 37 => ⟨S4196352, .i1⟩
  | 38 => ⟨S_, .i32⟩
  | 39 => ⟨S4196352, .i32⟩
  | 40 => ⟨S4196352, .i32⟩
  | 41 => ⟨S4196352, .i32⟩
  | 42 => ⟨S4196352x1, .i32⟩
  | 43 => ⟨S4196352, .f32⟩
  | 44 => ⟨S4196352, .f32⟩
  | 45 => ⟨S_, .i32⟩
  | 46 => ⟨S4196352, .i32⟩
  | 47 => ⟨S4196352, .i1⟩
  | 48 => ⟨S_, .i32⟩
  | 49 => ⟨S4196352, .i32⟩
  | 50 => ⟨S4196352, .i32⟩
  | 51 => ⟨S4196352, .i32⟩
  | 52 => ⟨S4196352x1, .i32⟩
  | 53 => ⟨S4196352x32, .f32⟩
  | 54 => ⟨S4196352x1, .f32⟩
  | 55 => ⟨S4196352x32, .f32⟩
  | 56 => ⟨S4196352x32, .f32⟩
  | 57 => ⟨S_, .f32⟩
  | 58 => ⟨S2048x32, .f32⟩
  | 59 => ⟨S_, .i32⟩
  | 60 => ⟨S4196352, .i32⟩
  | 61 => ⟨S4196352, .i1⟩
  | 62 => ⟨S_, .i32⟩
  | 63 => ⟨S4196352, .i32⟩
  | 64 => ⟨S4196352, .i32⟩
  | 65 => ⟨S4196352, .i32⟩
  | 66 => ⟨S4196352x1, .i32⟩
  | 67 => ⟨S2048x32, .f32⟩
  | 68 => ⟨S1x32, .f32⟩
  | 69 => ⟨S2048x32, .f32⟩
  | 70 => ⟨S2048x32, .f32⟩
  | 71 => ⟨S_, .f32⟩
  | 72 => ⟨S2048x32, .f32⟩
  | 73 => ⟨S2048x32, .f32⟩
  | 74 => ⟨S2048x32, .f32⟩
  | 75 => ⟨S2048, .i32⟩
  | 76 => ⟨S4196352, .i32⟩
  | 77 => ⟨S4196352, .i32⟩
  | 78 => ⟨S_, .f32⟩
  | 79 => ⟨S2048, .f32⟩
  | 80 => ⟨S_, .i32⟩
  | 81 => ⟨S4196352, .i32⟩
  | 82 => ⟨S4196352, .i1⟩
  | 83 => ⟨S_, .i32⟩
  | 84 => ⟨S4196352, .i32⟩
  | 85 => ⟨S4196352, .i32⟩
  | 86 => ⟨S4196352, .i32⟩
  | 87 => ⟨S4196352x1, .i32⟩
  | 88 => ⟨S_, .f32⟩
  | 89 => ⟨S4196352, .f32⟩
  | 90 => ⟨S2048, .f32⟩
  | 91 => ⟨S_, .f32⟩
  | 92 => ⟨S2048, .f32⟩
  | 93 => ⟨S2048, .i1⟩
  | 94 => ⟨S_, .f32⟩
  | 95 => ⟨S2048, .f32⟩
  | 96 => ⟨S2048, .f32⟩
  | 97 => ⟨S2048, .f32⟩
  | 98 => ⟨S_, .f32⟩
  | 99 => ⟨S_, .f32⟩
  | 100 => ⟨S2048, .f32⟩
  | 101 => ⟨S2048, .f32⟩
  | 102 => ⟨S_, .i32⟩
  | 103 => ⟨S4196352, .i32⟩
  | 104 => ⟨S4196352, .i1⟩
  | 105 => ⟨S_, .i32⟩
  | 106 => ⟨S4196352, .i32⟩
  | 107 => ⟨S4196352, .i32⟩
  | 108 => ⟨S4196352, .i32⟩
  | 109 => ⟨S4196352x1, .i32⟩
  | 110 => ⟨S4196352, .f32⟩
  | 111 => ⟨S_, .i32⟩
  | 112 => ⟨S4196352, .i32⟩
  | 113 => ⟨S4196352, .i1⟩
  | 114 => ⟨S_, .i32⟩
  | 115 => ⟨S4196352, .i32⟩
  | 116 => ⟨S4196352, .i32⟩
  | 117 => ⟨S4196352, .i32⟩
  | 118 => ⟨S4196352x1, .i32⟩
  | 119 => ⟨S4196352, .f32⟩
  | 120 => ⟨S4196352, .f32⟩
  | 121 => ⟨S_, .i32⟩
  | 122 => ⟨S4196352, .i32⟩
  | 123 => ⟨S4196352, .i1⟩
  | 124 => ⟨S_, .i32⟩
  | 125 => ⟨S4196352, .i32⟩
  | 126 => ⟨S4196352, .i32⟩
  | 127 => ⟨S4196352, .i32⟩
  | _ => ⟨S2048x2048, .f32⟩

abbrev hbmTy0_2 (i : Nat) : BufTy := match i % 128 with
  | 0 => ⟨S4196352x1, .i32⟩
  | 1 => ⟨S4196352x32, .f32⟩
  | 2 => ⟨S4196352x1, .f32⟩
  | 3 => ⟨S4196352x32, .f32⟩
  | 4 => ⟨S4196352x32, .f32⟩
  | 5 => ⟨S_, .f32⟩
  | 6 => ⟨S2048x32, .f32⟩
  | 7 => ⟨S_, .i32⟩
  | 8 => ⟨S4196352, .i32⟩
  | 9 => ⟨S4196352, .i1⟩
  | 10 => ⟨S_, .i32⟩
  | 11 => ⟨S4196352, .i32⟩
  | 12 => ⟨S4196352, .i32⟩
  | 13 => ⟨S4196352, .i32⟩
  | 14 => ⟨S4196352x1, .i32⟩
  | 15 => ⟨S2048x32, .f32⟩
  | 16 => ⟨S1x32, .f32⟩
  | 17 => ⟨S2048x32, .f32⟩
  | 18 => ⟨S2048x32, .f32⟩
  | 19 => ⟨S2048x32, .f32⟩
  | _ => ⟨S2048x2048, .f32⟩

abbrev hbmTy (i : Nat) : BufTy := match i / 128 with
  | 0 => hbmTy0_0 i
  | 1 => hbmTy0_1 i
  | 2 => hbmTy0_2 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_call0_c : Ref sig .tc := ⟨.hbm, 11, rfl⟩
abbrev main_call0_call0_v0 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_v4 : Ref sig .tc := ⟨.hbm, 19, rfl⟩
abbrev main_c_1 : Ref sig .tc := ⟨.hbm, 20, rfl⟩
abbrev main_v5 : Ref sig .tc := ⟨.hbm, 21, rfl⟩
abbrev main_v6 : Ref sig .tc := ⟨.hbm, 22, rfl⟩
abbrev main_c_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_call2_call0_c : Ref sig .tc := ⟨.hbm, 31, rfl⟩
abbrev main_call2_call0_v0 : Ref sig .tc := ⟨.hbm, 32, rfl⟩
abbrev main_v13 : Ref sig .tc := ⟨.hbm, 33, rfl⟩
abbrev main_c_4 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_v6 : Ref sig .tc := ⟨.hbm, 41, rfl⟩
abbrev main_call3_v7 : Ref sig .tc := ⟨.hbm, 42, rfl⟩
abbrev main_call3_c : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_c_0 : Ref sig .tc := ⟨.hbm, 47, rfl⟩
abbrev main_call3_v11 : Ref sig .tc := ⟨.hbm, 48, rfl⟩
abbrev main_call3_v12 : Ref sig .tc := ⟨.hbm, 49, rfl⟩
abbrev main_v14 : Ref sig .tc := ⟨.hbm, 50, rfl⟩
abbrev main_c_5 : Ref sig .tc := ⟨.hbm, 51, rfl⟩
abbrev main_call4_v0 : Ref sig .tc := ⟨.hbm, 52, rfl⟩
abbrev main_call4_c : Ref sig .tc := ⟨.hbm, 53, rfl⟩
abbrev main_call4_v1 : Ref sig .tc := ⟨.hbm, 54, rfl⟩
abbrev main_call4_c_0 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_c_1 : Ref sig .tc := ⟨.hbm, 59, rfl⟩
abbrev main_call4_v5 : Ref sig .tc := ⟨.hbm, 60, rfl⟩
abbrev main_call4_v6 : Ref sig .tc := ⟨.hbm, 61, rfl⟩
abbrev main_call4_c_2 : Ref sig .tc := ⟨.hbm, 62, rfl⟩
abbrev main_call4_v7 : Ref sig .tc := ⟨.hbm, 63, rfl⟩
abbrev main_call4_v8 : Ref sig .tc := ⟨.hbm, 64, rfl⟩
abbrev main_call4_c_3 : Ref sig .tc := ⟨.hbm, 65, rfl⟩
abbrev main_call4_v9 : Ref sig .tc := ⟨.hbm, 66, rfl⟩
abbrev main_call4_v10 : Ref sig .tc := ⟨.hbm, 67, rfl⟩
abbrev main_call4_v11 : Ref sig .tc := ⟨.hbm, 68, rfl⟩
abbrev main_call4_v12 : Ref sig .tc := ⟨.hbm, 69, rfl⟩
abbrev main_call4_v13 : Ref sig .tc := ⟨.hbm, 70, rfl⟩
abbrev main_call4_v14 : Ref sig .tc := ⟨.hbm, 71, rfl⟩
abbrev main_v15 : Ref sig .tc := ⟨.hbm, 72, rfl⟩
abbrev main_c_6 : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_v6 : Ref sig .tc := ⟨.hbm, 80, rfl⟩
abbrev main_call5_v7 : Ref sig .tc := ⟨.hbm, 81, rfl⟩
abbrev main_call5_c : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_c_0 : Ref sig .tc := ⟨.hbm, 86, rfl⟩
abbrev main_call5_v11 : Ref sig .tc := ⟨.hbm, 87, rfl⟩
abbrev main_call5_v12 : Ref sig .tc := ⟨.hbm, 88, rfl⟩
abbrev main_v16 : Ref sig .tc := ⟨.hbm, 89, rfl⟩
abbrev main_c_7 : Ref sig .tc := ⟨.hbm, 90, rfl⟩
abbrev main_call6_v0 : Ref sig .tc := ⟨.hbm, 91, rfl⟩
abbrev main_call6_c : Ref sig .tc := ⟨.hbm, 92, rfl⟩
abbrev main_call6_v1 : Ref sig .tc := ⟨.hbm, 93, rfl⟩
abbrev main_call6_c_0 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_call6_c_1 : Ref sig .tc := ⟨.hbm, 98, rfl⟩
abbrev main_call6_v5 : Ref sig .tc := ⟨.hbm, 99, rfl⟩
abbrev main_call6_v6 : Ref sig .tc := ⟨.hbm, 100, rfl⟩
abbrev main_call6_c_2 : Ref sig .tc := ⟨.hbm, 101, rfl⟩
abbrev main_call6_v7 : Ref sig .tc := ⟨.hbm, 102, rfl⟩
abbrev main_call6_v8 : Ref sig .tc := ⟨.hbm, 103, rfl⟩
abbrev main_call6_c_3 : Ref sig .tc := ⟨.hbm, 104, rfl⟩
abbrev main_call6_v9 : Ref sig .tc := ⟨.hbm, 105, rfl⟩
abbrev main_call6_v10 : Ref sig .tc := ⟨.hbm, 106, rfl⟩
abbrev main_call6_v11 : Ref sig .tc := ⟨.hbm, 107, rfl⟩
abbrev main_call6_v12 : Ref sig .tc := ⟨.hbm, 108, rfl⟩
abbrev main_call6_v13 : Ref sig .tc := ⟨.hbm, 109, rfl⟩
abbrev main_call6_v14 : Ref sig .tc := ⟨.hbm, 110, rfl⟩
abbrev main_v17 : Ref sig .tc := ⟨.hbm, 111, rfl⟩
abbrev main_v18 : Ref sig .tc := ⟨.hbm, 112, rfl⟩
abbrev main_v19 : Ref sig .tc := ⟨.hbm, 113, rfl⟩
abbrev main_c_8 : Ref sig .tc := ⟨.hbm, 114, rfl⟩
abbrev main_v20 : Ref sig .tc := ⟨.hbm, 115, rfl⟩
abbrev main_v21 : Ref sig .tc := ⟨.hbm, 116, rfl⟩
abbrev main_v22 : Ref sig .tc := ⟨.hbm, 117, rfl⟩
abbrev main_c_9 : Ref sig .tc := ⟨.hbm, 118, rfl⟩
abbrev main_call7_v0 : Ref sig .tc := ⟨.hbm, 119, rfl⟩
abbrev main_call7_v1 : Ref sig .tc := ⟨.hbm, 120, rfl⟩
abbrev main_v23 : Ref sig .tc := ⟨.hbm, 121, rfl⟩
abbrev main_c_10 : Ref sig .tc := ⟨.hbm, 122, rfl⟩
abbrev main_call8_v0 : Ref sig .tc := ⟨.hbm, 123, rfl⟩
abbrev main_call8_v1 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_v28 : Ref sig .tc := ⟨.hbm, 129, rfl⟩
abbrev main_cst_11 : Ref sig .tc := ⟨.hbm, 130, rfl⟩
abbrev main_v29 : Ref sig .tc := ⟨.hbm, 131, rfl⟩
abbrev main_c_12 : Ref sig .tc := ⟨.hbm, 132, rfl⟩
abbrev main_v30 : Ref sig .tc := ⟨.hbm, 133, rfl⟩
abbrev main_v31 : Ref sig .tc := ⟨.hbm, 134, rfl⟩
abbrev main_c_13 : Ref sig .tc := ⟨.hbm, 135, rfl⟩
abbrev main_v32 : Ref sig .tc := ⟨.hbm, 136, rfl⟩
abbrev main_v33 : Ref sig .tc := ⟨.hbm, 137, rfl⟩
abbrev main_v34 : Ref sig .tc := ⟨.hbm, 138, rfl⟩
abbrev main_v35 : Ref sig .tc := ⟨.hbm, 139, rfl⟩
abbrev main_cst_14 : Ref sig .tc := ⟨.hbm, 140, rfl⟩
abbrev main_v36 : Ref sig .tc := ⟨.hbm, 141, rfl⟩
abbrev main_v37 : Ref sig .tc := ⟨.hbm, 142, rfl⟩
abbrev main_cst_15 : Ref sig .tc := ⟨.hbm, 143, rfl⟩
abbrev main_v38 : Ref sig .tc := ⟨.hbm, 144, rfl⟩
abbrev main_v39 : Ref sig .tc := ⟨.hbm, 145, rfl⟩
abbrev main_cst_16 : Ref sig .tc := ⟨.hbm, 146, rfl⟩
abbrev main_v40 : Ref sig .tc := ⟨.hbm, 147, rfl⟩
abbrev main_v41 : Ref sig .tc := ⟨.hbm, 148, rfl⟩
abbrev main_v42 : Ref sig .tc := ⟨.hbm, 149, rfl⟩
abbrev main_cst_17 : Ref sig .tc := ⟨.hbm, 150, rfl⟩
abbrev main_call9_v0 : Ref sig .tc := ⟨.hbm, 151, rfl⟩
abbrev main_call9_v1 : Ref sig .tc := ⟨.hbm, 152, rfl⟩
abbrev main_v43 : Ref sig .tc := ⟨.hbm, 153, rfl⟩
abbrev main_c_18 : Ref sig .tc := ⟨.hbm, 154, rfl⟩
abbrev main_v44 : Ref sig .tc := ⟨.hbm, 155, rfl⟩
abbrev main_v45 : Ref sig .tc := ⟨.hbm, 156, rfl⟩
abbrev main_c_19 : Ref sig .tc := ⟨.hbm, 157, rfl⟩
abbrev main_v46 : Ref sig .tc := ⟨.hbm, 158, rfl⟩
abbrev main_v47 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_c_20 : Ref sig .tc := ⟨.hbm, 163, rfl⟩
abbrev main_v51 : Ref sig .tc := ⟨.hbm, 164, rfl⟩
abbrev main_v52 : Ref sig .tc := ⟨.hbm, 165, rfl⟩
abbrev main_c_21 : Ref sig .tc := ⟨.hbm, 166, rfl⟩
abbrev main_v53 : Ref sig .tc := ⟨.hbm, 167, rfl⟩
abbrev main_v54 : Ref sig .tc := ⟨.hbm, 168, rfl⟩
abbrev main_v55 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_c_22 : Ref sig .tc := ⟨.hbm, 173, rfl⟩
abbrev main_v59 : Ref sig .tc := ⟨.hbm, 174, rfl⟩
abbrev main_v60 : Ref sig .tc := ⟨.hbm, 175, rfl⟩
abbrev main_c_23 : Ref sig .tc := ⟨.hbm, 176, rfl⟩
abbrev main_v61 : Ref sig .tc := ⟨.hbm, 177, rfl⟩
abbrev main_v62 : Ref sig .tc := ⟨.hbm, 178, rfl⟩
abbrev main_v63 : Ref sig .tc := ⟨.hbm, 179, rfl⟩
abbrev main_v64 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_v68 : Ref sig .tc := ⟨.hbm, 184, rfl⟩
abbrev main_cst_24 : Ref sig .tc := ⟨.hbm, 185, rfl⟩
abbrev main_v69 : Ref sig .tc := ⟨.hbm, 186, rfl⟩
abbrev main_c_25 : Ref sig .tc := ⟨.hbm, 187, rfl⟩
abbrev main_v70 : Ref sig .tc := ⟨.hbm, 188, rfl⟩
abbrev main_v71 : Ref sig .tc := ⟨.hbm, 189, rfl⟩
abbrev main_c_26 : Ref sig .tc := ⟨.hbm, 190, rfl⟩
abbrev main_v72 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_v78 : Ref sig .tc := ⟨.hbm, 197, rfl⟩
abbrev main_v79 : Ref sig .tc := ⟨.hbm, 198, rfl⟩
abbrev main_call10_cst : Ref sig .tc := ⟨.hbm, 199, rfl⟩
abbrev main_call10_v0 : Ref sig .tc := ⟨.hbm, 200, rfl⟩
abbrev main_v80 : Ref sig .tc := ⟨.hbm, 201, rfl⟩
abbrev main_v81 : Ref sig .tc := ⟨.hbm, 202, rfl⟩
abbrev main_v82 : Ref sig .tc := ⟨.hbm, 203, rfl⟩
abbrev main_v83 : Ref sig .tc := ⟨.hbm, 204, rfl⟩
abbrev main_v84 : Ref sig .tc := ⟨.hbm, 205, rfl⟩
abbrev main_cst_27 : Ref sig .tc := ⟨.hbm, 206, rfl⟩
abbrev main_v85 : Ref sig .tc := ⟨.hbm, 207, rfl⟩
abbrev main_c_28 : Ref sig .tc := ⟨.hbm, 208, rfl⟩
abbrev main_v86 : Ref sig .tc := ⟨.hbm, 209, rfl⟩
abbrev main_v87 : Ref sig .tc := ⟨.hbm, 210, rfl⟩
abbrev main_c_29 : Ref sig .tc := ⟨.hbm, 211, rfl⟩
abbrev main_v88 : Ref sig .tc := ⟨.hbm, 212, rfl⟩
abbrev main_v89 : Ref sig .tc := ⟨.hbm, 213, rfl⟩
abbrev main_v90 : Ref sig .tc := ⟨.hbm, 214, rfl⟩
abbrev main_v91 : Ref sig .tc := ⟨.hbm, 215, rfl⟩
abbrev main_cst_30 : Ref sig .tc := ⟨.hbm, 216, rfl⟩
abbrev main_v92 : Ref sig .tc := ⟨.hbm, 217, rfl⟩
abbrev main_v93 : Ref sig .tc := ⟨.hbm, 218, rfl⟩
abbrev main_cst_31 : Ref sig .tc := ⟨.hbm, 219, rfl⟩
abbrev main_v94 : Ref sig .tc := ⟨.hbm, 220, rfl⟩
abbrev main_v95 : Ref sig .tc := ⟨.hbm, 221, rfl⟩
abbrev main_cst_32 : Ref sig .tc := ⟨.hbm, 222, rfl⟩
abbrev main_v96 : Ref sig .tc := ⟨.hbm, 223, rfl⟩
abbrev main_v97 : Ref sig .tc := ⟨.hbm, 224, rfl⟩
abbrev main_v98 : Ref sig .tc := ⟨.hbm, 225, rfl⟩
abbrev main_cst_33 : Ref sig .tc := ⟨.hbm, 226, rfl⟩
abbrev main_call11_v0 : Ref sig .tc := ⟨.hbm, 227, rfl⟩
abbrev main_call11_v1 : Ref sig .tc := ⟨.hbm, 228, rfl⟩
abbrev main_v99 : Ref sig .tc := ⟨.hbm, 229, rfl⟩
abbrev main_c_34 : Ref sig .tc := ⟨.hbm, 230, rfl⟩
abbrev main_v100 : Ref sig .tc := ⟨.hbm, 231, rfl⟩
abbrev main_v101 : Ref sig .tc := ⟨.hbm, 232, rfl⟩
abbrev main_c_35 : Ref sig .tc := ⟨.hbm, 233, rfl⟩
abbrev main_v102 : Ref sig .tc := ⟨.hbm, 234, rfl⟩
abbrev main_v103 : Ref sig .tc := ⟨.hbm, 235, rfl⟩
abbrev main_v104 : Ref sig .tc := ⟨.hbm, 236, rfl⟩
abbrev main_v105 : Ref sig .tc := ⟨.hbm, 237, rfl⟩
abbrev main_v106 : Ref sig .tc := ⟨.hbm, 238, rfl⟩
abbrev main_c_36 : Ref sig .tc := ⟨.hbm, 239, rfl⟩
abbrev main_v107 : Ref sig .tc := ⟨.hbm, 240, rfl⟩
abbrev main_v108 : Ref sig .tc := ⟨.hbm, 241, rfl⟩
abbrev main_c_37 : Ref sig .tc := ⟨.hbm, 242, rfl⟩
abbrev main_v109 : Ref sig .tc := ⟨.hbm, 243, rfl⟩
abbrev main_v110 : Ref sig .tc := ⟨.hbm, 244, rfl⟩
abbrev main_v111 : Ref sig .tc := ⟨.hbm, 245, rfl⟩
abbrev main_v112 : Ref sig .tc := ⟨.hbm, 246, rfl⟩
abbrev main_v113 : Ref sig .tc := ⟨.hbm, 247, rfl⟩
abbrev main_v114 : Ref sig .tc := ⟨.hbm, 248, rfl⟩
abbrev main_c_38 : Ref sig .tc := ⟨.hbm, 249, rfl⟩
abbrev main_v115 : Ref sig .tc := ⟨.hbm, 250, rfl⟩
abbrev main_v116 : Ref sig .tc := ⟨.hbm, 251, rfl⟩
abbrev main_c_39 : Ref sig .tc := ⟨.hbm, 252, rfl⟩
abbrev main_v117 : Ref sig .tc := ⟨.hbm, 253, rfl⟩
abbrev main_v118 : Ref sig .tc := ⟨.hbm, 254, rfl⟩
abbrev main_v119 : Ref sig .tc := ⟨.hbm, 255, rfl⟩
abbrev main_v120 : Ref sig .tc := ⟨.hbm, 256, rfl⟩
abbrev main_v121 : Ref sig .tc := ⟨.hbm, 257, rfl⟩
abbrev main_v122 : Ref sig .tc := ⟨.hbm, 258, rfl⟩
abbrev main_v123 : Ref sig .tc := ⟨.hbm, 259, rfl⟩
abbrev main_v124 : Ref sig .tc := ⟨.hbm, 260, rfl⟩
abbrev main_cst_40 : Ref sig .tc := ⟨.hbm, 261, rfl⟩
abbrev main_v125 : Ref sig .tc := ⟨.hbm, 262, rfl⟩
abbrev main_c_41 : Ref sig .tc := ⟨.hbm, 263, rfl⟩
abbrev main_v126 : Ref sig .tc := ⟨.hbm, 264, rfl⟩
abbrev main_v127 : Ref sig .tc := ⟨.hbm, 265, rfl⟩
abbrev main_c_42 : Ref sig .tc := ⟨.hbm, 266, rfl⟩
abbrev main_v128 : Ref sig .tc := ⟨.hbm, 267, rfl⟩
abbrev main_v129 : Ref sig .tc := ⟨.hbm, 268, rfl⟩
abbrev main_v130 : Ref sig .tc := ⟨.hbm, 269, rfl⟩
abbrev main_v131 : Ref sig .tc := ⟨.hbm, 270, rfl⟩
abbrev main_v132 : Ref sig .tc := ⟨.hbm, 271, rfl⟩
abbrev main_v133 : Ref sig .tc := ⟨.hbm, 272, rfl⟩
abbrev main_v134 : Ref sig .tc := ⟨.hbm, 273, rfl⟩
abbrev main_v135 : Ref sig .tc := ⟨.hbm, 274, rfl⟩
abbrev main_v136 : Ref sig .tc := ⟨.hbm, 275, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  shapeCasts_S2048x2048_S4194304 : S2048x2048.ShapeCasts S4194304
  natLt_1_32 : 1 < 32
  bcast_S_S_ : S_.BroadcastsInDim S_ (![] : Fin 0 → Fin S_.rank)
  reduceWindows_S4194304_S4194304_w4194304s1p4194303_0 : S4194304.ReduceWindows (![4194304] : Fin 1 → Nat) ![1] ![4194303] ![0] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  reducesTo_S2048x2048_S_d0_1 : S2048x2048.ReducesTo [0, 1] S_
  concatenates_S4194304_S2048_S4196352_d0 : Shape.Concatenates [S4194304, S2048] S4196352 0
  bcast_S_S2048 : S_.BroadcastsInDim S2048 (![] : Fin 0 → Fin S2048.rank)
  bcast_S_S4196352 : S_.BroadcastsInDim S4196352 (![] : Fin 0 → Fin S4196352.rank)
  bcast_S4196352_S4196352x1_0 : S4196352.BroadcastsInDim S4196352x1 (![0] : Fin 1 → Fin S4196352x1.rank)
  bcast_S4196352x1_S4196352x32_0_1 : S4196352x1.BroadcastsInDim S4196352x32 (![0, 1] : Fin 2 → Fin S4196352x32.rank)
  bcast_S_S2048x32 : S_.BroadcastsInDim S2048x32 (![] : Fin 0 → Fin S2048x32.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  scatter_S4194304_S4194304x1_S4194304_n_0_0_1_wf : ScatterDims.WF S4194304 S4194304x1 S4194304 [] [0] [0] 1
  dot_S2048x32_S32x32_S2048x32_1_0_0_1_n_n_wf : DotDims.WF S2048x32 S32x32 S2048x32 [1] [0] [0] [1] [] []
  scatter_S2048_S4196352x1_S4196352_n_0_0_1_wf : ScatterDims.WF S2048 S4196352x1 S4196352 [] [0] [0] 1
  gather_S2048_S4196352x1_S4196352_n_0_n_n_0_1_1_wf : GatherDims.WF S2048 S4196352x1 S4196352 [] [0] [] [0] [] 1 ![1]
  gather_S2048x32_S4196352x1_S4196352x32_1_0_n_n_0_1_132_wf : GatherDims.WF S2048x32 S4196352x1 S4196352x32 [1] [0] [] [0] [] 1 ![1, 32]
  scatter_S2048x32_S4196352x1_S4196352x32_1_0_0_1_wf : ScatterDims.WF S2048x32 S4196352x1 S4196352x32 [1] [0] [0] 1

variable [Facts₀]

def scatter_S4194304_S4194304x1_S4194304_n_0_0_1 : ScatterDims S4194304 S4194304x1 S4194304 where
  updateWindowDims := []
  insertedWindowDims := [0]
  scatterDimsToOperandDims := [0]
  indexVectorDim := 1
  wf := scatter_S4194304_S4194304x1_S4194304_n_0_0_1_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def scatter_S2048_S4196352x1_S4196352_n_0_0_1 : ScatterDims S2048 S4196352x1 S4196352 where
  updateWindowDims := []
  insertedWindowDims := [0]
  scatterDimsToOperandDims := [0]
  indexVectorDim := 1
  wf := scatter_S2048_S4196352x1_S4196352_n_0_0_1_wf
def gather_S2048_S4196352x1_S4196352_n_0_n_n_0_1_1 : GatherDims S2048 S4196352x1 S4196352 where
  offsetDims := []
  collapsedSliceDims := [0]
  operandBatchingDims := []
  startIndicesBatchingDims := []
  startIndexMap := [0]
  indexVectorDim := 1
  sliceSizes := ![1]
  wf := gather_S2048_S4196352x1_S4196352_n_0_n_n_0_1_1_wf
def gather_S2048x32_S4196352x1_S4196352x32_1_0_n_n_0_1_132 : GatherDims S2048x32 S4196352x1 S4196352x32 where
  offsetDims := [1]
  collapsedSliceDims := [0]
  operandBatchingDims := []
  startIndicesBatchingDims := []
  startIndexMap := [0]
  indexVectorDim := 1
  sliceSizes := ![1, 32]
  wf := gather_S2048x32_S4196352x1_S4196352x32_1_0_n_n_0_1_132_wf
def scatter_S2048x32_S4196352x1_S4196352x32_1_0_0_1 : ScatterDims S2048x32 S4196352x1 S4196352x32 where
  updateWindowDims := [1]
  insertedWindowDims := [0]
  scatterDimsToOperandDims := [0]
  indexVectorDim := 1
  wf := scatter_S2048x32_S4196352x1_S4196352x32_1_0_0_1_wf

class Facts : Prop extends Facts₀ where

variable [Facts]
-- ==== Proof.KVMat.lean ====
/-
  Index-level readings used by the kernel's value proof, at the extended reals: the word of the
  literal 1.0, a column broadcast, and the kernel's two matrix products (a [32,32]·[32,2048] one
  and a [32,2048]·[2048,2048] one, each into a zero accumulator) read at an output index as the sum
  over the one contracted coordinate.
-/
import proofs.«111189_g13383118094673_cont_sun_m_231_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.ValueIdx

local notation "D1" => dot_S32x32_S32x2048_S32x2048_1_0_0_1_n_n
local notation "D2" => dot_S32x2048_S2048x2048_S32x2048_1_0_0_1_n_n

/-- The word of the float literal 1.0 is the extended real 1. -/
theorem one_f32 : Ideal.ofBits .f32 0x3F800000#32 = (1 : EReal) := IdealRules.sign_bit.ideal_onePat .f32

/-- A column broadcast over many columns: an [a,1] array broadcast to [a,b] reads, at (p, c), the operand at (p, 0). -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products at an index -/

theorem lhs_D1_0 (i : S32x2048.Idx) (q : (D1).contr.Idx) : ((D1).lhsIdx i q 0).val = (i 0).val := by
  unfold DotDims.lhsIdx
  rw [dif_neg (show ¬(0 : Fin S32x32.rank) ∈ (D1).lhsBatch by decide), dif_pos (show (0 : Fin S32x32.rank) ∈ (D1).lhsNonContracting by decide)]
  rfl
theorem lhs_D1_1 (i : S32x2048.Idx) (q : (D1).contr.Idx) : ((D1).lhsIdx i q 1).val = (q ⟨0, by decide⟩).val :=
  (D1).lhsIdx_val_of_single rfl i q
theorem rhs_D1_0 (i : S32x2048.Idx) (q : (D1).contr.Idx) : ((D1).rhsIdx i q 0).val = (q ⟨0, by decide⟩).val :=
  (D1).rhsIdx_val_of_single rfl i q
theorem rhs_D1_1 (i : S32x2048.Idx) (q : (D1).contr.Idx) : ((D1).rhsIdx i q 1).val = (i 1).val := by
  unfold DotDims.rhsIdx
  rw [dif_neg (show ¬(1 : Fin S32x2048.rank) ∈ (D1).rhsBatch by decide), dif_pos (show (1 : Fin S32x2048.rank) ∈ (D1).rhsNonContracting by decide)]
  rfl

/-- The [32,32]·[32,2048] product into a zero accumulator, at (f, n): the sum over the 32 contracted coordinates. -/
theorem mm1_apply (L : FVec Ideal S32x32 .f32) (R : FVec Ideal S32x2048 .f32) (f : Fin 32) (n : Fin 2048) :
    matmul D1 none L R (constant S32x2048 .f32 0x00000000#32) (ix2 f n) = ∑ k : Fin 32, L (ix2 f k) * R (ix2 k n) := by
  show FloatOps.matmul D1 none L R (constant S32x2048 .f32 0x00000000#32) (ix2 f n) = _
  rw [Ideal.matmul_constant_zero_apply, ← Equiv.sum_comp (contrEquiv1 D1 32 rfl rfl).symm]
  refine Finset.sum_congr rfl fun k _ => ?_
  have hk := contrEquiv1_symm_val D1 32 rfl rfl k
  have el : (D1).lhsIdx (ix2 f n) ((contrEquiv1 D1 32 rfl rfl).symm k) = ix2 f k := funext fun a => Fin.ext (by
    match a with
    | ⟨0, _⟩ => exact lhs_D1_0 _ _
    | ⟨1, _⟩ => exact (lhs_D1_1 _ _).trans hk)
  have er : (D1).rhsIdx (ix2 f n) ((contrEquiv1 D1 32 rfl rfl).symm k) = ix2 k n := funext fun a => Fin.ext (by
    match a with
    | ⟨0, _⟩ => exact (rhs_D1_0 _ _).trans hk
    | ⟨1, _⟩ => exact rhs_D1_1 _ _)
  rw [el, er]

theorem lhs_D2_0 (i : S32x2048.Idx) (q : (D2).contr.Idx) : ((D2).lhsIdx i q 0).val = (i 0).val := by
  unfold DotDims.lhsIdx
  rw [dif_neg (show ¬(0 : Fin S32x2048.rank) ∈ (D2).lhsBatch by decide), dif_pos (show (0 : Fin S32x2048.rank) ∈ (D2).lhsNonContracting by decide)]
  rfl
theorem lhs_D2_1 (i : S32x2048.Idx) (q : (D2).contr.Idx) : ((D2).lhsIdx i q 1).val = (q ⟨0, by decide⟩).val :=
  (D2).lhsIdx_val_of_single rfl i q
theorem rhs_D2_0 (i : S32x2048.Idx) (q : (D2).contr.Idx) : ((D2).rhsIdx i q 0).val = (q ⟨0, by decide⟩).val :=
  (D2).rhsIdx_val_of_single rfl i q
theorem rhs_D2_1 (i : S32x2048.Idx) (q : (D2).contr.Idx) : ((D2).rhsIdx i q 1).val = (i 1).val := by
  unfold DotDims.rhsIdx
  rw [dif_neg (show ¬(1 : Fin S2048x2048.rank) ∈ (D2).rhsBatch by decide), dif_pos (show (1 : Fin S2048x2048.rank) ∈ (D2).rhsNonContracting by decide)]
  rfl

/-- The [32,2048]·[2048,2048] product into a zero accumulator, at (f, n): the sum over the 2048 contracted coordinates. -/
theorem mm2_apply (L : FVec Ideal S32x2048 .f32) (R : FVec Ideal S2048x2048 .f32) (f : Fin 32) (n : Fin 2048) :
    matmul D2 none L R (constant S32x2048 .f32 0x00000000#32) (ix2 f n) = ∑ i : Fin 2048, L (ix2 f i) * R (ix2 i n) := by
  show FloatOps.matmul D2 none L R (constant S32x2048 .f32 0x00000000#32) (ix2 f n) = _
  rw [Ideal.matmul_constant_zero_apply, ← Equiv.sum_comp (contrEquiv1 D2 2048 rfl rfl).symm]
  refine Finset.sum_congr rfl fun k _ => ?_
  have hk := contrEquiv1_symm_val D2 2048 rfl rfl k
  have el : (D2).lhsIdx (ix2 f n) ((contrEquiv1 D2 2048 rfl rfl).symm k) = ix2 f k := funext fun a => Fin.ext (by
    match a with
    | ⟨0, _⟩ => exact lhs_D2_0 _ _
    | ⟨1, _⟩ => exact (lhs_D2_1 _ _).trans hk)
  have er : (D2).rhsIdx (ix2 f n) ((contrEquiv1 D2 2048 rfl rfl).symm k) = ix2 k n := funext fun a => Fin.ext (by
    match a with
    | ⟨0, _⟩ => exact (rhs_D2_0 _ _).trans hk
    | ⟨1, _⟩ => exact rhs_D2_1 _ _)
  rw [el, er]

end Cert.KernelIdeal.KVal

end
-- ==== Proof.Spec.lean ====
/-
  The dense form of the two-layer graph convolution, as plain functions on the extended reals.

  For an adjacency array `A` (rows = source node, columns = destination node), node features `h`,
  a weight matrix `W` and a bias `b`:
    deg n      = (∑ i, A i n) + 1                      -- column sums of A + I
    dis n      = (deg n)^(-1/2)
    lin n f    = ∑ k, h n k * W k f                    -- h · W
    conv n f   = ((∑ i, (lin i f * dis i) * A i n) + lin n f * dis n) * dis n + b f
  and the network is  conv₂ (relu (conv₁ x)) + x.
-/
import Idealize.ShloMosaic.PureOps.Ideal

noncomputable section

namespace GcnSpec

open Idealize.ShloMosaic

/-- Column sums of `A + I`. -/
def deg (A : Fin 2048 → Fin 2048 → EReal) (n : Fin 2048) : EReal := (∑ i : Fin 2048, A i n) + 1

/-- The symmetric normalisation `deg^(-1/2)`. -/
def dis (A : Fin 2048 → Fin 2048 → EReal) (n : Fin 2048) : EReal := Ideal.rsqrt (deg A n)

/-- The linear layer `h · W`. -/
def lin (W : Fin 32 → Fin 32 → EReal) (h : Fin 2048 → Fin 32 → EReal) (n : Fin 2048) (f : Fin 32) : EReal :=
  ∑ k : Fin 32, h n k * W k f

/-- One graph convolution in dense form: `dis ⊙ ((A + I)ᵀ · (dis ⊙ (h · W))) + b`. -/
def conv (A : Fin 2048 → Fin 2048 → EReal) (W : Fin 32 → Fin 32 → EReal) (b : Fin 32 → EReal)
    (h : Fin 2048 → Fin 32 → EReal) (n : Fin 2048) (f : Fin 32) : EReal :=
  ((∑ i : Fin 2048, (lin W h i f * dis A i) * A i n) + lin W h n f * dis A n) * dis A n + b f

/-- The network: two convolutions with a relu between, plus the skip connection. -/
def out (A : Fin 2048 → Fin 2048 → EReal) (x : Fin 2048 → Fin 32 → EReal)
    (W1 : Fin 32 → Fin 32 → EReal) (b1 : Fin 32 → EReal) (W2 : Fin 32 → Fin 32 → EReal) (b2 : Fin 32 → EReal)
    (n : Fin 2048) (f : Fin 32) : EReal :=
  conv A W2 b2 (fun n' f' => max (conv A W1 b1 x n' f') 0) n f + x n f

end GcnSpec

end
-- ==== Proof.KVPay.lean ====
/-
  The kernel body's one stored value, read at an index of the extended reals.

  The body works feature-major: with `xT` the transposed features, `d` the row `rsqrt (colsum A + 1)`,
  one convolution is `(g · A + g) ⊙ d + bᵀ` where `g = (Wᵀ · hT) ⊙ d`, and the stored value is
  `(conv₂ (max (conv₁ xT) 0) + xT)ᵀ`. Entry (f, n) of a feature-major convolution is the specification's
  `conv` at (n, f): the matrix products are sums over one contracted coordinate, `g · A` at (f, n) is
  `∑ i, g f i * A i n`, and the only law used is commutativity of the product inside `Wᵀ · hT`.
-/
import proofs.«111189_g13383118094673_cont_sun_m_231_3_alg».proof.Proof.KVMat
import proofs.«111189_g13383118094673_cont_sun_m_231_3_alg».proof.Proof.Spec

noncomputable section

namespace Cert.KernelIdeal.KVal

open Cert.KernelIdeal Cert.KernelIdeal.Gen Idealize.ShloMosaic Idealize.ShloMosaic.ValueIdx

local notation "D1" => dot_S32x32_S32x2048_S32x2048_1_0_0_1_n_n
local notation "D2" => dot_S32x2048_S2048x2048_S32x2048_1_0_0_1_n_n

/-! ## The payload, regrouped by stage -/

/-- The normalisation row: the reciprocal square root of the column sums of the adjacency block plus one, as a [1,2048] row. -/
def disRow (v0 : FVec Ideal S2048x2048 .f32) : FVec Ideal S1x2048 .f32 :=
  rsqrt (addf (shapeCast S1x2048 (multiReduction .add [0] S2048 v0 0x00000000#32 reduces_S2048x2048_S2048 (.inl rfl) rfl) shapeCasts_S2048_S1x2048)
    (broadcast S1x2048 (Scalar.ofBits .f32 0x3F800000#32)))

/-- The scaled linear layer, feature-major: `(Wᵀ · hT) ⊙ d`. -/
def gT (d : FVec Ideal S1x2048 .f32) (W : FVec Ideal S32x32 .f32) (hT : FVec Ideal S32x2048 .f32) : FVec Ideal S32x2048 .f32 :=
  mulf (matmul D1 none (transpose S32x32 [1, 0] W transposes_S32x32_p1_0_S32x32) hT (constant S32x2048 .f32 0x00000000#32))
    (broadcastTo S32x2048 d broadcasts_S1x2048_S32x2048)

/-- One convolution, feature-major: `(g · A + g) ⊙ d + bᵀ` with `g` the scaled linear layer. -/
def layerT (v0 : FVec Ideal S2048x2048 .f32) (d : FVec Ideal S1x2048 .f32) (W : FVec Ideal S32x32 .f32) (b : FVec Ideal S1x32 .f32)
    (hT : FVec Ideal S32x2048 .f32) : FVec Ideal S32x2048 .f32 :=
  addf (mulf (addf (matmul D2 none (gT d W hT) v0 (constant S32x2048 .f32 0x00000000#32)) (gT d W hT))
      (broadcastTo S32x2048 d broadcasts_S1x2048_S32x2048))
    (broadcastTo S32x2048 (transpose S32x1 [1, 0] (shapeCast S1x32 b shapeCasts_S1x32_S1x32) transposes_S1x32_p1_0_S32x1) broadcasts_S32x1_S32x2048)

/-- The body's one stored value is two such convolutions with a maximum with zero between, plus the transposed
    features, transposed back: the same operations in the same order, grouped. -/
theorem pay_eq (v0 : Vec Ideal S2048x2048 .f32) (v1 : Vec Ideal S2048x32 .f32) (v8 : Vec Ideal S32x32 .f32) (v17 : Vec Ideal S1x32 .f32)
    (v24 : Vec Ideal S32x32 .f32) (v33 : Vec Ideal S1x32 .f32) :
    k0_pay1 (F := Ideal) v0 v1 v8 v17 v24 v33
      = transpose S2048x32 [1, 0]
          (addf (layerT v0 (disRow v0) v24 v33
              (maximumf (layerT v0 (disRow v0) v8 v17 (transpose S32x2048 [1, 0] v1 transposes_S2048x32_p1_0_S32x2048))
                (broadcast S32x2048 (Scalar.ofBits .f32 0x00000000#32))))
            (transpose S32x2048 [1, 0] v1 transposes_S2048x32_p1_0_S32x2048))
          transposes_S32x2048_p1_0_S2048x32 := rfl

/-! ## Each stage at an index -/

/-- The sum over axis 0 of a [2048,2048] block, at column `n`: the sum of that column's entries. -/
theorem colsum_apply (v0 : FVec Ideal S2048x2048 .f32) (h : S2048x2048.Reduces [0] S2048) (hφ : FKind.Formats .f32)
    (hacc : (0x00000000#32 : BitVec 32) = FKind.add.neutral .f32 hφ) (n : Fin 2048) :
    multiReduction .add [0] S2048 v0 0x00000000#32 h hφ hacc (ix1 n) = ∑ i : Fin 2048, v0 (ix2 i n) := by
  refine (Ideal.multiReduction_add_single v0 _ h hφ hacc (ix1 n)).trans ?_
  refine Finset.sum_congr rfl fun i _ => congrArg v0 ?_
  funext a; apply Fin.ext
  match a with
  | ⟨0, _⟩ => rfl
  | ⟨1, _⟩ => rfl

/-- The normalisation row at column `n` is the specification's `dis`. -/
theorem disRow_apply (v0 : FVec Ideal S2048x2048 .f32) (n : Fin 2048) :
    disRow v0 (ix2 (0 : Fin 1) n) = GcnSpec.dis (fun i n => v0 (ix2 i n)) n := by
  show Ideal.rsqrt (shapeCast S1x2048 (multiReduction .add [0] S2048 v0 0x00000000#32 reduces_S2048x2048_S2048 (.inl rfl) rfl)
      shapeCasts_S2048_S1x2048 (ix2 (0 : Fin 1) n) + Ideal.ofBits .f32 0x3F800000#32)
    = Ideal.rsqrt ((∑ i : Fin 2048, v0 (ix2 i n)) + 1)
  rw [one_f32]
  refine congrArg (fun z => Ideal.rsqrt (z + 1)) ?_
  refine (shapeCast_a_1a_apply _ _ (0 : Fin 1) n).trans ?_
  exact colsum_apply v0 _ _ _ n

/-- The scaled linear layer at (f, i). -/
theorem gT_apply (d : FVec Ideal S1x2048 .f32) (W : FVec Ideal S32x32 .f32) (hT : FVec Ideal S32x2048 .f32) (f : Fin 32) (i : Fin 2048) :
    gT d W hT (ix2 f i) = GcnSpec.lin (fun k f => W (ix2 k f)) (fun n k => hT (ix2 k n)) i f * d (ix2 (0 : Fin 1) i) := by
  show matmul D1 none (transpose S32x32 [1, 0] W transposes_S32x32_p1_0_S32x32) hT (constant S32x2048 .f32 0x00000000#32) (ix2 f i)
      * broadcastTo S32x2048 d broadcasts_S1x2048_S32x2048 (ix2 f i) = _
  rw [mm1_apply, broadcastTo_1b_ab_apply]
  refine congrArg (· * _) ?_
  refine Finset.sum_congr rfl fun k _ => ?_
  rw [transpose_ix2_apply]
  exact mul_comm _ _

/-- The bias, a [1,32] row turned into a column and broadcast over the nodes, at (f, n). -/
theorem bias_apply (b : FVec Ideal S1x32 .f32) (f : Fin 32) (n : Fin 2048) :
    broadcastTo S32x2048 (transpose S32x1 [1, 0] (shapeCast S1x32 b shapeCasts_S1x32_S1x32) transposes_S1x32_p1_0_S32x1)
      broadcasts_S32x1_S32x2048 (ix2 f n) = b (ix2 (0 : Fin 1) f) := by
  rw [broadcastTo_a1_ab_apply, transpose_ix2_apply, shapeCast_self]

/-- One convolution at (f, n) is the specification's `conv` at (n, f), once the row `d` is the specification's `dis`. -/
theorem layerT_apply (v0 : FVec Ideal S2048x2048 .f32) (d : FVec Ideal S1x2048 .f32) (W : FVec Ideal S32x32 .f32) (b : FVec Ideal S1x32 .f32)
    (hT : FVec Ideal S32x2048 .f32) (hd : ∀ n : Fin 2048, d (ix2 (0 : Fin 1) n) = GcnSpec.dis (fun i n => v0 (ix2 i n)) n)
    (f : Fin 32) (n : Fin 2048) :
    layerT v0 d W b hT (ix2 f n)
      = GcnSpec.conv (fun i n => v0 (ix2 i n)) (fun k f => W (ix2 k f)) (fun f => b (ix2 (0 : Fin 1) f)) (fun n k => hT (ix2 k n)) n f := by
  show (matmul D2 none (gT d W hT) v0 (constant S32x2048 .f32 0x00000000#32) (ix2 f n) + gT d W hT (ix2 f n))
        * broadcastTo S32x2048 d broadcasts_S1x2048_S32x2048 (ix2 f n)
      + broadcastTo S32x2048 (transpose S32x1 [1, 0] (shapeCast S1x32 b shapeCasts_S1x32_S1x32) transposes_S1x32_p1_0_S32x1)
          broadcasts_S32x1_S32x2048 (ix2 f n) = _
  rw [mm2_apply, bias_apply, broadcastTo_1b_ab_apply, gT_apply, hd]
  unfold GcnSpec.conv
  refine congrArg (fun z => (z + _) * _ + _) ?_
  refine Finset.sum_congr rfl fun i _ => ?_
  rw [gT_apply, hd]

/-- THE PAYLOAD AT AN INDEX: the body's stored value at (n, f) is the specification's network output there, of the
    loaded blocks read by coordinates (the two bias rows at their one row). -/
theorem pay_apply (v0 : Vec Ideal S2048x2048 .f32) (v1 : Vec Ideal S2048x32 .f32) (v8 : Vec Ideal S32x32 .f32) (v17 : Vec Ideal S1x32 .f32)
    (v24 : Vec Ideal S32x32 .f32) (v33 : Vec Ideal S1x32 .f32) (n : Fin 2048) (f : Fin 32) :
    k0_pay1 (F := Ideal) v0 v1 v8 v17 v24 v33 (ix2 n f)
      = GcnSpec.out (fun i n => v0 (ix2 i n)) (fun n k => v1 (ix2 n k)) (fun k f => v8 (ix2 k f)) (fun f => v17 (ix2 (0 : Fin 1) f))
          (fun k f => v24 (ix2 k f)) (fun f => v33 (ix2 (0 : Fin 1) f)) n f := by
  rw [pay_eq, transpose_ix2_apply]
  show layerT v0 (disRow v0) v24 v33
        (maximumf (layerT v0 (disRow v0) v8 v17 (transpose S32x2048 [1, 0] v1 transposes_S2048x32_p1_0_S32x2048))
          (broadcast S32x2048 (Scalar.ofBits .f32 0x00000000#32))) (ix2 f n)
      + transpose S32x2048 [1, 0] v1 transposes_S2048x32_p1_0_S32x2048 (ix2 f n) = _
  rw [layerT_apply v0 (disRow v0) _ _ _ (disRow_apply v0), transpose_ix2_apply]
  unfold GcnSpec.out
  refine congrArg (· + _) ?_
  refine congrArg (fun h => GcnSpec.conv _ _ _ h n f) ?_
  funext n' f'
  show max (layerT v0 (disRow v0) v8 v17 (transpose S32x2048 [1, 0] v1 transposes_S2048x32_p1_0_S32x2048) (ix2 f' n'))
      (Ideal.ofBits .f32 0x00000000#32) = _
  rw [Ideal.ofBits_zero_f32, layerT_apply v0 (disRow v0) _ _ _ (disRow_apply v0)]
  refine congrArg (fun h => max (GcnSpec.conv _ _ _ h n' f') 0) ?_
  funext a k
  exact transpose_ix2_apply _ _ _ _

end Cert.KernelIdeal.KVal

end
-- ==== Proof.KVRun.lean ====
/-
  From the body's stored value to the kernel's run.

  The kernel has no grid: there is one point, every window's block is its whole array, and the one output
  block is the whole result array. The two bias rows the body loads are [1,32] views of the bias vectors,
  written before the region; read at (0, f) they are the vectors at f. So what the one point writes back is
  the specification's network output of the six argument arrays at every (n, f), the one block covers the
  array, and the run ends with the result array at that function and the arguments as launched.
-/
import proofs.«111189_g13383118094673_cont_sun_m_231_3_alg».proof.Proof.KVPay
import proofs.«111189_g13383118094673_cont_sun_m_231_3_alg».proof.Proof.Gen.KernelIdeal.Value
import Idealize.ShloMosaic.Lib.StableHlo.Run
import Idealize.ShloMosaic.Lib.Tactic

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The result as one function of the argument arrays -/

/-- The network's output as one array function of the six argument arrays: the specification at each (n, f), the arrays
    read by coordinates. -/
def G (A : FVec Ideal S2048x2048 .f32) (x : FVec Ideal S2048x32 .f32) (W1 : FVec Ideal S32x32 .f32) (b1 : FVec Ideal S32 .f32)
    (W2 : FVec Ideal S32x32 .f32) (b2 : FVec Ideal S32 .f32) : FVec Ideal S2048x32 .f32 :=
  fun j => GcnSpec.out (fun i n => A (ix2 i n)) (fun n k => x (ix2 n k)) (fun k f => W1 (ix2 k f)) (fun f => b1 (ix1 f))
    (fun k f => W2 (ix2 k f)) (fun f => b2 (ix1 f)) (j 0) (j 1)

/-- `G` at (n, f) is the specification's output there. -/
theorem G_apply (A : FVec Ideal S2048x2048 .f32) (x : FVec Ideal S2048x32 .f32) (W1 : FVec Ideal S32x32 .f32) (b1 : FVec Ideal S32 .f32)
    (W2 : FVec Ideal S32x32 .f32) (b2 : FVec Ideal S32 .f32) (n : Fin 2048) (f : Fin 32) :
    G A x W1 b1 W2 b2 (ix2 n f)
      = GcnSpec.out (fun i n => A (ix2 i n)) (fun n k => x (ix2 n k)) (fun k f => W1 (ix2 k f)) (fun f => b1 (ix1 f))
          (fun k f => W2 (ix2 k f)) (fun f => b2 (ix1 f)) n f := rfl

/-! ## The windows' blocks: with no grid every block is its whole array -/

theorem iblk0 (c : Dev nD) (t : Fin cfg0.N) : (iblk m c 0 t : Vec Ideal S2048x2048 .f32) = V m c main_arg0 := by
  have hz : (fun a => (win0_0.index t) a * main_arg0.ty.shape.size a) = fun _ => 0 := funext fun a => Nat.zero_mul _
  exact Memref.read_access_unit_zero (Elt Ideal) main_arg0 hz (fun a => by rw [congrFun hz a]; simp) (V m c main_arg0)

theorem iblk1 (c : Dev nD) (t : Fin cfg0.N) : (iblk m c 1 t : Vec Ideal S2048x32 .f32) = V m c main_arg1 := by
  have hz : (fun a => (win0_1.index t) a * main_arg1.ty.shape.size a) = fun _ => 0 := funext fun a => Nat.zero_mul _
  exact Memref.read_access_unit_zero (Elt Ideal) main_arg1 hz (fun a => by rw [congrFun hz a]; simp) (V m c main_arg1)

theorem iblk2 (c : Dev nD) (t : Fin cfg0.N) : (iblk m c 2 t : Vec Ideal S32x32 .f32) = V m c main_arg2 := by
  have hz : (fun a => (win0_2.index t) a * main_arg2.ty.shape.size a) = fun _ => 0 := funext fun a => Nat.zero_mul _
  exact Memref.read_access_unit_zero (Elt Ideal) main_arg2 hz (fun a => by rw [congrFun hz a]; simp) (V m c main_arg2)

theorem iblk3 (c : Dev nD) (t : Fin cfg0.N) : (iblk m c 3 t : Vec Ideal S1x32 .f32) = V m c main_v0 := by
  have hz : (fun a => (win0_3.index t) a * main_v0.ty.shape.size a) = fun _ => 0 := funext fun a => Nat.zero_mul _
  exact Memref.read_access_unit_zero (Elt Ideal) main_v0 hz (fun a => by rw [congrFun hz a]; simp) (V m c main_v0)

theorem iblk4 (c : Dev nD) (t : Fin cfg0.N) : (iblk m c 4 t : Vec Ideal S32x32 .f32) = V m c main_arg4 := by
  have hz : (fun a => (win0_4.index t) a * main_arg4.ty.shape.size a) = fun _ => 0 := funext fun a => Nat.zero_mul _
  exact Memref.read_access_unit_zero (Elt Ideal) main_arg4 hz (fun a => by rw [congrFun hz a]; simp) (V m c main_arg4)

theorem iblk5 (c : Dev nD) (t : Fin cfg0.N) : (iblk m c 5 t : Vec Ideal S1x32 .f32) = V m c main_v1 := by
  have hz : (fun a => (win0_5.index t) a * main_v1.ty.shape.size a) = fun _ => 0 := funext fun a => Nat.zero_mul _
  exact Memref.read_access_unit_zero (Elt Ideal) main_v1 hz (fun a => by rw [congrFun hz a]; simp) (V m c main_v1)

/-! ## The two bias rows: reshapes of the bias vectors, written before the region -/

/-- The first bias row as the region finds it is the first bias vector viewed [1,32]. -/
theorem V_v0 (c : Dev nD) :
    (V m c main_v0 : S1x32.Idx → EReal) = shapeCast S1x32 (m ((c : Thread nD τ).loc main_arg3)) shapeCasts_S32_S1x32 := by
  dsimp only [Gen.V, Gen.hostOps0]
  after_results
  rfl

/-- The second bias row likewise. -/
theorem V_v1 (c : Dev nD) :
    (V m c main_v1 : S1x32.Idx → EReal) = shapeCast S1x32 (m ((c : Thread nD τ).loc main_arg5)) shapeCasts_S32_S1x32 := by
  dsimp only [Gen.V, Gen.hostOps0]
  after_results
  rfl

/-! ## The body's result, and the array after the run -/

theorem hz2 : (![0, 0] : Fin 2 → Nat) = fun _ => 0 := funext fun a => by fin_cases a <;> rfl

/-- The body loads its six whole buffers and stores once over the whole output buffer: what it leaves is its payload. -/
theorem out6_eq (x0 : Vec Ideal S2048x2048 .f32) (x1 : Vec Ideal S2048x32 .f32) (x2 : Vec Ideal S32x32 .f32) (x3 : Vec Ideal S1x32 .f32)
    (x4 : Vec Ideal S32x32 .f32) (x5 : Vec Ideal S1x32 .f32) :
    out0_6 (F := Ideal) x0 x1 x2 x3 x4 x5 = k0_pay1 x0 x1 x2 x3 x4 x5 := by
  unfold out0_6
  rw [View.canon_unit_zero hz2]
  simp only [View.ld_unit_zero (S := S2048x2048) hz2, View.ld_unit_zero (S := S2048x32) hz2, View.ld_unit_zero (S := S32x32) hz2,
    View.ld_unit_zero (S := S1x32) hz2]

/-- The payload of the arrays as the region finds them is `G` of the argument arrays. -/
theorem pay_G (A : Vec Ideal S2048x2048 .f32) (x : Vec Ideal S2048x32 .f32) (W1 : Vec Ideal S32x32 .f32) (r1 : Vec Ideal S1x32 .f32)
    (W2 : Vec Ideal S32x32 .f32) (r2 : Vec Ideal S1x32 .f32) (b1 b2 : FVec Ideal S32 .f32)
    (h1 : r1 = shapeCast S1x32 b1 shapeCasts_S32_S1x32) (h2 : r2 = shapeCast S1x32 b2 shapeCasts_S32_S1x32) :
    k0_pay1 (F := Ideal) A x W1 r1 W2 r2 = G A x W1 b1 W2 b2 := by
  funext j
  obtain ⟨n, f, rfl⟩ : ∃ (n : Fin 2048) (f : Fin 32), j = ix2 n f := ⟨j 0, j 1, eq_ix2 j⟩
  rw [pay_apply]
  have e1 : (fun f : Fin 32 => r1 (ix2 (0 : Fin 1) f)) = fun f => b1 (ix1 f) :=
    funext fun f => by rw [h1]; exact shapeCast_a_1a_apply _ _ (0 : Fin 1) f
  have e2 : (fun f : Fin 32 => r2 (ix2 (0 : Fin 1) f)) = fun f => b2 (ix1 f) :=
    funext fun f => by rw [h2]; exact shapeCast_a_1a_apply _ _ (0 : Fin 1) f
  rw [e1, e2]
  rfl

/-- What the one grid point writes back is the whole of `G` of the argument arrays. -/
theorem flushed_eq (c : Dev nD) (t : Fin cfg0.N) (hf : (cfg0.win 6).flush t = true) :
    (dats m 0 c).flushed 6 t = ((cfg0.win 6).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  have hz6 : (fun a => (win0_6.index t) a * main_v2.ty.shape.size a) = fun _ => 0 := funext fun a => Nat.zero_mul _
  refine Eq.trans ?_ (Memref.read_access_unit_zero (Elt Ideal) main_v2 hz6 (fun a => by rw [congrFun hz6 a]; simp) _).symm
  rw [Value.flushed6]
  show out0_6 (iblk m c 0 t) (iblk m c 1 t) (iblk m c 2 t) (iblk m c 3 t) (iblk m c 4 t) (iblk m c 5 t) = _
  rw [iblk0 m c t, iblk1 m c t, iblk2 m c t, iblk3 m c t, iblk4 m c t, iblk5 m c t,
    V_main_arg0, V_main_arg1, V_main_arg2, V_main_arg4, out6_eq]
  exact pay_G _ _ _ _ _ _ _ _ (V_v0 m c) (V_v1 m c)

/-- The one block covers the whole array. -/
theorem cover (i : S2048x32.Idx) : ∃ t : Fin cfg0.N, (cfg0.win 6).flush t = true ∧ i ∈ ((cfg0.win 6).blk t).view.set := by
  refine ⟨t0_0, by decide +kernel, ?_⟩
  show i ∈ ((View.whole main_v2).slice (win0_6.rect t0_0)).set
  rw [View.set_slice_whole]
  exact View.mem_set_unit_zero (S := S2048x32) (funext fun a => Nat.zero_mul _) _ i

/-- The result array after the run. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (flushed_eq m c) cover

/-- THE KERNEL'S RUN: every weakly fair execution terminates with the result array at `G` of the argument arrays, index
    by index, and the argument arrays as launched. -/
theorem run : θ_run (defs (F := Ideal)) (onTc (τ := τ) (main (F := Ideal))) ⟨m, fun _ => 0, ρ⟩ (fun r => ∀ c : Dev nD,
      r.2.mem ((c.tc : Thread nD τ).loc main_v2)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (final m c), (h c).2⟩) (Value.run_blocks m ρ)

end Cert.KernelIdeal.KVal

end
-- ==== Proof.PCPre.lean ====
/-
  The precondition, read back at the extended reals.

  The printed predicate is a conjunction of seven `all`s: for each of the six arrays, that every entry's
  absolute value is below +infinity, and for the adjacency array, that every entry equals 0.0 or equals 1.0.
  It being all ones gives each conjunct; an `all` that is 1 gives its comparison at every index; a comparison
  of extended reals that is 1 gives the order fact; and |a| < ⊤ says a is neither ⊤ nor ⊥, hence a real number.
-/
import proofs.«111189_g13383118094673_cont_sun_m_231_3_alg».proof.Defs
import proofs.«111189_g13383118094673_cont_sun_m_231_3_alg».proof.Proof.Gen.KernelIdeal
import proofs.«111189_g13383118094673_cont_sun_m_231_3_alg».proof.Proof.Gen.Pre_finite_inputs
import Idealize.ShloMosaic.Lib.ReduceAll
import Idealize.ShloMosaic.Lib.ValueIdx
import Idealize.ShloMosaic.PureOps.Ideal.Laws

noncomputable section

namespace Cert.PC

open Idealize.ShloMosaic Idealize.ShloMosaic.ValueIdx Idealize.SL.Sem
open Cert.Pre_finite_inputs (S2048x2048 S2048x32 S32x32 S32 S_)

/-- The scalar shape has one index. -/
instance : Subsingleton S_.Idx := ⟨fun a b => funext fun d => d.elim0⟩

/-- The word of the float +infinity is the top of the extended reals. -/
theorem inf_f32 : Ideal.ofBits .f32 0x7F800000#32 = (⊤ : EReal) := by simp [Ideal.ofBits, Ideal.ieee]

/-- The word of the float 1.0 is the extended real 1. -/
theorem one_f32 : Ideal.ofBits .f32 0x3F800000#32 = (1 : EReal) := IdealRules.sign_bit.ideal_onePat .f32

theorem ofBool_eq_one (b : Bool) : BitVec.ofBool b = 1#1 ↔ b = true := by cases b <;> decide

/-- An extended real whose absolute value is below +infinity is neither infinity. -/
theorem finite_of_abs_lt (a : EReal) (h : Ideal.cmp .olt (max a (-a)) (Ideal.ofBits .f32 0x7F800000#32) = 1#1) : a ≠ ⊤ ∧ a ≠ ⊥ := by
  rw [inf_f32] at h
  have h' : max a (-a) < ⊤ := by
    change BitVec.ofBool (decide (max a (-a) < ⊤)) = 1#1 at h
    rw [ofBool_eq_one] at h
    exact of_decide_eq_true h
  constructor
  · rintro rfl; simp at h'
  · rintro rfl; simp at h'

/-- An ordered-equal comparison that is 1 says the two extended reals are equal. -/
theorem eq_of_cmp_oeq (a b : EReal) (h : Ideal.cmp .oeq a b = 1#1) : a = b := by
  change BitVec.ofBool (decide (a = b)) = 1#1 at h
  rw [ofBool_eq_one] at h
  exact of_decide_eq_true h

/-- An extended real that is neither infinity is a real number. -/
theorem real_of_finite {a : EReal} (h : a ≠ ⊤ ∧ a ≠ ⊥) : ∃ r : ℝ, a = (r : EReal) :=
  ⟨a.toReal, (EReal.coe_toReal h.1 h.2).symm⟩

/-- `all (|X| < +infinity)` being 1 says every entry of `X` is neither infinity. -/
theorem all_finite {s : Shape} {axes : List (Fin s.rank)} (X : FVec Ideal s .f32) (hb : S_.BroadcastsInDim s (![] : Fin 0 → Fin s.rank))
    (hr : s.ReducesTo axes S_) (hu : 0 < S_.numel)
    (h : Host.reduce IntOp.andi (cmpf .olt (Host.absf X) (broadcastInDim s ![] hb (constant (F := Ideal) S_ .f32 0x7F800000#32)))
      (constantI S_ 1 1#1) hr hu ix0 = 1#1) (i : s.Idx) : X i ≠ ⊤ ∧ X i ≠ ⊥ :=
  finite_of_abs_lt (X i) (Host.reduce_andi_all _ _ hr hu ix0 h i)

variable [Cert.Pre_finite_inputs.Facts]

/-- THE PRECONDITION DECODED, over any six arrays: the printed predicate being all ones says that every entry of the
    adjacency array is 0 or 1 and that no entry of any of the six arrays is an infinity. -/
theorem fn_decode (A : FVec Ideal S2048x2048 .f32) (x : FVec Ideal S2048x32 .f32) (W1 : FVec Ideal S32x32 .f32) (b1 : FVec Ideal S32 .f32)
    (W2 : FVec Ideal S32x32 .f32) (b2 : FVec Ideal S32 .f32)
    (h : Cert.Pre_finite_inputs.fn (F := Ideal) A x W1 b1 W2 b2 = fun _ => 1#1) :
    (∀ i, A i = 0 ∨ A i = 1) ∧ (∀ i, A i ≠ ⊤ ∧ A i ≠ ⊥) ∧ (∀ i, x i ≠ ⊤ ∧ x i ≠ ⊥) ∧ (∀ i, W1 i ≠ ⊤ ∧ W1 i ≠ ⊥)
      ∧ (∀ i, b1 i ≠ ⊤ ∧ b1 i ≠ ⊥) ∧ (∀ i, W2 i ≠ ⊤ ∧ W2 i ≠ ⊥) ∧ (∀ i, b2 i ≠ ⊤ ∧ b2 i ≠ ⊥) := by
  have e := congrFun h ix0
  dsimp only [Cert.Pre_finite_inputs.fn, Cert.Pre_finite_inputs.fn_part1, Cert.Pre_finite_inputs.fn_part2] at e
  simp only [andi, IntOp.andi_eq_one] at e
  obtain ⟨⟨⟨⟨⟨⟨hA, hx⟩, hW1⟩, hb1⟩, hW2⟩, hb2⟩, h01⟩ := e
  refine ⟨fun i => ?_, all_finite A _ _ _ hA, all_finite x _ _ _ hx, all_finite W1 _ _ _ hW1, all_finite b1 _ _ _ hb1,
    all_finite W2 _ _ _ hW2, all_finite b2 _ _ _ hb2⟩
  have hi := Host.reduce_andi_all _ _ _ _ ix0 h01 i
  change IntOp.ori (Ideal.cmp .oeq (A i) (Ideal.ofBits .f32 0x00000000#32)) (Ideal.cmp .oeq (A i) (Ideal.ofBits .f32 0x3F800000#32)) = 1#1 at hi
  rw [IntOp.ori_eq_one, Ideal.ofBits_zero_f32, one_f32] at hi
  exact hi.imp (eq_of_cmp_oeq _ _) (eq_of_cmp_oeq _ _)

/-! ## At the idealized kernel's launch memory -/

section AtMemory
open Cert.KernelIdeal (nD τ sig main_arg0 main_arg1 main_arg2 main_arg3 main_arg4 main_arg5)

variable (m : (ℓ : Loc nD τ sig) → Buf (Elt Ideal) ℓ)

/-- An argument buffer's contents read as an array of extended reals of the named shape (the identity; it pins the
    element type so that order and arithmetic on the entries are the extended reals'). -/
abbrev arr (s : Shape) (X : FVec Ideal s .f32) : FVec Ideal s .f32 := X

/-- THE PRECONDITION OF THE IDEALIZED KERNEL, DECODED on each device: every entry of the adjacency argument is 0 or 1, and no
    entry of any of the six arguments is an infinity. -/
theorem pre_facts (h : Cert.Pre_KernelIdeal m) (c : Dev nD) :
    (∀ i, arr S2048x2048 (m ((c.tc : Thread nD τ).loc main_arg0)) i = 0
        ∨ arr S2048x2048 (m ((c.tc : Thread nD τ).loc main_arg0)) i = 1)
    ∧ (∀ i, arr S2048x2048 (m ((c.tc : Thread nD τ).loc main_arg0)) i ≠ ⊤
        ∧ arr S2048x2048 (m ((c.tc : Thread nD τ).loc main_arg0)) i ≠ ⊥)
    ∧ (∀ i, arr S2048x32 (m ((c.tc : Thread nD τ).loc main_arg1)) i ≠ ⊤
        ∧ arr S2048x32 (m ((c.tc : Thread nD τ).loc main_arg1)) i ≠ ⊥)
    ∧ (∀ i, arr S32x32 (m ((c.tc : Thread nD τ).loc main_arg2)) i ≠ ⊤
        ∧ arr S32x32 (m ((c.tc : Thread nD τ).loc main_arg2)) i ≠ ⊥)
    ∧ (∀ i, arr S32 (m ((c.tc : Thread nD τ).loc main_arg3)) i ≠ ⊤
        ∧ arr S32 (m ((c.tc : Thread nD τ).loc main_arg3)) i ≠ ⊥)
    ∧ (∀ i, arr S32x32 (m ((c.tc : Thread nD τ).loc main_arg4)) i ≠ ⊤
        ∧ arr S32x32 (m ((c.tc : Thread nD τ).loc main_arg4)) i ≠ ⊥)
    ∧ (∀ i, arr S32 (m ((c.tc : Thread nD τ).loc main_arg5)) i ≠ ⊤
        ∧ arr S32 (m ((c.tc : Thread nD τ).loc main_arg5)) i ≠ ⊥) :=
  fn_decode _ _ _ _ _ _ (h c)

/-- The same with real witnesses: every entry of each of the six arguments is a real number. -/
theorem pre_real (h : Cert.Pre_KernelIdeal m) (c : Dev nD) :
    (∀ i, ∃ r : ℝ, arr S2048x2048 (m ((c.tc : Thread nD τ).loc main_arg0)) i = (r : EReal))
    ∧ (∀ i, ∃ r : ℝ, arr S2048x32 (m ((c.tc : Thread nD τ).loc main_arg1)) i = (r : EReal))
    ∧ (∀ i, ∃ r : ℝ, arr S32x32 (m ((c.tc : Thread nD τ).loc main_arg2)) i = (r : EReal))
    ∧ (∀ i, ∃ r : ℝ, arr S32 (m ((c.tc : Thread nD τ).loc main_arg3)) i = (r : EReal))
    ∧ (∀ i, ∃ r : ℝ, arr S32x32 (m ((c.tc : Thread nD τ).loc main_arg4)) i = (r : EReal))
    ∧ (∀ i, ∃ r : ℝ, arr S32 (m ((c.tc : Thread nD τ).loc main_arg5)) i = (r : EReal)) := by
  obtain ⟨-, hA, hx, hW1, hb1, hW2, hb2⟩ := pre_facts m h c
  exact ⟨fun i => real_of_finite (hA i), fun i => real_of_finite (hx i), fun i => real_of_finite (hW1 i),
    fun i => real_of_finite (hb1 i), fun i => real_of_finite (hW2 i), fun i => real_of_finite (hb2 i)⟩

end AtMemory

end Cert.PC

end
-- ==== Proof.RROps.lean ====
/-
  The reference program's @main as one list of its 270 host operations: @main's own statements in
  order, each call of an outlined function replaced by the callee's operations over that call's
  buffer record (a call executes the callee's body on the operands). The list is cut at the
  program's own four windows; the program is that list run in order, and so every weakly fair
  execution terminates with every buffer at the fold of the operations over the launch contents.
-/
import proofs.«111189_g13383118094673_cont_sun_m_231_3_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Statements 1 … 60 of @main, the nine calls among them inlined: 142 operations. -/
abbrev ops0 : List (HloOp τ sig (Elt F)) :=
  [ StableHlo.nullary main_cst (constant S_ .f32 0x00000000#32),
    StableHlo.unary main_cst main_v0 (broadcastInDim S2048x2048 ![] bcast_S_S2048x2048 : (⟨S_, .f32⟩ : BufTy).Contents (Elt F) → (⟨S2048x2048, .f32⟩ : BufTy).Contents (Elt F)),
    StableHlo.binary main_arg0 main_v0 main_v1 (cmpf .une : (⟨S2048x2048, .f32⟩ : BufTy).Contents (Elt F) → (⟨S2048x2048, .f32⟩ : BufTy).Contents (Elt F) → (⟨S2048x2048, .i1⟩ : BufTy).Contents (Elt F)),
    StableHlo.TRef.reshape (.of main_v1 : StableHlo.TRef sig ⟨S2048x2048, .i1⟩) main_call0.v0 rfl shapeCasts_S2048x2048_S4194304,
    StableHlo.TRef.unary main_call0.v0 main_call0.v1 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v1 main_call0.call0.v0 main_call0.call0.v1 (fun x v => Host.reduceWindow IntOp.addi ![4194304] ![1] ![4194303] ![0] x v reduceWindows_S4194304_S4194304_w4194304s1p4194303_0 h_S_),
    StableHlo.nullary main_c (constantI S_ 32 0#32),
    StableHlo.unary main_c main_v3 (broadcastInDim S4194304 ![] bcast_S_S4194304 : (⟨S_, .i32⟩ : BufTy).Contents (Elt F) → (⟨S4194304, .i32⟩ : BufTy).Contents (Elt F)),
    StableHlo.nullary main_c_0 (constantI S_ 32 0#32),
    StableHlo.TRef.unary (.of main_c_0 : StableHlo.TRef sig ⟨S_, .i32⟩) main_call1.v0 id,
    StableHlo.TRef.unary main_call1.v0 main_call1.v1 (broadcastInDim S4194304 ![] bcast_S_S4194304),
    StableHlo.TRef.binary main_call1.v1 (.of main_v2 : StableHlo.TRef sig ⟨S4194304, .i32⟩) main_call1.v2 maxsi,
    StableHlo.nullary main_c_1 (constantI S_ 32 0#32),
    StableHlo.unary main_c_1 main_v5 (broadcastInDim S4194304 ![] bcast_S_S4194304 : (⟨S_, .i32⟩ : BufTy).Contents (Elt F) → (⟨S4194304, .i32⟩ : BufTy).Contents (Elt F)),
    StableHlo.binary main_v4 main_v5 main_v6 (cmpi .slt : (⟨S4194304, .i32⟩ : BufTy).Contents (Elt F) → (⟨S4194304, .i32⟩ : BufTy).Contents (Elt F) → (⟨S4194304, .i1⟩ : BufTy).Contents (Elt F)),
    StableHlo.nullary main_c_2 (constantI S_ 32 4194304#32),
    StableHlo.unary main_c_2 main_v7 (broadcastInDim S4194304 ![] bcast_S_S4194304 : (⟨S_, .i32⟩ : BufTy).Contents (Elt F) → (⟨S4194304, .i32⟩ : BufTy).Contents (Elt F)),
    StableHlo.binary main_v4 main_v7 main_v8 (addi : (⟨S4194304, .i32⟩ : BufTy).Contents (Elt F) → (⟨S4194304, .i32⟩ : BufTy).Contents (Elt F) → (⟨S4194304, .i32⟩ : BufTy).Contents (Elt F)),
    StableHlo.ternary main_v6 main_v8 main_v4 main_v9 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v9 main_v10 (broadcastInDim S4194304x1 ![0] bcast_S4194304_S4194304x1_0 : (⟨S4194304, .i32⟩ : BufTy).Contents (Elt F) → (⟨S4194304x1, .i32⟩ : BufTy).Contents (Elt F)),
    StableHlo.nullary main_c_3 (constantI S_ 32 1#32),
    StableHlo.unary main_c_3 main_v11 (broadcastInDim S4194304 ![] bcast_S_S4194304 : (⟨S_, .i32⟩ : BufTy).Contents (Elt F) → (⟨S4194304, .i32⟩ : BufTy).Contents (Elt F)),
    StableHlo.ternary main_v3 main_v10 main_v11 main_v12 ((fun x i u => Host.scatter scatter_S4194304_S4194304x1_S4194304_n_0_0_1 IntOp.addi x i u) : (⟨S4194304, .i32⟩ : BufTy).Contents (Elt F) → (⟨S4194304x1, .i32⟩ : BufTy).Contents (Elt F) → (⟨S4194304, .i32⟩ : BufTy).Contents (Elt F) → (⟨S4194304, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v12 : StableHlo.TRef sig ⟨S4194304, .i32⟩) main_call2.call0.v0 main_call2.call0.v1 (fun x v => Host.reduceWindow IntOp.addi ![4194304] ![1] ![4194303] ![0] x v reduceWindows_S4194304_S4194304_w4194304s1p4194303_0 h_S_),
    StableHlo.nullary main_c_4 (constantI S_ 32 2048#32),
    StableHlo.TRef.unary (.of main_c_4 : StableHlo.TRef sig ⟨S_, .i32⟩) main_call3.v0 (broadcastInDim S4194304 ![] bcast_S_S4194304),
    StableHlo.TRef.binary (.of main_v13 : StableHlo.TRef sig ⟨S4194304, .i32⟩) main_call3.v0 main_call3.v1 Host.divsi,
    StableHlo.TRef.unary (.of main_v13 : StableHlo.TRef sig ⟨S4194304, .i32⟩) main_call3.v2 signi,
    StableHlo.TRef.unary (.of main_c_4 : StableHlo.TRef sig ⟨S_, .i32⟩) main_call3.v3 signi,
    StableHlo.TRef.unary main_call3.v3 main_call3.v4 (broadcastInDim S4194304 ![] bcast_S_S4194304),
    StableHlo.TRef.binary main_call3.v2 main_call3.v4 main_call3.v5 (cmpi .ne),
    StableHlo.TRef.unary (.of main_c_4 : StableHlo.TRef sig ⟨S_, .i32⟩) main_call3.v6 (broadcastInDim S4194304 ![] bcast_S_S4194304),
    StableHlo.TRef.binary (.of main_v13 : StableHlo.TRef sig ⟨S4194304, .i32⟩) main_call3.v6 main_call3.v7 Host.remsi,
    StableHlo.TRef.nullary main_call3.c (constantI S_ 32 0#32),
    StableHlo.TRef.unary main_call3.c main_call3.v8 (broadcastInDim S4194304 ![] bcast_S_S4194304),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S4194304 ![] bcast_S_S4194304),
    StableHlo.TRef.binary main_call3.v1 main_call3.v11 main_call3.v12 subi,
    StableHlo.TRef.ternary main_call3.v10 main_call3.v12 main_call3.v1 main_call3.call0.v0 select,
    StableHlo.nullary main_c_5 (constantI S_ 32 2048#32),
    StableHlo.TRef.unary (.of main_c_5 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S4194304 ![] bcast_S_S4194304),
    StableHlo.TRef.binary (.of main_v14 : StableHlo.TRef sig ⟨S4194304, .i32⟩) main_call4.v3 main_call4.v4 Host.remsi,
    StableHlo.TRef.nullary main_call4.c_1 (constantI S_ 32 0#32),
    StableHlo.TRef.unary main_call4.c_1 main_call4.v5 (broadcastInDim S4194304 ![] bcast_S_S4194304),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S4194304 ![] bcast_S_S4194304),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S4194304 ![] bcast_S_S4194304),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S4194304 ![] bcast_S_S4194304),
    StableHlo.TRef.binary main_call4.v4 main_call4.v13 main_call4.v14 addi,
    StableHlo.TRef.ternary main_call4.v12 main_call4.v14 main_call4.v4 main_call4.v15 select,
    StableHlo.nullary main_c_6 (constantI S_ 32 1#32),
    StableHlo.TRef.unary (.of main_c_6 : StableHlo.TRef sig ⟨S_, .i32⟩) main_call5.v0 (broadcastInDim S4194304 ![] bcast_S_S4194304),
    StableHlo.TRef.binary (.of main_v13 : StableHlo.TRef sig ⟨S4194304, .i32⟩) main_call5.v0 main_call5.v1 Host.divsi,
    StableHlo.TRef.unary (.of main_v13 : StableHlo.TRef sig ⟨S4194304, .i32⟩) main_call5.v2 signi,
    StableHlo.TRef.unary (.of main_c_6 : StableHlo.TRef sig ⟨S_, .i32⟩) main_call5.v3 signi,
    StableHlo.TRef.unary main_call5.v3 main_call5.v4 (broadcastInDim S4194304 ![] bcast_S_S4194304),
    StableHlo.TRef.binary main_call5.v2 main_call5.v4 main_call5.v5 (cmpi .ne),
    StableHlo.TRef.unary (.of main_c_6 : StableHlo.TRef sig ⟨S_, .i32⟩) main_call5.v6 (broadcastInDim S4194304 ![] bcast_S_S4194304),
    StableHlo.TRef.binary (.of main_v13 : StableHlo.TRef sig ⟨S4194304, .i32⟩) main_call5.v6 main_call5.v7 Host.remsi,
    StableHlo.TRef.nullary main_call5.c (constantI S_ 32 0#32),
    StableHlo.TRef.unary main_call5.c main_call5.v8 (broadcastInDim S4194304 ![] bcast_S_S4194304),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S4194304 ![] bcast_S_S4194304),
    StableHlo.TRef.binary main_call5.v1 main_call5.v11 main_call5.v12 subi,
    StableHlo.TRef.ternary main_call5.v10 main_call5.v12 main_call5.v1 main_call5.call0.v0 select,
    StableHlo.nullary main_c_7 (constantI S_ 32 2048#32),
    StableHlo.TRef.unary (.of main_c_7 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S4194304 ![] bcast_S_S4194304),
    StableHlo.TRef.binary (.of main_v16 : StableHlo.TRef sig ⟨S4194304, .i32⟩) main_call6.v3 main_call6.v4 Host.remsi,
    StableHlo.TRef.nullary main_call6.c_1 (constantI S_ 32 0#32),
    StableHlo.TRef.unary main_call6.c_1 main_call6.v5 (broadcastInDim S4194304 ![] bcast_S_S4194304),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S4194304 ![] bcast_S_S4194304),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S4194304 ![] bcast_S_S4194304),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S4194304 ![] bcast_S_S4194304),
    StableHlo.TRef.binary main_call6.v4 main_call6.v13 main_call6.v14 addi,
    StableHlo.TRef.ternary main_call6.v12 main_call6.v14 main_call6.v4 main_call6.v15 select,
    StableHlo.nullary main_v18 (iotaInDim S4194304 32 0),
    StableHlo.unary main_v1 main_v19 ((extui 32 · natLt_1_32) : (⟨S2048x2048, .i1⟩ : BufTy).Contents (Elt F) → (⟨S2048x2048, .i32⟩ : BufTy).Contents (Elt F)),
    StableHlo.nullary main_c_8 (constantI S_ 32 0#32),
    StableHlo.binary main_v19 main_c_8 main_v20 ((fun x v => Host.reduce IntOp.addi x v reducesTo_S2048x2048_S_d0_1 h_S_) : (⟨S2048x2048, .i32⟩ : BufTy).Contents (Elt F) → (⟨S_, .i32⟩ : BufTy).Contents (Elt F) → (⟨S_, .i32⟩ : BufTy).Contents (Elt F)),
    StableHlo.unary main_v20 main_v21 (broadcastInDim S4194304 ![] bcast_S_S4194304 : (⟨S_, .i32⟩ : BufTy).Contents (Elt F) → (⟨S4194304, .i32⟩ : BufTy).Contents (Elt F)),
    StableHlo.binary main_v18 main_v21 main_v22 (cmpi .sge : (⟨S4194304, .i32⟩ : BufTy).Contents (Elt F) → (⟨S4194304, .i32⟩ : BufTy).Contents (Elt F) → (⟨S4194304, .i1⟩ : BufTy).Contents (Elt F)),
    StableHlo.nullary main_c_9 (constantI S_ 32 2048#32),
    StableHlo.TRef.unary (.of main_c_9 : StableHlo.TRef sig ⟨S_, .i32⟩) main_call7.v0 id,
    StableHlo.TRef.unary main_call7.v0 main_call7.v1 (broadcastInDim S4194304 ![] bcast_S_S4194304),
    StableHlo.TRef.ternary (.of main_v22 : StableHlo.TRef sig ⟨S4194304, .i1⟩) main_call7.v1 (.of main_v15 : StableHlo.TRef sig ⟨S4194304, .i32⟩) main_call7.v2 select,
    StableHlo.nullary main_c_10 (constantI S_ 32 2048#32),
    StableHlo.TRef.unary (.of main_c_10 : StableHlo.TRef sig ⟨S_, .i32⟩) main_call8.v0 id,
    StableHlo.TRef.unary main_call8.v0 main_call8.v1 (broadcastInDim S4194304 ![] bcast_S_S4194304),
    StableHlo.TRef.ternary (.of main_v22 : StableHlo.TRef sig ⟨S4194304, .i1⟩) main_call8.v1 (.of main_v17 : StableHlo.TRef sig ⟨S4194304, .i32⟩) main_call8.v2 select,
    StableHlo.binary main_arg1 main_arg2 main_v25 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.nullary main_v26 (iotaInDim S2048 32 0),
    StableHlo.binary main_v23 main_v26 main_v27 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)),
    StableHlo.binary main_v24 main_v26 main_v28 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)),
    StableHlo.nullary main_cst_11 (constant S_ .f32 0x00000000#32),
    StableHlo.unary main_cst_11 main_v29 (broadcastInDim S2048 ![] bcast_S_S2048 : (⟨S_, .f32⟩ : BufTy).Contents (Elt F) → (⟨S2048, .f32⟩ : BufTy).Contents (Elt F)),
    StableHlo.nullary main_c_12 (constantI S_ 32 0#32),
    StableHlo.unary main_c_12 main_v30 (broadcastInDim S4196352 ![] bcast_S_S4196352 : (⟨S_, .i32⟩ : BufTy).Contents (Elt F) → (⟨S4196352, .i32⟩ : BufTy).Contents (Elt F)),
    StableHlo.binary main_v28 main_v30 main_v31 (cmpi .slt : (⟨S4196352, .i32⟩ : BufTy).Contents (Elt F) → (⟨S4196352, .i32⟩ : BufTy).Contents (Elt F) → (⟨S4196352, .i1⟩ : BufTy).Contents (Elt F)),
    StableHlo.nullary main_c_13 (constantI S_ 32 2048#32),
    StableHlo.unary main_c_13 main_v32 (broadcastInDim S4196352 ![] bcast_S_S4196352 : (⟨S_, .i32⟩ : BufTy).Contents (Elt F) → (⟨S4196352, .i32⟩ : BufTy).Contents (Elt F)),
    StableHlo.binary main_v28 main_v32 main_v33 (addi : (⟨S4196352, .i32⟩ : BufTy).Contents (Elt F) → (⟨S4196352, .i32⟩ : BufTy).Contents (Elt F) → (⟨S4196352, .i32⟩ : BufTy).Contents (Elt F)),
    StableHlo.ternary main_v31 main_v33 main_v28 main_v34 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v34 main_v35 (broadcastInDim S4196352x1 ![0] bcast_S4196352_S4196352x1_0 : (⟨S4196352, .i32⟩ : BufTy).Contents (Elt F) → (⟨S4196352x1, .i32⟩ : BufTy).Contents (Elt F)),
    StableHlo.nullary main_cst_14 (constant S_ .f32 0x3F800000#32),
    StableHlo.unary main_cst_14 main_v36 (broadcastInDim S4196352 ![] bcast_S_S4196352 : (⟨S_, .f32⟩ : BufTy).Contents (Elt F) → (⟨S4196352, .f32⟩ : BufTy).Contents (Elt F)),
    StableHlo.ternary main_v29 main_v35 main_v36 main_v37 ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)),
    StableHlo.nullary main_cst_15 (constant S_ .f32 0x00000000#32),
    StableHlo.unary main_cst_15 main_v38 (broadcastInDim S2048 ![] bcast_S_S2048 : (⟨S_, .f32⟩ : BufTy).Contents (Elt F) → (⟨S2048, .f32⟩ : BufTy).Contents (Elt F)),
    StableHlo.binary main_v37 main_v38 main_v39 (cmpf .ogt : (⟨S2048, .f32⟩ : BufTy).Contents (Elt F) → (⟨S2048, .f32⟩ : BufTy).Contents (Elt F) → (⟨S2048, .i1⟩ : BufTy).Contents (Elt F)),
    StableHlo.nullary main_cst_16 (constant S_ .f32 0x2B8CBCCC#32),
    StableHlo.unary main_cst_16 main_v40 (broadcastInDim S2048 ![] bcast_S_S2048 : (⟨S_, .f32⟩ : BufTy).Contents (Elt F) → (⟨S2048, .f32⟩ : BufTy).Contents (Elt F)) ]

/-- Statements 61 … 120, the two calls among them inlined: 64 operations. -/
abbrev ops1 : List (HloOp τ sig (Elt F)) :=
  [ StableHlo.binary main_v37 main_v40 main_v41 (maximumf : (⟨S2048, .f32⟩ : BufTy).Contents (Elt F) → (⟨S2048, .f32⟩ : BufTy).Contents (Elt F) → (⟨S2048, .f32⟩ : BufTy).Contents (Elt F)),
    StableHlo.unary main_v41 main_v42 (Host.rsqrt : (⟨S2048, .f32⟩ : BufTy).Contents (Elt F) → (⟨S2048, .f32⟩ : BufTy).Contents (Elt F)),
    StableHlo.nullary main_cst_17 (constant S_ .f32 0x00000000#32),
    StableHlo.TRef.unary (.of main_cst_17 : StableHlo.TRef sig ⟨S_, .f32⟩) main_call9.v0 id,
    StableHlo.TRef.unary main_call9.v0 main_call9.v1 (broadcastInDim S2048 ![] bcast_S_S2048),
    StableHlo.TRef.ternary (.of main_v39 : StableHlo.TRef sig ⟨S2048, .i1⟩) (.of main_v42 : StableHlo.TRef sig ⟨S2048, .f32⟩) main_call9.v1 main_call9.v2 select,
    StableHlo.nullary main_c_18 (constantI S_ 32 0#32),
    StableHlo.unary main_c_18 main_v44 (broadcastInDim S4196352 ![] bcast_S_S4196352 : (⟨S_, .i32⟩ : BufTy).Contents (Elt F) → (⟨S4196352, .i32⟩ : BufTy).Contents (Elt F)),
    StableHlo.binary main_v27 main_v44 main_v45 (cmpi .slt : (⟨S4196352, .i32⟩ : BufTy).Contents (Elt F) → (⟨S4196352, .i32⟩ : BufTy).Contents (Elt F) → (⟨S4196352, .i1⟩ : BufTy).Contents (Elt F)),
    StableHlo.nullary main_c_19 (constantI S_ 32 2048#32),
    StableHlo.unary main_c_19 main_v46 (broadcastInDim S4196352 ![] bcast_S_S4196352 : (⟨S_, .i32⟩ : BufTy).Contents (Elt F) → (⟨S4196352, .i32⟩ : BufTy).Contents (Elt F)),
    StableHlo.binary main_v27 main_v46 main_v47 (addi : (⟨S4196352, .i32⟩ : BufTy).Contents (Elt F) → (⟨S4196352, .i32⟩ : BufTy).Contents (Elt F) → (⟨S4196352, .i32⟩ : BufTy).Contents (Elt F)),
    StableHlo.ternary main_v45 main_v47 main_v27 main_v48 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v48 main_v49 (broadcastInDim S4196352x1 ![0] bcast_S4196352_S4196352x1_0 : (⟨S4196352, .i32⟩ : BufTy).Contents (Elt F) → (⟨S4196352x1, .i32⟩ : BufTy).Contents (Elt F)),
    StableHlo.binary main_v43 main_v49 main_v50 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    StableHlo.nullary main_c_20 (constantI S_ 32 0#32),
    StableHlo.unary main_c_20 main_v51 (broadcastInDim S4196352 ![] bcast_S_S4196352 : (⟨S_, .i32⟩ : BufTy).Contents (Elt F) → (⟨S4196352, .i32⟩ : BufTy).Contents (Elt F)),
    StableHlo.binary main_v28 main_v51 main_v52 (cmpi .slt : (⟨S4196352, .i32⟩ : BufTy).Contents (Elt F) → (⟨S4196352, .i32⟩ : BufTy).Contents (Elt F) → (⟨S4196352, .i1⟩ : BufTy).Contents (Elt F)),
    StableHlo.nullary main_c_21 (constantI S_ 32 2048#32),
    StableHlo.unary main_c_21 main_v53 (broadcastInDim S4196352 ![] bcast_S_S4196352 : (⟨S_, .i32⟩ : BufTy).Contents (Elt F) → (⟨S4196352, .i32⟩ : BufTy).Contents (Elt F)),
    StableHlo.binary main_v28 main_v53 main_v54 (addi : (⟨S4196352, .i32⟩ : BufTy).Contents (Elt F) → (⟨S4196352, .i32⟩ : BufTy).Contents (Elt F) → (⟨S4196352, .i32⟩ : BufTy).Contents (Elt F)),
    StableHlo.ternary main_v52 main_v54 main_v28 main_v55 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v55 main_v56 (broadcastInDim S4196352x1 ![0] bcast_S4196352_S4196352x1_0 : (⟨S4196352, .i32⟩ : BufTy).Contents (Elt F) → (⟨S4196352x1, .i32⟩ : BufTy).Contents (Elt F)),
    StableHlo.binary main_v43 main_v56 main_v57 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    StableHlo.binary main_v50 main_v57 main_v58 (mulf : (⟨S4196352, .f32⟩ : BufTy).Contents (Elt F) → (⟨S4196352, .f32⟩ : BufTy).Contents (Elt F) → (⟨S4196352, .f32⟩ : BufTy).Contents (Elt F)),
    StableHlo.nullary main_c_22 (constantI S_ 32 0#32),
    StableHlo.unary main_c_22 main_v59 (broadcastInDim S4196352 ![] bcast_S_S4196352 : (⟨S_, .i32⟩ : BufTy).Contents (Elt F) → (⟨S4196352, .i32⟩ : BufTy).Contents (Elt F)),
    StableHlo.binary main_v27 main_v59 main_v60 (cmpi .slt : (⟨S4196352, .i32⟩ : BufTy).Contents (Elt F) → (⟨S4196352, .i32⟩ : BufTy).Contents (Elt F) → (⟨S4196352, .i1⟩ : BufTy).Contents (Elt F)),
    StableHlo.nullary main_c_23 (constantI S_ 32 2048#32),
    StableHlo.unary main_c_23 main_v61 (broadcastInDim S4196352 ![] bcast_S_S4196352 : (⟨S_, .i32⟩ : BufTy).Contents (Elt F) → (⟨S4196352, .i32⟩ : BufTy).Contents (Elt F)),
    StableHlo.binary main_v27 main_v61 main_v62 (addi : (⟨S4196352, .i32⟩ : BufTy).Contents (Elt F) → (⟨S4196352, .i32⟩ : BufTy).Contents (Elt F) → (⟨S4196352, .i32⟩ : BufTy).Contents (Elt F)),
    StableHlo.ternary main_v60 main_v62 main_v27 main_v63 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v63 main_v64 (broadcastInDim S4196352x1 ![0] bcast_S4196352_S4196352x1_0 : (⟨S4196352, .i32⟩ : BufTy).Contents (Elt F) → (⟨S4196352x1, .i32⟩ : BufTy).Contents (Elt F)),
    StableHlo.binary main_v25 main_v64 main_v65 ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)),
    StableHlo.unary main_v58 main_v66 (broadcastInDim S4196352x1 ![0] bcast_S4196352_S4196352x1_0 : (⟨S4196352, .f32⟩ : BufTy).Contents (Elt F) → (⟨S4196352x1, .f32⟩ : BufTy).Contents (Elt F)),
    StableHlo.unary main_v66 main_v67 (broadcastInDim S4196352x32 ![0, 1] bcast_S4196352x1_S4196352x32_0_1 : (⟨S4196352x1, .f32⟩ : BufTy).Contents (Elt F) → (⟨S4196352x32, .f32⟩ : BufTy).Contents (Elt F)),
    StableHlo.binary main_v65 main_v67 main_v68 (mulf : (⟨S4196352x32, .f32⟩ : BufTy).Contents (Elt F) → (⟨S4196352x32, .f32⟩ : BufTy).Contents (Elt F) → (⟨S4196352x32, .f32⟩ : BufTy).Contents (Elt F)),
    StableHlo.nullary main_cst_24 (constant S_ .f32 0x00000000#32),
    StableHlo.unary main_cst_24 main_v69 (broadcastInDim S2048x32 ![] bcast_S_S2048x32 : (⟨S_, .f32⟩ : BufTy).Contents (Elt F) → (⟨S2048x32, .f32⟩ : BufTy).Contents (Elt F)),
    StableHlo.nullary main_c_25 (constantI S_ 32 0#32),
    StableHlo.unary main_c_25 main_v70 (broadcastInDim S4196352 ![] bcast_S_S4196352 : (⟨S_, .i32⟩ : BufTy).Contents (Elt F) → (⟨S4196352, .i32⟩ : BufTy).Contents (Elt F)),
    StableHlo.binary main_v28 main_v70 main_v71 (cmpi .slt : (⟨S4196352, .i32⟩ : BufTy).Contents (Elt F) → (⟨S4196352, .i32⟩ : BufTy).Contents (Elt F) → (⟨S4196352, .i1⟩ : BufTy).Contents (Elt F)),
    StableHlo.nullary main_c_26 (constantI S_ 32 2048#32),
    StableHlo.unary main_c_26 main_v72 (broadcastInDim S4196352 ![] bcast_S_S4196352 : (⟨S_, .i32⟩ : BufTy).Contents (Elt F) → (⟨S4196352, .i32⟩ : BufTy).Contents (Elt F)),
    StableHlo.binary main_v28 main_v72 main_v73 (addi : (⟨S4196352, .i32⟩ : BufTy).Contents (Elt F) → (⟨S4196352, .i32⟩ : BufTy).Contents (Elt F) → (⟨S4196352, .i32⟩ : BufTy).Contents (Elt F)),
    StableHlo.ternary main_v71 main_v73 main_v28 main_v74 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v74 main_v75 (broadcastInDim S4196352x1 ![0] bcast_S4196352_S4196352x1_0 : (⟨S4196352, .i32⟩ : BufTy).Contents (Elt F) → (⟨S4196352x1, .i32⟩ : BufTy).Contents (Elt F)),
    StableHlo.ternary main_v69 main_v75 main_v68 main_v76 ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)),
    StableHlo.unary main_arg3 main_v77 (broadcastInDim S1x32 ![1] bcast_S32_S1x32_1 : (⟨S32, .f32⟩ : BufTy).Contents (Elt F) → (⟨S1x32, .f32⟩ : BufTy).Contents (Elt F)),
    StableHlo.unary main_v77 main_v78 (broadcastInDim S2048x32 ![0, 1] bcast_S1x32_S2048x32_0_1 : (⟨S1x32, .f32⟩ : BufTy).Contents (Elt F) → (⟨S2048x32, .f32⟩ : BufTy).Contents (Elt F)),
    StableHlo.binary main_v76 main_v78 main_v79 (addf : (⟨S2048x32, .f32⟩ : BufTy).Contents (Elt F) → (⟨S2048x32, .f32⟩ : BufTy).Contents (Elt F) → (⟨S2048x32, .f32⟩ : BufTy).Contents (Elt F)),
    StableHlo.TRef.nullary main_call10.cst (constant S_ .f32 0x00000000#32),
    StableHlo.TRef.unary main_call10.cst main_call10.v0 (broadcastInDim S2048x32 ![] bcast_S_S2048x32),
    StableHlo.TRef.binary (.of main_v79 : StableHlo.TRef sig ⟨S2048x32, .f32⟩) main_call10.v0 main_call10.v1 maximumf,
    StableHlo.binary main_v80 main_arg4 main_v81 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.nullary main_v82 (iotaInDim S2048 32 0),
    StableHlo.binary main_v23 main_v82 main_v83 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)),
    StableHlo.binary main_v24 main_v82 main_v84 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)),
    StableHlo.nullary main_cst_27 (constant S_ .f32 0x00000000#32),
    StableHlo.unary main_cst_27 main_v85 (broadcastInDim S2048 ![] bcast_S_S2048 : (⟨S_, .f32⟩ : BufTy).Contents (Elt F) → (⟨S2048, .f32⟩ : BufTy).Contents (Elt F)),
    StableHlo.nullary main_c_28 (constantI S_ 32 0#32),
    StableHlo.unary main_c_28 main_v86 (broadcastInDim S4196352 ![] bcast_S_S4196352 : (⟨S_, .i32⟩ : BufTy).Contents (Elt F) → (⟨S4196352, .i32⟩ : BufTy).Contents (Elt F)),
    StableHlo.binary main_v84 main_v86 main_v87 (cmpi .slt : (⟨S4196352, .i32⟩ : BufTy).Contents (Elt F) → (⟨S4196352, .i32⟩ : BufTy).Contents (Elt F) → (⟨S4196352, .i1⟩ : BufTy).Contents (Elt F)),
    StableHlo.nullary main_c_29 (constantI S_ 32 2048#32) ]

/-- Statements 121 … 180, the one call among them inlined: 62 operations. -/
abbrev ops2 : List (HloOp τ sig (Elt F)) :=
  [ StableHlo.unary main_c_29 main_v88 (broadcastInDim S4196352 ![] bcast_S_S4196352 : (⟨S_, .i32⟩ : BufTy).Contents (Elt F) → (⟨S4196352, .i32⟩ : BufTy).Contents (Elt F)),
    StableHlo.binary main_v84 main_v88 main_v89 (addi : (⟨S4196352, .i32⟩ : BufTy).Contents (Elt F) → (⟨S4196352, .i32⟩ : BufTy).Contents (Elt F) → (⟨S4196352, .i32⟩ : BufTy).Contents (Elt F)),
    StableHlo.ternary main_v87 main_v89 main_v84 main_v90 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v90 main_v91 (broadcastInDim S4196352x1 ![0] bcast_S4196352_S4196352x1_0 : (⟨S4196352, .i32⟩ : BufTy).Contents (Elt F) → (⟨S4196352x1, .i32⟩ : BufTy).Contents (Elt F)),
    StableHlo.nullary main_cst_30 (constant S_ .f32 0x3F800000#32),
    StableHlo.unary main_cst_30 main_v92 (broadcastInDim S4196352 ![] bcast_S_S4196352 : (⟨S_, .f32⟩ : BufTy).Contents (Elt F) → (⟨S4196352, .f32⟩ : BufTy).Contents (Elt F)),
    StableHlo.ternary main_v85 main_v91 main_v92 main_v93 ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)),
    StableHlo.nullary main_cst_31 (constant S_ .f32 0x00000000#32),
    StableHlo.unary main_cst_31 main_v94 (broadcastInDim S2048 ![] bcast_S_S2048 : (⟨S_, .f32⟩ : BufTy).Contents (Elt F) → (⟨S2048, .f32⟩ : BufTy).Contents (Elt F)),
    StableHlo.binary main_v93 main_v94 main_v95 (cmpf .ogt : (⟨S2048, .f32⟩ : BufTy).Contents (Elt F) → (⟨S2048, .f32⟩ : BufTy).Contents (Elt F) → (⟨S2048, .i1⟩ : BufTy).Contents (Elt F)),
    StableHlo.nullary main_cst_32 (constant S_ .f32 0x2B8CBCCC#32),
    StableHlo.unary main_cst_32 main_v96 (broadcastInDim S2048 ![] bcast_S_S2048 : (⟨S_, .f32⟩ : BufTy).Contents (Elt F) → (⟨S2048, .f32⟩ : BufTy).Contents (Elt F)),
    StableHlo.binary main_v93 main_v96 main_v97 (maximumf : (⟨S2048, .f32⟩ : BufTy).Contents (Elt F) → (⟨S2048, .f32⟩ : BufTy).Contents (Elt F) → (⟨S2048, .f32⟩ : BufTy).Contents (Elt F)),
    StableHlo.unary main_v97 main_v98 (Host.rsqrt : (⟨S2048, .f32⟩ : BufTy).Contents (Elt F) → (⟨S2048, .f32⟩ : BufTy).Contents (Elt F)),
    StableHlo.nullary main_cst_33 (constant S_ .f32 0x00000000#32),
    StableHlo.TRef.unary (.of main_cst_33 : StableHlo.TRef sig ⟨S_, .f32⟩) main_call11.v0 id,
    StableHlo.TRef.unary main_call11.v0 main_call11.v1 (broadcastInDim S2048 ![] bcast_S_S2048),
    StableHlo.TRef.ternary (.of main_v95 : StableHlo.TRef sig ⟨S2048, .i1⟩) (.of main_v98 : StableHlo.TRef sig ⟨S2048, .f32⟩) main_call11.v1 main_call11.v2 select,
    StableHlo.nullary main_c_34 (constantI S_ 32 0#32),
    StableHlo.unary main_c_34 main_v100 (broadcastInDim S4196352 ![] bcast_S_S4196352 : (⟨S_, .i32⟩ : BufTy).Contents (Elt F) → (⟨S4196352, .i32⟩ : BufTy).Contents (Elt F)),
    StableHlo.binary main_v83 main_v100 main_v101 (cmpi .slt : (⟨S4196352, .i32⟩ : BufTy).Contents (Elt F) → (⟨S4196352, .i32⟩ : BufTy).Contents (Elt F) → (⟨S4196352, .i1⟩ : BufTy).Contents (Elt F)),
    StableHlo.nullary main_c_35 (constantI S_ 32 2048#32),
    StableHlo.unary main_c_35 main_v102 (broadcastInDim S4196352 ![] bcast_S_S4196352 : (⟨S_, .i32⟩ : BufTy).Contents (Elt F) → (⟨S4196352, .i32⟩ : BufTy).Contents (Elt F)),
    StableHlo.binary main_v83 main_v102 main_v103 (addi : (⟨S4196352, .i32⟩ : BufTy).Contents (Elt F) → (⟨S4196352, .i32⟩ : BufTy).Contents (Elt F) → (⟨S4196352, .i32⟩ : BufTy).Contents (Elt F)),
    StableHlo.ternary main_v101 main_v103 main_v83 main_v104 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v104 main_v105 (broadcastInDim S4196352x1 ![0] bcast_S4196352_S4196352x1_0 : (⟨S4196352, .i32⟩ : BufTy).Contents (Elt F) → (⟨S4196352x1, .i32⟩ : BufTy).Contents (Elt F)),
    StableHlo.binary main_v99 main_v105 main_v106 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    StableHlo.nullary main_c_36 (constantI S_ 32 0#32),
    StableHlo.unary main_c_36 main_v107 (broadcastInDim S4196352 ![] bcast_S_S4196352 : (⟨S_, .i32⟩ : BufTy).Contents (Elt F) → (⟨S4196352, .i32⟩ : BufTy).Contents (Elt F)),
    StableHlo.binary main_v84 main_v107 main_v108 (cmpi .slt : (⟨S4196352, .i32⟩ : BufTy).Contents (Elt F) → (⟨S4196352, .i32⟩ : BufTy).Contents (Elt F) → (⟨S4196352, .i1⟩ : BufTy).Contents (Elt F)),
    StableHlo.nullary main_c_37 (constantI S_ 32 2048#32),
    StableHlo.unary main_c_37 main_v109 (broadcastInDim S4196352 ![] bcast_S_S4196352 : (⟨S_, .i32⟩ : BufTy).Contents (Elt F) → (⟨S4196352, .i32⟩ : BufTy).Contents (Elt F)),
    StableHlo.binary main_v84 main_v109 main_v110 (addi : (⟨S4196352, .i32⟩ : BufTy).Contents (Elt F) → (⟨S4196352, .i32⟩ : BufTy).Contents (Elt F) → (⟨S4196352, .i32⟩ : BufTy).Contents (Elt F)),
    StableHlo.ternary main_v108 main_v110 main_v84 main_v111 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v111 main_v112 (broadcastInDim S4196352x1 ![0] bcast_S4196352_S4196352x1_0 : (⟨S4196352, .i32⟩ : BufTy).Contents (Elt F) → (⟨S4196352x1, .i32⟩ : BufTy).Contents (Elt F)),
    StableHlo.binary main_v99 main_v112 main_v113 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    StableHlo.binary main_v106 main_v113 main_v114 (mulf : (⟨S4196352, .f32⟩ : BufTy).Contents (Elt F) → (⟨S4196352, .f32⟩ : BufTy).Contents (Elt F) → (⟨S4196352, .f32⟩ : BufTy).Contents (Elt F)),
    StableHlo.nullary main_c_38 (constantI S_ 32 0#32),
    StableHlo.unary main_c_38 main_v115 (broadcastInDim S4196352 ![] bcast_S_S4196352 : (⟨S_, .i32⟩ : BufTy).Contents (Elt F) → (⟨S4196352, .i32⟩ : BufTy).Contents (Elt F)),
    StableHlo.binary main_v83 main_v115 main_v116 (cmpi .slt : (⟨S4196352, .i32⟩ : BufTy).Contents (Elt F) → (⟨S4196352, .i32⟩ : BufTy).Contents (Elt F) → (⟨S4196352, .i1⟩ : BufTy).Contents (Elt F)),
    StableHlo.nullary main_c_39 (constantI S_ 32 2048#32),
    StableHlo.unary main_c_39 main_v117 (broadcastInDim S4196352 ![] bcast_S_S4196352 : (⟨S_, .i32⟩ : BufTy).Contents (Elt F) → (⟨S4196352, .i32⟩ : BufTy).Contents (Elt F)),
    StableHlo.binary main_v83 main_v117 main_v118 (addi : (⟨S4196352, .i32⟩ : BufTy).Contents (Elt F) → (⟨S4196352, .i32⟩ : BufTy).Contents (Elt F) → (⟨S4196352, .i32⟩ : BufTy).Contents (Elt F)),
    StableHlo.ternary main_v116 main_v118 main_v83 main_v119 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v119 main_v120 (broadcastInDim S4196352x1 ![0] bcast_S4196352_S4196352x1_0 : (⟨S4196352, .i32⟩ : BufTy).Contents (Elt F) → (⟨S4196352x1, .i32⟩ : BufTy).Contents (Elt F)),
    StableHlo.binary main_v81 main_v120 main_v121 ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)),
    StableHlo.unary main_v114 main_v122 (broadcastInDim S4196352x1 ![0] bcast_S4196352_S4196352x1_0 : (⟨S4196352, .f32⟩ : BufTy).Contents (Elt F) → (⟨S4196352x1, .f32⟩ : BufTy).Contents (Elt F)),
    StableHlo.unary main_v122 main_v123 (broadcastInDim S4196352x32 ![0, 1] bcast_S4196352x1_S4196352x32_0_1 : (⟨S4196352x1, .f32⟩ : BufTy).Contents (Elt F) → (⟨S4196352x32, .f32⟩ : BufTy).Contents (Elt F)),
    StableHlo.binary main_v121 main_v123 main_v124 (mulf : (⟨S4196352x32, .f32⟩ : BufTy).Contents (Elt F) → (⟨S4196352x32, .f32⟩ : BufTy).Contents (Elt F) → (⟨S4196352x32, .f32⟩ : BufTy).Contents (Elt F)),
    StableHlo.nullary main_cst_40 (constant S_ .f32 0x00000000#32),
    StableHlo.unary main_cst_40 main_v125 (broadcastInDim S2048x32 ![] bcast_S_S2048x32 : (⟨S_, .f32⟩ : BufTy).Contents (Elt F) → (⟨S2048x32, .f32⟩ : BufTy).Contents (Elt F)),
    StableHlo.nullary main_c_41 (constantI S_ 32 0#32),
    StableHlo.unary main_c_41 main_v126 (broadcastInDim S4196352 ![] bcast_S_S4196352 : (⟨S_, .i32⟩ : BufTy).Contents (Elt F) → (⟨S4196352, .i32⟩ : BufTy).Contents (Elt F)),
    StableHlo.binary main_v84 main_v126 main_v127 (cmpi .slt : (⟨S4196352, .i32⟩ : BufTy).Contents (Elt F) → (⟨S4196352, .i32⟩ : BufTy).Contents (Elt F) → (⟨S4196352, .i1⟩ : BufTy).Contents (Elt F)),
    StableHlo.nullary main_c_42 (constantI S_ 32 2048#32),
    StableHlo.unary main_c_42 main_v128 (broadcastInDim S4196352 ![] bcast_S_S4196352 : (⟨S_, .i32⟩ : BufTy).Contents (Elt F) → (⟨S4196352, .i32⟩ : BufTy).Contents (Elt F)),
    StableHlo.binary main_v84 main_v128 main_v129 (addi : (⟨S4196352, .i32⟩ : BufTy).Contents (Elt F) → (⟨S4196352, .i32⟩ : BufTy).Contents (Elt F) → (⟨S4196352, .i32⟩ : BufTy).Contents (Elt F)),
    StableHlo.ternary main_v127 main_v129 main_v84 main_v130 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v130 main_v131 (broadcastInDim S4196352x1 ![0] bcast_S4196352_S4196352x1_0 : (⟨S4196352, .i32⟩ : BufTy).Contents (Elt F) → (⟨S4196352x1, .i32⟩ : BufTy).Contents (Elt F)),
    StableHlo.ternary main_v125 main_v131 main_v124 main_v132 ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)),
    StableHlo.unary main_arg5 main_v133 (broadcastInDim S1x32 ![1] bcast_S32_S1x32_1 : (⟨S32, .f32⟩ : BufTy).Contents (Elt F) → (⟨S1x32, .f32⟩ : BufTy).Contents (Elt F)),
    StableHlo.unary main_v133 main_v134 (broadcastInDim S2048x32 ![0, 1] bcast_S1x32_S2048x32_0_1 : (⟨S1x32, .f32⟩ : BufTy).Contents (Elt F) → (⟨S2048x32, .f32⟩ : BufTy).Contents (Elt F)) ]

/-- Statements 181 … 182: 2 operations. -/
abbrev ops3 : List (HloOp τ sig (Elt F)) :=
  [ StableHlo.binary main_v132 main_v134 main_v135 (addf : (⟨S2048x32, .f32⟩ : BufTy).Contents (Elt F) → (⟨S2048x32, .f32⟩ : BufTy).Contents (Elt F) → (⟨S2048x32, .f32⟩ : BufTy).Contents (Elt F)),
    StableHlo.binary main_v135 main_arg1 main_v136 (addf : (⟨S2048x32, .f32⟩ : BufTy).Contents (Elt F) → (⟨S2048x32, .f32⟩ : BufTy).Contents (Elt F) → (⟨S2048x32, .f32⟩ : BufTy).Contents (Elt F)) ]

/-- @main's 270 operations, in order. -/
def ops : List (HloOp τ sig (Elt F)) := ops0 ++ (ops1 ++ (ops2 ++ ops3))

set_option maxRecDepth 16384 in
set_option maxHeartbeats 8000000 in
/-- The first window is its operations in order: each call unfolds to its callee's body at the call's record. -/
theorem main_part0_eq (c : Dev nD) : main_part0 (F := F) c = seq ops0 := rfl

set_option maxRecDepth 8192 in
set_option maxHeartbeats 4000000 in
theorem main_part1_eq (c : Dev nD) : main_part1 (F := F) c = seq ops1 := rfl

set_option maxRecDepth 8192 in
set_option maxHeartbeats 4000000 in
theorem main_part2_eq (c : Dev nD) : main_part2 (F := F) c = seq ops2 := rfl

set_option maxRecDepth 8192 in
theorem main_part3_eq (c : Dev nD) : main_part3 (F := F) c = seq ops3 := rfl

/-- @main is the four windows in order, so the whole list in order. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops0_sub : (ops0 : List (HloOp τ sig (Elt F))).Forall fun op => op.bufs ⊆ tcRefs τ sig :=
  ⟨nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., nullary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., binary_bufs_sub .., nullary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub ..⟩
set_option maxRecDepth 8192 in
theorem ops1_sub : (ops1 : List (HloOp τ sig (Elt F))).Forall fun op => op.bufs ⊆ tcRefs τ sig :=
  ⟨binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., binary_bufs_sub .., nullary_bufs_sub ..⟩
set_option maxRecDepth 8192 in
theorem ops2_sub : (ops2 : List (HloOp τ sig (Elt F))).Forall fun op => op.bufs ⊆ tcRefs τ sig :=
  ⟨unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub ..⟩
theorem ops3_sub : (ops3 : List (HloOp τ sig (Elt F))).Forall fun op => op.bufs ⊆ tcRefs τ sig :=
  ⟨binary_bufs_sub .., binary_bufs_sub ..⟩

/-- Every operation touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

set_option maxRecDepth 16384 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops3_fresh : (ops3 : List (HloOp τ sig (Elt F))).Forall fun op => op.fresh = ∅ :=
  ⟨rfl, rfl⟩

/-- Every operation determines the buffer it writes. -/
theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

/-- On every device, for any float values, from any memory with zero counters: every weakly fair execution of
    @main terminates, and every final state has each TensorCore buffer at the fold of the 270 operations over
    the device's launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RRWin.lean ====
/-
  The 270 operations cut into seventeen consecutive windows, one per stage of the computation, and
  the buffer contents after each window as a function of the contents @main starts from: a window
  rewrites only the buffers its operations write, every other buffer keeps its contents through it.
-/
import proofs.«111189_g13383118094673_cont_sun_m_231_3_alg».proof.Proof.RROps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- Window A: the mask of `A` and its running count (8 operations). -/
abbrev wA : List (HloOp τ sig (Elt F)) :=
  [ StableHlo.nullary main_cst (constant S_ .f32 0x00000000#32),
    StableHlo.unary main_cst main_v0 (broadcastInDim S2048x2048 ![] bcast_S_S2048x2048 : (⟨S_, .f32⟩ : BufTy).Contents (Elt F) → (⟨S2048x2048, .f32⟩ : BufTy).Contents (Elt F)),
    StableHlo.binary main_arg0 main_v0 main_v1 (cmpf .une : (⟨S2048x2048, .f32⟩ : BufTy).Contents (Elt F) → (⟨S2048x2048, .f32⟩ : BufTy).Contents (Elt F) → (⟨S2048x2048, .i1⟩ : BufTy).Contents (Elt F)),
    StableHlo.TRef.reshape (.of main_v1 : StableHlo.TRef sig ⟨S2048x2048, .i1⟩) main_call0.v0 rfl shapeCasts_S2048x2048_S4194304,
    StableHlo.TRef.unary main_call0.v0 main_call0.v1 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v1 main_call0.call0.v0 main_call0.call0.v1 (fun x v => Host.reduceWindow IntOp.addi ![4194304] ![1] ![4194303] ![0] x v reduceWindows_S4194304_S4194304_w4194304s1p4194303_0 h_S_) ]

/-- The buffers window A writes. -/
abbrev wA_W : List (Ref sig .tc) := [main_cst, main_v0, main_v1, main_call0_v0, main_call0_v1, main_call0_call0_c, main_call0_call0_v0, main_v2]

set_option maxRecDepth 8192 in
theorem wA_writes : (wA : List (HloOp τ sig (Elt F))).Forall fun op =>
    op.writes ⊆ (wA_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Window B: the clipped counts, their bins and the bins' running count (20 operations). -/
abbrev wB : List (HloOp τ sig (Elt F)) :=
  [ StableHlo.nullary main_c (constantI S_ 32 0#32),
    StableHlo.unary main_c main_v3 (broadcastInDim S4194304 ![] bcast_S_S4194304 : (⟨S_, .i32⟩ : BufTy).Contents (Elt F) → (⟨S4194304, .i32⟩ : BufTy).Contents (Elt F)),
    StableHlo.nullary main_c_0 (constantI S_ 32 0#32),
    StableHlo.TRef.unary (.of main_c_0 : StableHlo.TRef sig ⟨S_, .i32⟩) main_call1.v0 id,
    StableHlo.TRef.unary main_call1.v0 main_call1.v1 (broadcastInDim S4194304 ![] bcast_S_S4194304),
    StableHlo.TRef.binary main_call1.v1 (.of main_v2 : StableHlo.TRef sig ⟨S4194304, .i32⟩) main_call1.v2 maxsi,
    StableHlo.nullary main_c_1 (constantI S_ 32 0#32),
    StableHlo.unary main_c_1 main_v5 (broadcastInDim S4194304 ![] bcast_S_S4194304 : (⟨S_, .i32⟩ : BufTy).Contents (Elt F) → (⟨S4194304, .i32⟩ : BufTy).Contents (Elt F)),
    StableHlo.binary main_v4 main_v5 main_v6 (cmpi .slt : (⟨S4194304, .i32⟩ : BufTy).Contents (Elt F) → (⟨S4194304, .i32⟩ : BufTy).Contents (Elt F) → (⟨S4194304, .i1⟩ : BufTy).Contents (Elt F)),
    StableHlo.nullary main_c_2 (constantI S_ 32 4194304#32),
    StableHlo.unary main_c_2 main_v7 (broadcastInDim S4194304 ![] bcast_S_S4194304 : (⟨S_, .i32⟩ : BufTy).Contents (Elt F) → (⟨S4194304, .i32⟩ : BufTy).Contents (Elt F)),
    StableHlo.binary main_v4 main_v7 main_v8 (addi : (⟨S4194304, .i32⟩ : BufTy).Contents (Elt F) → (⟨S4194304, .i32⟩ : BufTy).Contents (Elt F) → (⟨S4194304, .i32⟩ : BufTy).Contents (Elt F)),
    StableHlo.ternary main_v6 main_v8 main_v4 main_v9 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v9 main_v10 (broadcastInDim S4194304x1 ![0] bcast_S4194304_S4194304x1_0 : (⟨S4194304, .i32⟩ : BufTy).Contents (Elt F) → (⟨S4194304x1, .i32⟩ : BufTy).Contents (Elt F)),
    StableHlo.nullary main_c_3 (constantI S_ 32 1#32),
    StableHlo.unary main_c_3 main_v11 (broadcastInDim S4194304 ![] bcast_S_S4194304 : (⟨S_, .i32⟩ : BufTy).Contents (Elt F) → (⟨S4194304, .i32⟩ : BufTy).Contents (Elt F)),
    StableHlo.ternary main_v3 main_v10 main_v11 main_v12 ((fun x i u => Host.scatter scatter_S4194304_S4194304x1_S4194304_n_0_0_1 IntOp.addi x i u) : (⟨S4194304, .i32⟩ : BufTy).Contents (Elt F) → (⟨S4194304x1, .i32⟩ : BufTy).Contents (Elt F) → (⟨S4194304, .i32⟩ : BufTy).Contents (Elt F) → (⟨S4194304, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v12 : StableHlo.TRef sig ⟨S4194304, .i32⟩) main_call2.call0.v0 main_call2.call0.v1 (fun x v => Host.reduceWindow IntOp.addi ![4194304] ![1] ![4194303] ![0] x v reduceWindows_S4194304_S4194304_w4194304s1p4194303_0 h_S_) ]

/-- The buffers window B writes. -/
abbrev wB_W : List (Ref sig .tc) := [main_c, main_v3, main_c_0, main_call1_v0, main_call1_v1, main_v4, main_c_1, main_v5, main_v6, main_c_2, main_v7, main_v8, main_v9, main_v10, main_c_3, main_v11, main_v12, main_call2_call0_c, main_call2_call0_v0, main_v13]

set_option maxRecDepth 8192 in
theorem wB_writes : (wB : List (HloOp τ sig (Elt F))).Forall fun op =>
    op.writes ⊆ (wB_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Window C1: the rows' quotient (17 operations). -/
abbrev wC1 : List (HloOp τ sig (Elt F)) :=
  [ StableHlo.nullary main_c_4 (constantI S_ 32 2048#32),
    StableHlo.TRef.unary (.of main_c_4 : StableHlo.TRef sig ⟨S_, .i32⟩) main_call3.v0 (broadcastInDim S4194304 ![] bcast_S_S4194304),
    StableHlo.TRef.binary (.of main_v13 : StableHlo.TRef sig ⟨S4194304, .i32⟩) main_call3.v0 main_call3.v1 Host.divsi,
    StableHlo.TRef.unary (.of main_v13 : StableHlo.TRef sig ⟨S4194304, .i32⟩) main_call3.v2 signi,
    StableHlo.TRef.unary (.of main_c_4 : StableHlo.TRef sig ⟨S_, .i32⟩) main_call3.v3 signi,
    StableHlo.TRef.unary main_call3.v3 main_call3.v4 (broadcastInDim S4194304 ![] bcast_S_S4194304),
    StableHlo.TRef.binary main_call3.v2 main_call3.v4 main_call3.v5 (cmpi .ne),
    StableHlo.TRef.unary (.of main_c_4 : StableHlo.TRef sig ⟨S_, .i32⟩) main_call3.v6 (broadcastInDim S4194304 ![] bcast_S_S4194304),
    StableHlo.TRef.binary (.of main_v13 : StableHlo.TRef sig ⟨S4194304, .i32⟩) main_call3.v6 main_call3.v7 Host.remsi,
    StableHlo.TRef.nullary main_call3.c (constantI S_ 32 0#32),
    StableHlo.TRef.unary main_call3.c main_call3.v8 (broadcastInDim S4194304 ![] bcast_S_S4194304),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S4194304 ![] bcast_S_S4194304),
    StableHlo.TRef.binary main_call3.v1 main_call3.v11 main_call3.v12 subi,
    StableHlo.TRef.ternary main_call3.v10 main_call3.v12 main_call3.v1 main_call3.call0.v0 select ]

/-- The buffers window C1 writes. -/
abbrev wC1_W : List (Ref sig .tc) := [main_c_4, main_call3_v0, main_call3_v1, main_call3_v2, main_call3_v3, main_call3_v4, main_call3_v5, main_call3_v6, main_call3_v7, main_call3_c, main_call3_v8, main_call3_v9, main_call3_v10, main_call3_c_0, main_call3_v11, main_call3_v12, main_v14]

set_option maxRecDepth 8192 in
theorem wC1_writes : (wC1 : List (HloOp τ sig (Elt F))).Forall fun op =>
    op.writes ⊆ (wC1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Window C2: the rows' remainder: the row numbers (22 operations). -/
abbrev wC2 : List (HloOp τ sig (Elt F)) :=
  [ StableHlo.nullary main_c_5 (constantI S_ 32 2048#32),
    StableHlo.TRef.unary (.of main_c_5 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S4194304 ![] bcast_S_S4194304),
    StableHlo.TRef.binary (.of main_v14 : StableHlo.TRef sig ⟨S4194304, .i32⟩) main_call4.v3 main_call4.v4 Host.remsi,
    StableHlo.TRef.nullary main_call4.c_1 (constantI S_ 32 0#32),
    StableHlo.TRef.unary main_call4.c_1 main_call4.v5 (broadcastInDim S4194304 ![] bcast_S_S4194304),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S4194304 ![] bcast_S_S4194304),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S4194304 ![] bcast_S_S4194304),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S4194304 ![] bcast_S_S4194304),
    StableHlo.TRef.binary main_call4.v4 main_call4.v13 main_call4.v14 addi,
    StableHlo.TRef.ternary main_call4.v12 main_call4.v14 main_call4.v4 main_call4.v15 select ]

/-- The buffers window C2 writes. -/
abbrev wC2_W : List (Ref sig .tc) := [main_c_5, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v15]

set_option maxRecDepth 8192 in
theorem wC2_writes : (wC2 : List (HloOp τ sig (Elt F))).Forall fun op =>
    op.writes ⊆ (wC2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Window D1: the columns' quotient (17 operations). -/
abbrev wD1 : List (HloOp τ sig (Elt F)) :=
  [ StableHlo.nullary main_c_6 (constantI S_ 32 1#32),
    StableHlo.TRef.unary (.of main_c_6 : StableHlo.TRef sig ⟨S_, .i32⟩) main_call5.v0 (broadcastInDim S4194304 ![] bcast_S_S4194304),
    StableHlo.TRef.binary (.of main_v13 : StableHlo.TRef sig ⟨S4194304, .i32⟩) main_call5.v0 main_call5.v1 Host.divsi,
    StableHlo.TRef.unary (.of main_v13 : StableHlo.TRef sig ⟨S4194304, .i32⟩) main_call5.v2 signi,
    StableHlo.TRef.unary (.of main_c_6 : StableHlo.TRef sig ⟨S_, .i32⟩) main_call5.v3 signi,
    StableHlo.TRef.unary main_call5.v3 main_call5.v4 (broadcastInDim S4194304 ![] bcast_S_S4194304),
    StableHlo.TRef.binary main_call5.v2 main_call5.v4 main_call5.v5 (cmpi .ne),
    StableHlo.TRef.unary (.of main_c_6 : StableHlo.TRef sig ⟨S_, .i32⟩) main_call5.v6 (broadcastInDim S4194304 ![] bcast_S_S4194304),
    StableHlo.TRef.binary (.of main_v13 : StableHlo.TRef sig ⟨S4194304, .i32⟩) main_call5.v6 main_call5.v7 Host.remsi,
    StableHlo.TRef.nullary main_call5.c (constantI S_ 32 0#32),
    StableHlo.TRef.unary main_call5.c main_call5.v8 (broadcastInDim S4194304 ![] bcast_S_S4194304),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S4194304 ![] bcast_S_S4194304),
    StableHlo.TRef.binary main_call5.v1 main_call5.v11 main_call5.v12 subi,
    StableHlo.TRef.ternary main_call5.v10 main_call5.v12 main_call5.v1 main_call5.call0.v0 select ]

/-- The buffers window D1 writes. -/
abbrev wD1_W : List (Ref sig .tc) := [main_c_6, main_call5_v0, main_call5_v1, main_call5_v2, main_call5_v3, main_call5_v4, main_call5_v5, main_call5_v6, main_call5_v7, main_call5_c, main_call5_v8, main_call5_v9, main_call5_v10, main_call5_c_0, main_call5_v11, main_call5_v12, main_v16]

set_option maxRecDepth 8192 in
theorem wD1_writes : (wD1 : List (HloOp τ sig (Elt F))).Forall fun op =>
    op.writes ⊆ (wD1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Window D2: the columns' remainder: the column numbers (22 operations). -/
abbrev wD2 : List (HloOp τ sig (Elt F)) :=
  [ StableHlo.nullary main_c_7 (constantI S_ 32 2048#32),
    StableHlo.TRef.unary (.of main_c_7 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S4194304 ![] bcast_S_S4194304),
    StableHlo.TRef.binary (.of main_v16 : StableHlo.TRef sig ⟨S4194304, .i32⟩) main_call6.v3 main_call6.v4 Host.remsi,
    StableHlo.TRef.nullary main_call6.c_1 (constantI S_ 32 0#32),
    StableHlo.TRef.unary main_call6.c_1 main_call6.v5 (broadcastInDim S4194304 ![] bcast_S_S4194304),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S4194304 ![] bcast_S_S4194304),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S4194304 ![] bcast_S_S4194304),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S4194304 ![] bcast_S_S4194304),
    StableHlo.TRef.binary main_call6.v4 main_call6.v13 main_call6.v14 addi,
    StableHlo.TRef.ternary main_call6.v12 main_call6.v14 main_call6.v4 main_call6.v15 select ]

/-- The buffers window D2 writes. -/
abbrev wD2_W : List (Ref sig .tc) := [main_c_7, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v17]

set_option maxRecDepth 8192 in
theorem wD2_writes : (wD2 : List (HloOp τ sig (Elt F))).Forall fun op =>
    op.writes ⊆ (wD2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Window E: the fill mask and the padded source and destination lists (14 operations). -/
abbrev wE : List (HloOp τ sig (Elt F)) :=
  [ StableHlo.nullary main_v18 (iotaInDim S4194304 32 0),
    StableHlo.unary main_v1 main_v19 ((extui 32 · natLt_1_32) : (⟨S2048x2048, .i1⟩ : BufTy).Contents (Elt F) → (⟨S2048x2048, .i32⟩ : BufTy).Contents (Elt F)),
    StableHlo.nullary main_c_8 (constantI S_ 32 0#32),
    StableHlo.binary main_v19 main_c_8 main_v20 ((fun x v => Host.reduce IntOp.addi x v reducesTo_S2048x2048_S_d0_1 h_S_) : (⟨S2048x2048, .i32⟩ : BufTy).Contents (Elt F) → (⟨S_, .i32⟩ : BufTy).Contents (Elt F) → (⟨S_, .i32⟩ : BufTy).Contents (Elt F)),
    StableHlo.unary main_v20 main_v21 (broadcastInDim S4194304 ![] bcast_S_S4194304 : (⟨S_, .i32⟩ : BufTy).Contents (Elt F) → (⟨S4194304, .i32⟩ : BufTy).Contents (Elt F)),
    StableHlo.binary main_v18 main_v21 main_v22 (cmpi .sge : (⟨S4194304, .i32⟩ : BufTy).Contents (Elt F) → (⟨S4194304, .i32⟩ : BufTy).Contents (Elt F) → (⟨S4194304, .i1⟩ : BufTy).Contents (Elt F)),
    StableHlo.nullary main_c_9 (constantI S_ 32 2048#32),
    StableHlo.TRef.unary (.of main_c_9 : StableHlo.TRef sig ⟨S_, .i32⟩) main_call7.v0 id,
    StableHlo.TRef.unary main_call7.v0 main_call7.v1 (broadcastInDim S4194304 ![] bcast_S_S4194304),
    StableHlo.TRef.ternary (.of main_v22 : StableHlo.TRef sig ⟨S4194304, .i1⟩) main_call7.v1 (.of main_v15 : StableHlo.TRef sig ⟨S4194304, .i32⟩) main_call7.v2 select,
    StableHlo.nullary main_c_10 (constantI S_ 32 2048#32),
    StableHlo.TRef.unary (.of main_c_10 : StableHlo.TRef sig ⟨S_, .i32⟩) main_call8.v0 id,
    StableHlo.TRef.unary main_call8.v0 main_call8.v1 (broadcastInDim S4194304 ![] bcast_S_S4194304),
    StableHlo.TRef.ternary (.of main_v22 : StableHlo.TRef sig ⟨S4194304, .i1⟩) main_call8.v1 (.of main_v17 : StableHlo.TRef sig ⟨S4194304, .i32⟩) main_call8.v2 select ]

/-- The buffers window E writes. -/
abbrev wE_W : List (Ref sig .tc) := [main_v18, main_v19, main_c_8, main_v20, main_v21, main_v22, main_c_9, main_call7_v0, main_call7_v1, main_v23, main_c_10, main_call8_v0, main_call8_v1, main_v24]

set_option maxRecDepth 8192 in
theorem wE_writes : (wE : List (HloOp τ sig (Elt F))).Forall fun op =>
    op.writes ⊆ (wE_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Window F: the first linear map and the lists with the self-loops (4 operations). -/
abbrev wF : List (HloOp τ sig (Elt F)) :=
  [ StableHlo.binary main_arg1 main_arg2 main_v25 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.nullary main_v26 (iotaInDim S2048 32 0),
    StableHlo.binary main_v23 main_v26 main_v27 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)),
    StableHlo.binary main_v24 main_v26 main_v28 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) ]

/-- The buffers window F writes. -/
abbrev wF_W : List (Ref sig .tc) := [main_v25, main_v26, main_v27, main_v28]

set_option maxRecDepth 8192 in
theorem wF_writes : (wF : List (HloOp τ sig (Elt F))).Forall fun op =>
    op.writes ⊆ (wF_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Window G: the first layer's degrees and normalisation (24 operations). -/
abbrev wG : List (HloOp τ sig (Elt F)) :=
  [ StableHlo.nullary main_cst_11 (constant S_ .f32 0x00000000#32),
    StableHlo.unary main_cst_11 main_v29 (broadcastInDim S2048 ![] bcast_S_S2048 : (⟨S_, .f32⟩ : BufTy).Contents (Elt F) → (⟨S2048, .f32⟩ : BufTy).Contents (Elt F)),
    StableHlo.nullary main_c_12 (constantI S_ 32 0#32),
    StableHlo.unary main_c_12 main_v30 (broadcastInDim S4196352 ![] bcast_S_S4196352 : (⟨S_, .i32⟩ : BufTy).Contents (Elt F) → (⟨S4196352, .i32⟩ : BufTy).Contents (Elt F)),
    StableHlo.binary main_v28 main_v30 main_v31 (cmpi .slt : (⟨S4196352, .i32⟩ : BufTy).Contents (Elt F) → (⟨S4196352, .i32⟩ : BufTy).Contents (Elt F) → (⟨S4196352, .i1⟩ : BufTy).Contents (Elt F)),
    StableHlo.nullary main_c_13 (constantI S_ 32 2048#32),
    StableHlo.unary main_c_13 main_v32 (broadcastInDim S4196352 ![] bcast_S_S4196352 : (⟨S_, .i32⟩ : BufTy).Contents (Elt F) → (⟨S4196352, .i32⟩ : BufTy).Contents (Elt F)),
    StableHlo.binary main_v28 main_v32 main_v33 (addi : (⟨S4196352, .i32⟩ : BufTy).Contents (Elt F) → (⟨S4196352, .i32⟩ : BufTy).Contents (Elt F) → (⟨S4196352, .i32⟩ : BufTy).Contents (Elt F)),
    StableHlo.ternary main_v31 main_v33 main_v28 main_v34 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v34 main_v35 (broadcastInDim S4196352x1 ![0] bcast_S4196352_S4196352x1_0 : (⟨S4196352, .i32⟩ : BufTy).Contents (Elt F) → (⟨S4196352x1, .i32⟩ : BufTy).Contents (Elt F)),
    StableHlo.nullary main_cst_14 (constant S_ .f32 0x3F800000#32),
    StableHlo.unary main_cst_14 main_v36 (broadcastInDim S4196352 ![] bcast_S_S4196352 : (⟨S_, .f32⟩ : BufTy).Contents (Elt F) → (⟨S4196352, .f32⟩ : BufTy).Contents (Elt F)),
    StableHlo.ternary main_v29 main_v35 main_v36 main_v37 ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)),
    StableHlo.nullary main_cst_15 (constant S_ .f32 0x00000000#32),
    StableHlo.unary main_cst_15 main_v38 (broadcastInDim S2048 ![] bcast_S_S2048 : (⟨S_, .f32⟩ : BufTy).Contents (Elt F) → (⟨S2048, .f32⟩ : BufTy).Contents (Elt F)),
    StableHlo.binary main_v37 main_v38 main_v39 (cmpf .ogt : (⟨S2048, .f32⟩ : BufTy).Contents (Elt F) → (⟨S2048, .f32⟩ : BufTy).Contents (Elt F) → (⟨S2048, .i1⟩ : BufTy).Contents (Elt F)),
    StableHlo.nullary main_cst_16 (constant S_ .f32 0x2B8CBCCC#32),
    StableHlo.unary main_cst_16 main_v40 (broadcastInDim S2048 ![] bcast_S_S2048 : (⟨S_, .f32⟩ : BufTy).Contents (Elt F) → (⟨S2048, .f32⟩ : BufTy).Contents (Elt F)),
    StableHlo.binary main_v37 main_v40 main_v41 (maximumf : (⟨S2048, .f32⟩ : BufTy).Contents (Elt F) → (⟨S2048, .f32⟩ : BufTy).Contents (Elt F) → (⟨S2048, .f32⟩ : BufTy).Contents (Elt F)),
    StableHlo.unary main_v41 main_v42 (Host.rsqrt : (⟨S2048, .f32⟩ : BufTy).Contents (Elt F) → (⟨S2048, .f32⟩ : BufTy).Contents (Elt F)),
    StableHlo.nullary main_cst_17 (constant S_ .f32 0x00000000#32),
    StableHlo.TRef.unary (.of main_cst_17 : StableHlo.TRef sig ⟨S_, .f32⟩) main_call9.v0 id,
    StableHlo.TRef.unary main_call9.v0 main_call9.v1 (broadcastInDim S2048 ![] bcast_S_S2048),
    StableHlo.TRef.ternary (.of main_v39 : StableHlo.TRef sig ⟨S2048, .i1⟩) (.of main_v42 : StableHlo.TRef sig ⟨S2048, .f32⟩) main_call9.v1 main_call9.v2 select ]

/-- The buffers window G writes. -/
abbrev wG_W : List (Ref sig .tc) := [main_cst_11, main_v29, main_c_12, main_v30, main_v31, main_c_13, main_v32, main_v33, main_v34, main_v35, main_cst_14, main_v36, main_v37, main_cst_15, main_v38, main_v39, main_cst_16, main_v40, main_v41, main_v42, main_cst_17, main_call9_v0, main_call9_v1, main_v43]

set_option maxRecDepth 8192 in
theorem wG_writes : (wG : List (HloOp τ sig (Elt F))).Forall fun op =>
    op.writes ⊆ (wG_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Window I: the first layer's per-edge normalisation (19 operations). -/
abbrev wI : List (HloOp τ sig (Elt F)) :=
  [ StableHlo.nullary main_c_18 (constantI S_ 32 0#32),
    StableHlo.unary main_c_18 main_v44 (broadcastInDim S4196352 ![] bcast_S_S4196352 : (⟨S_, .i32⟩ : BufTy).Contents (Elt F) → (⟨S4196352, .i32⟩ : BufTy).Contents (Elt F)),
    StableHlo.binary main_v27 main_v44 main_v45 (cmpi .slt : (⟨S4196352, .i32⟩ : BufTy).Contents (Elt F) → (⟨S4196352, .i32⟩ : BufTy).Contents (Elt F) → (⟨S4196352, .i1⟩ : BufTy).Contents (Elt F)),
    StableHlo.nullary main_c_19 (constantI S_ 32 2048#32),
    StableHlo.unary main_c_19 main_v46 (broadcastInDim S4196352 ![] bcast_S_S4196352 : (⟨S_, .i32⟩ : BufTy).Contents (Elt F) → (⟨S4196352, .i32⟩ : BufTy).Contents (Elt F)),
    StableHlo.binary main_v27 main_v46 main_v47 (addi : (⟨S4196352, .i32⟩ : BufTy).Contents (Elt F) → (⟨S4196352, .i32⟩ : BufTy).Contents (Elt F) → (⟨S4196352, .i32⟩ : BufTy).Contents (Elt F)),
    StableHlo.ternary main_v45 main_v47 main_v27 main_v48 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v48 main_v49 (broadcastInDim S4196352x1 ![0] bcast_S4196352_S4196352x1_0 : (⟨S4196352, .i32⟩ : BufTy).Contents (Elt F) → (⟨S4196352x1, .i32⟩ : BufTy).Contents (Elt F)),
    StableHlo.binary main_v43 main_v49 main_v50 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    StableHlo.nullary main_c_20 (constantI S_ 32 0#32),
    StableHlo.unary main_c_20 main_v51 (broadcastInDim S4196352 ![] bcast_S_S4196352 : (⟨S_, .i32⟩ : BufTy).Contents (Elt F) → (⟨S4196352, .i32⟩ : BufTy).Contents (Elt F)),
    StableHlo.binary main_v28 main_v51 main_v52 (cmpi .slt : (⟨S4196352, .i32⟩ : BufTy).Contents (Elt F) → (⟨S4196352, .i32⟩ : BufTy).Contents (Elt F) → (⟨S4196352, .i1⟩ : BufTy).Contents (Elt F)),
    StableHlo.nullary main_c_21 (constantI S_ 32 2048#32),
    StableHlo.unary main_c_21 main_v53 (broadcastInDim S4196352 ![] bcast_S_S4196352 : (⟨S_, .i32⟩ : BufTy).Contents (Elt F) → (⟨S4196352, .i32⟩ : BufTy).Contents (Elt F)),
    StableHlo.binary main_v28 main_v53 main_v54 (addi : (⟨S4196352, .i32⟩ : BufTy).Contents (Elt F) → (⟨S4196352, .i32⟩ : BufTy).Contents (Elt F) → (⟨S4196352, .i32⟩ : BufTy).Contents (Elt F)),
    StableHlo.ternary main_v52 main_v54 main_v28 main_v55 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v55 main_v56 (broadcastInDim S4196352x1 ![0] bcast_S4196352_S4196352x1_0 : (⟨S4196352, .i32⟩ : BufTy).Contents (Elt F) → (⟨S4196352x1, .i32⟩ : BufTy).Contents (Elt F)),
    StableHlo.binary main_v43 main_v56 main_v57 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    StableHlo.binary main_v50 main_v57 main_v58 (mulf : (⟨S4196352, .f32⟩ : BufTy).Contents (Elt F) → (⟨S4196352, .f32⟩ : BufTy).Contents (Elt F) → (⟨S4196352, .f32⟩ : BufTy).Contents (Elt F)) ]

/-- The buffers window I writes. -/
abbrev wI_W : List (Ref sig .tc) := [main_c_18, main_v44, main_v45, main_c_19, main_v46, main_v47, main_v48, main_v49, main_v50, main_c_20, main_v51, main_v52, main_c_21, main_v53, main_v54, main_v55, main_v56, main_v57, main_v58]

set_option maxRecDepth 8192 in
theorem wI_writes : (wI : List (HloOp τ sig (Elt F))).Forall fun op =>
    op.writes ⊆ (wI_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Window J: the first layer's messages (12 operations). -/
abbrev wJ : List (HloOp τ sig (Elt F)) :=
  [ StableHlo.nullary main_c_22 (constantI S_ 32 0#32),
    StableHlo.unary main_c_22 main_v59 (broadcastInDim S4196352 ![] bcast_S_S4196352 : (⟨S_, .i32⟩ : BufTy).Contents (Elt F) → (⟨S4196352, .i32⟩ : BufTy).Contents (Elt F)),
    StableHlo.binary main_v27 main_v59 main_v60 (cmpi .slt : (⟨S4196352, .i32⟩ : BufTy).Contents (Elt F) → (⟨S4196352, .i32⟩ : BufTy).Contents (Elt F) → (⟨S4196352, .i1⟩ : BufTy).Contents (Elt F)),
    StableHlo.nullary main_c_23 (constantI S_ 32 2048#32),
    StableHlo.unary main_c_23 main_v61 (broadcastInDim S4196352 ![] bcast_S_S4196352 : (⟨S_, .i32⟩ : BufTy).Contents (Elt F) → (⟨S4196352, .i32⟩ : BufTy).Contents (Elt F)),
    StableHlo.binary main_v27 main_v61 main_v62 (addi : (⟨S4196352, .i32⟩ : BufTy).Contents (Elt F) → (⟨S4196352, .i32⟩ : BufTy).Contents (Elt F) → (⟨S4196352, .i32⟩ : BufTy).Contents (Elt F)),
    StableHlo.ternary main_v60 main_v62 main_v27 main_v63 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v63 main_v64 (broadcastInDim S4196352x1 ![0] bcast_S4196352_S4196352x1_0 : (⟨S4196352, .i32⟩ : BufTy).Contents (Elt F) → (⟨S4196352x1, .i32⟩ : BufTy).Contents (Elt F)),
    StableHlo.binary main_v25 main_v64 main_v65 ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)),
    StableHlo.unary main_v58 main_v66 (broadcastInDim S4196352x1 ![0] bcast_S4196352_S4196352x1_0 : (⟨S4196352, .f32⟩ : BufTy).Contents (Elt F) → (⟨S4196352x1, .f32⟩ : BufTy).Contents (Elt F)),
    StableHlo.unary main_v66 main_v67 (broadcastInDim S4196352x32 ![0, 1] bcast_S4196352x1_S4196352x32_0_1 : (⟨S4196352x1, .f32⟩ : BufTy).Contents (Elt F) → (⟨S4196352x32, .f32⟩ : BufTy).Contents (Elt F)),
    StableHlo.binary main_v65 main_v67 main_v68 (mulf : (⟨S4196352x32, .f32⟩ : BufTy).Contents (Elt F) → (⟨S4196352x32, .f32⟩ : BufTy).Contents (Elt F) → (⟨S4196352x32, .f32⟩ : BufTy).Contents (Elt F)) ]

/-- The buffers window J writes. -/
abbrev wJ_W : List (Ref sig .tc) := [main_c_22, main_v59, main_v60, main_c_23, main_v61, main_v62, main_v63, main_v64, main_v65, main_v66, main_v67, main_v68]

set_option maxRecDepth 8192 in
theorem wJ_writes : (wJ : List (HloOp τ sig (Elt F))).Forall fun op =>
    op.writes ⊆ (wJ_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Window K: the first layer's aggregate, bias and `relu` (17 operations). -/
abbrev wK : List (HloOp τ sig (Elt F)) :=
  [ StableHlo.nullary main_cst_24 (constant S_ .f32 0x00000000#32),
    StableHlo.unary main_cst_24 main_v69 (broadcastInDim S2048x32 ![] bcast_S_S2048x32 : (⟨S_, .f32⟩ : BufTy).Contents (Elt F) → (⟨S2048x32, .f32⟩ : BufTy).Contents (Elt F)),
    StableHlo.nullary main_c_25 (constantI S_ 32 0#32),
    StableHlo.unary main_c_25 main_v70 (broadcastInDim S4196352 ![] bcast_S_S4196352 : (⟨S_, .i32⟩ : BufTy).Contents (Elt F) → (⟨S4196352, .i32⟩ : BufTy).Contents (Elt F)),
    StableHlo.binary main_v28 main_v70 main_v71 (cmpi .slt : (⟨S4196352, .i32⟩ : BufTy).Contents (Elt F) → (⟨S4196352, .i32⟩ : BufTy).Contents (Elt F) → (⟨S4196352, .i1⟩ : BufTy).Contents (Elt F)),
    StableHlo.nullary main_c_26 (constantI S_ 32 2048#32),
    StableHlo.unary main_c_26 main_v72 (broadcastInDim S4196352 ![] bcast_S_S4196352 : (⟨S_, .i32⟩ : BufTy).Contents (Elt F) → (⟨S4196352, .i32⟩ : BufTy).Contents (Elt F)),
    StableHlo.binary main_v28 main_v72 main_v73 (addi : (⟨S4196352, .i32⟩ : BufTy).Contents (Elt F) → (⟨S4196352, .i32⟩ : BufTy).Contents (Elt F) → (⟨S4196352, .i32⟩ : BufTy).Contents (Elt F)),
    StableHlo.ternary main_v71 main_v73 main_v28 main_v74 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v74 main_v75 (broadcastInDim S4196352x1 ![0] bcast_S4196352_S4196352x1_0 : (⟨S4196352, .i32⟩ : BufTy).Contents (Elt F) → (⟨S4196352x1, .i32⟩ : BufTy).Contents (Elt F)),
    StableHlo.ternary main_v69 main_v75 main_v68 main_v76 ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)),
    StableHlo.unary main_arg3 main_v77 (broadcastInDim S1x32 ![1] bcast_S32_S1x32_1 : (⟨S32, .f32⟩ : BufTy).Contents (Elt F) → (⟨S1x32, .f32⟩ : BufTy).Contents (Elt F)),
    StableHlo.unary main_v77 main_v78 (broadcastInDim S2048x32 ![0, 1] bcast_S1x32_S2048x32_0_1 : (⟨S1x32, .f32⟩ : BufTy).Contents (Elt F) → (⟨S2048x32, .f32⟩ : BufTy).Contents (Elt F)),
    StableHlo.binary main_v76 main_v78 main_v79 (addf : (⟨S2048x32, .f32⟩ : BufTy).Contents (Elt F) → (⟨S2048x32, .f32⟩ : BufTy).Contents (Elt F) → (⟨S2048x32, .f32⟩ : BufTy).Contents (Elt F)),
    StableHlo.TRef.nullary main_call10.cst (constant S_ .f32 0x00000000#32),
    StableHlo.TRef.unary main_call10.cst main_call10.v0 (broadcastInDim S2048x32 ![] bcast_S_S2048x32),
    StableHlo.TRef.binary (.of main_v79 : StableHlo.TRef sig ⟨S2048x32, .f32⟩) main_call10.v0 main_call10.v1 maximumf ]

/-- The buffers window K writes. -/
abbrev wK_W : List (Ref sig .tc) := [main_cst_24, main_v69, main_c_25, main_v70, main_v71, main_c_26, main_v72, main_v73, main_v74, main_v75, main_v76, main_v77, main_v78, main_v79, main_call10_cst, main_call10_v0, main_v80]

set_option maxRecDepth 8192 in
theorem wK_writes : (wK : List (HloOp τ sig (Elt F))).Forall fun op =>
    op.writes ⊆ (wK_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Window L: the second linear map and the lists with the self-loops again (4 operations). -/
abbrev wL : List (HloOp τ sig (Elt F)) :=
  [ StableHlo.binary main_v80 main_arg4 main_v81 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.nullary main_v82 (iotaInDim S2048 32 0),
    StableHlo.binary main_v23 main_v82 main_v83 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)),
    StableHlo.binary main_v24 main_v82 main_v84 ((fun a b => concatenate S4196352 0 [⟨S4194304, a⟩, ⟨S2048, b⟩] concatenates_S4194304_S2048_S4196352_d0) : (⟨S4194304, .i32⟩ : BufTy).Contents (Elt F) → (⟨S2048, .i32⟩ : BufTy).Contents (Elt F) → (⟨S4196352, .i32⟩ : BufTy).Contents (Elt F)) ]

/-- The buffers window L writes. -/
abbrev wL_W : List (Ref sig .tc) := [main_v81, main_v82, main_v83, main_v84]

set_option maxRecDepth 8192 in
theorem wL_writes : (wL : List (HloOp τ sig (Elt F))).Forall fun op =>
    op.writes ⊆ (wL_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Window M: the second layer's degrees and normalisation (24 operations). -/
abbrev wM : List (HloOp τ sig (Elt F)) :=
  [ StableHlo.nullary main_cst_27 (constant S_ .f32 0x00000000#32),
    StableHlo.unary main_cst_27 main_v85 (broadcastInDim S2048 ![] bcast_S_S2048 : (⟨S_, .f32⟩ : BufTy).Contents (Elt F) → (⟨S2048, .f32⟩ : BufTy).Contents (Elt F)),
    StableHlo.nullary main_c_28 (constantI S_ 32 0#32),
    StableHlo.unary main_c_28 main_v86 (broadcastInDim S4196352 ![] bcast_S_S4196352 : (⟨S_, .i32⟩ : BufTy).Contents (Elt F) → (⟨S4196352, .i32⟩ : BufTy).Contents (Elt F)),
    StableHlo.binary main_v84 main_v86 main_v87 (cmpi .slt : (⟨S4196352, .i32⟩ : BufTy).Contents (Elt F) → (⟨S4196352, .i32⟩ : BufTy).Contents (Elt F) → (⟨S4196352, .i1⟩ : BufTy).Contents (Elt F)),
    StableHlo.nullary main_c_29 (constantI S_ 32 2048#32),
    StableHlo.unary main_c_29 main_v88 (broadcastInDim S4196352 ![] bcast_S_S4196352 : (⟨S_, .i32⟩ : BufTy).Contents (Elt F) → (⟨S4196352, .i32⟩ : BufTy).Contents (Elt F)),
    StableHlo.binary main_v84 main_v88 main_v89 (addi : (⟨S4196352, .i32⟩ : BufTy).Contents (Elt F) → (⟨S4196352, .i32⟩ : BufTy).Contents (Elt F) → (⟨S4196352, .i32⟩ : BufTy).Contents (Elt F)),
    StableHlo.ternary main_v87 main_v89 main_v84 main_v90 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v90 main_v91 (broadcastInDim S4196352x1 ![0] bcast_S4196352_S4196352x1_0 : (⟨S4196352, .i32⟩ : BufTy).Contents (Elt F) → (⟨S4196352x1, .i32⟩ : BufTy).Contents (Elt F)),
    StableHlo.nullary main_cst_30 (constant S_ .f32 0x3F800000#32),
    StableHlo.unary main_cst_30 main_v92 (broadcastInDim S4196352 ![] bcast_S_S4196352 : (⟨S_, .f32⟩ : BufTy).Contents (Elt F) → (⟨S4196352, .f32⟩ : BufTy).Contents (Elt F)),
    StableHlo.ternary main_v85 main_v91 main_v92 main_v93 ((fun x i u => Host.scatterAdd scatter_S2048_S4196352x1_S4196352_n_0_0_1 x i u) : (⟨S2048, .f32⟩ : BufTy).Contents (Elt F) → (⟨S4196352x1, .i32⟩ : BufTy).Contents (Elt F) → (⟨S4196352, .f32⟩ : BufTy).Contents (Elt F) → (⟨S2048, .f32⟩ : BufTy).Contents (Elt F)),
    StableHlo.nullary main_cst_31 (constant S_ .f32 0x00000000#32),
    StableHlo.unary main_cst_31 main_v94 (broadcastInDim S2048 ![] bcast_S_S2048 : (⟨S_, .f32⟩ : BufTy).Contents (Elt F) → (⟨S2048, .f32⟩ : BufTy).Contents (Elt F)),
    StableHlo.binary main_v93 main_v94 main_v95 (cmpf .ogt : (⟨S2048, .f32⟩ : BufTy).Contents (Elt F) → (⟨S2048, .f32⟩ : BufTy).Contents (Elt F) → (⟨S2048, .i1⟩ : BufTy).Contents (Elt F)),
    StableHlo.nullary main_cst_32 (constant S_ .f32 0x2B8CBCCC#32),
    StableHlo.unary main_cst_32 main_v96 (broadcastInDim S2048 ![] bcast_S_S2048 : (⟨S_, .f32⟩ : BufTy).Contents (Elt F) → (⟨S2048, .f32⟩ : BufTy).Contents (Elt F)),
    StableHlo.binary main_v93 main_v96 main_v97 (maximumf : (⟨S2048, .f32⟩ : BufTy).Contents (Elt F) → (⟨S2048, .f32⟩ : BufTy).Contents (Elt F) → (⟨S2048, .f32⟩ : BufTy).Contents (Elt F)),
    StableHlo.unary main_v97 main_v98 (Host.rsqrt : (⟨S2048, .f32⟩ : BufTy).Contents (Elt F) → (⟨S2048, .f32⟩ : BufTy).Contents (Elt F)),
    StableHlo.nullary main_cst_33 (constant S_ .f32 0x00000000#32),
    StableHlo.TRef.unary (.of main_cst_33 : StableHlo.TRef sig ⟨S_, .f32⟩) main_call11.v0 id,
    StableHlo.TRef.unary main_call11.v0 main_call11.v1 (broadcastInDim S2048 ![] bcast_S_S2048),
    StableHlo.TRef.ternary (.of main_v95 : StableHlo.TRef sig ⟨S2048, .i1⟩) (.of main_v98 : StableHlo.TRef sig ⟨S2048, .f32⟩) main_call11.v1 main_call11.v2 select ]

/-- The buffers window M writes. -/
abbrev wM_W : List (Ref sig .tc) := [main_cst_27, main_v85, main_c_28, main_v86, main_v87, main_c_29, main_v88, main_v89, main_v90, main_v91, main_cst_30, main_v92, main_v93, main_cst_31, main_v94, main_v95, main_cst_32, main_v96, main_v97, main_v98, main_cst_33, main_call11_v0, main_call11_v1, main_v99]

set_option maxRecDepth 8192 in
theorem wM_writes : (wM : List (HloOp τ sig (Elt F))).Forall fun op =>
    op.writes ⊆ (wM_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Window O: the second layer's per-edge normalisation (19 operations). -/
abbrev wO : List (HloOp τ sig (Elt F)) :=
  [ StableHlo.nullary main_c_34 (constantI S_ 32 0#32),
    StableHlo.unary main_c_34 main_v100 (broadcastInDim S4196352 ![] bcast_S_S4196352 : (⟨S_, .i32⟩ : BufTy).Contents (Elt F) → (⟨S4196352, .i32⟩ : BufTy).Contents (Elt F)),
    StableHlo.binary main_v83 main_v100 main_v101 (cmpi .slt : (⟨S4196352, .i32⟩ : BufTy).Contents (Elt F) → (⟨S4196352, .i32⟩ : BufTy).Contents (Elt F) → (⟨S4196352, .i1⟩ : BufTy).Contents (Elt F)),
    StableHlo.nullary main_c_35 (constantI S_ 32 2048#32),
    StableHlo.unary main_c_35 main_v102 (broadcastInDim S4196352 ![] bcast_S_S4196352 : (⟨S_, .i32⟩ : BufTy).Contents (Elt F) → (⟨S4196352, .i32⟩ : BufTy).Contents (Elt F)),
    StableHlo.binary main_v83 main_v102 main_v103 (addi : (⟨S4196352, .i32⟩ : BufTy).Contents (Elt F) → (⟨S4196352, .i32⟩ : BufTy).Contents (Elt F) → (⟨S4196352, .i32⟩ : BufTy).Contents (Elt F)),
    StableHlo.ternary main_v101 main_v103 main_v83 main_v104 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v104 main_v105 (broadcastInDim S4196352x1 ![0] bcast_S4196352_S4196352x1_0 : (⟨S4196352, .i32⟩ : BufTy).Contents (Elt F) → (⟨S4196352x1, .i32⟩ : BufTy).Contents (Elt F)),
    StableHlo.binary main_v99 main_v105 main_v106 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    StableHlo.nullary main_c_36 (constantI S_ 32 0#32),
    StableHlo.unary main_c_36 main_v107 (broadcastInDim S4196352 ![] bcast_S_S4196352 : (⟨S_, .i32⟩ : BufTy).Contents (Elt F) → (⟨S4196352, .i32⟩ : BufTy).Contents (Elt F)),
    StableHlo.binary main_v84 main_v107 main_v108 (cmpi .slt : (⟨S4196352, .i32⟩ : BufTy).Contents (Elt F) → (⟨S4196352, .i32⟩ : BufTy).Contents (Elt F) → (⟨S4196352, .i1⟩ : BufTy).Contents (Elt F)),
    StableHlo.nullary main_c_37 (constantI S_ 32 2048#32),
    StableHlo.unary main_c_37 main_v109 (broadcastInDim S4196352 ![] bcast_S_S4196352 : (⟨S_, .i32⟩ : BufTy).Contents (Elt F) → (⟨S4196352, .i32⟩ : BufTy).Contents (Elt F)),
    StableHlo.binary main_v84 main_v109 main_v110 (addi : (⟨S4196352, .i32⟩ : BufTy).Contents (Elt F) → (⟨S4196352, .i32⟩ : BufTy).Contents (Elt F) → (⟨S4196352, .i32⟩ : BufTy).Contents (Elt F)),
    StableHlo.ternary main_v108 main_v110 main_v84 main_v111 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v111 main_v112 (broadcastInDim S4196352x1 ![0] bcast_S4196352_S4196352x1_0 : (⟨S4196352, .i32⟩ : BufTy).Contents (Elt F) → (⟨S4196352x1, .i32⟩ : BufTy).Contents (Elt F)),
    StableHlo.binary main_v99 main_v112 main_v113 ((fun x i => Host.gather gather_S2048_S4196352x1_S4196352_n_0_n_n_0_1_1 x i) : (⟨S2048, .f32⟩ : BufTy).Contents (Elt F) → (⟨S4196352x1, .i32⟩ : BufTy).Contents (Elt F) → (⟨S4196352, .f32⟩ : BufTy).Contents (Elt F)),
    StableHlo.binary main_v106 main_v113 main_v114 (mulf : (⟨S4196352, .f32⟩ : BufTy).Contents (Elt F) → (⟨S4196352, .f32⟩ : BufTy).Contents (Elt F) → (⟨S4196352, .f32⟩ : BufTy).Contents (Elt F)) ]

/-- The buffers window O writes. -/
abbrev wO_W : List (Ref sig .tc) := [main_c_34, main_v100, main_v101, main_c_35, main_v102, main_v103, main_v104, main_v105, main_v106, main_c_36, main_v107, main_v108, main_c_37, main_v109, main_v110, main_v111, main_v112, main_v113, main_v114]

set_option maxRecDepth 8192 in
theorem wO_writes : (wO : List (HloOp τ sig (Elt F))).Forall fun op =>
    op.writes ⊆ (wO_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Window P: the second layer's messages (12 operations). -/
abbrev wP : List (HloOp τ sig (Elt F)) :=
  [ StableHlo.nullary main_c_38 (constantI S_ 32 0#32),
    StableHlo.unary main_c_38 main_v115 (broadcastInDim S4196352 ![] bcast_S_S4196352 : (⟨S_, .i32⟩ : BufTy).Contents (Elt F) → (⟨S4196352, .i32⟩ : BufTy).Contents (Elt F)),
    StableHlo.binary main_v83 main_v115 main_v116 (cmpi .slt : (⟨S4196352, .i32⟩ : BufTy).Contents (Elt F) → (⟨S4196352, .i32⟩ : BufTy).Contents (Elt F) → (⟨S4196352, .i1⟩ : BufTy).Contents (Elt F)),
    StableHlo.nullary main_c_39 (constantI S_ 32 2048#32),
    StableHlo.unary main_c_39 main_v117 (broadcastInDim S4196352 ![] bcast_S_S4196352 : (⟨S_, .i32⟩ : BufTy).Contents (Elt F) → (⟨S4196352, .i32⟩ : BufTy).Contents (Elt F)),
    StableHlo.binary main_v83 main_v117 main_v118 (addi : (⟨S4196352, .i32⟩ : BufTy).Contents (Elt F) → (⟨S4196352, .i32⟩ : BufTy).Contents (Elt F) → (⟨S4196352, .i32⟩ : BufTy).Contents (Elt F)),
    StableHlo.ternary main_v116 main_v118 main_v83 main_v119 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v119 main_v120 (broadcastInDim S4196352x1 ![0] bcast_S4196352_S4196352x1_0 : (⟨S4196352, .i32⟩ : BufTy).Contents (Elt F) → (⟨S4196352x1, .i32⟩ : BufTy).Contents (Elt F)),
    StableHlo.binary main_v81 main_v120 main_v121 ((fun x i => Host.gather gather_S2048x32_S4196352x1_S4196352x32_1_0_n_n_0_1_132 x i) : (⟨S2048x32, .f32⟩ : BufTy).Contents (Elt F) → (⟨S4196352x1, .i32⟩ : BufTy).Contents (Elt F) → (⟨S4196352x32, .f32⟩ : BufTy).Contents (Elt F)),
    StableHlo.unary main_v114 main_v122 (broadcastInDim S4196352x1 ![0] bcast_S4196352_S4196352x1_0 : (⟨S4196352, .f32⟩ : BufTy).Contents (Elt F) → (⟨S4196352x1, .f32⟩ : BufTy).Contents (Elt F)),
    StableHlo.unary main_v122 main_v123 (broadcastInDim S4196352x32 ![0, 1] bcast_S4196352x1_S4196352x32_0_1 : (⟨S4196352x1, .f32⟩ : BufTy).Contents (Elt F) → (⟨S4196352x32, .f32⟩ : BufTy).Contents (Elt F)),
    StableHlo.binary main_v121 main_v123 main_v124 (mulf : (⟨S4196352x32, .f32⟩ : BufTy).Contents (Elt F) → (⟨S4196352x32, .f32⟩ : BufTy).Contents (Elt F) → (⟨S4196352x32, .f32⟩ : BufTy).Contents (Elt F)) ]

/-- The buffers window P writes. -/
abbrev wP_W : List (Ref sig .tc) := [main_c_38, main_v115, main_v116, main_c_39, main_v117, main_v118, main_v119, main_v120, main_v121, main_v122, main_v123, main_v124]

set_option maxRecDepth 8192 in
theorem wP_writes : (wP : List (HloOp τ sig (Elt F))).Forall fun op =>
    op.writes ⊆ (wP_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Window Q: the second layer's aggregate, bias and the input added (15 operations). -/
abbrev wQ : List (HloOp τ sig (Elt F)) :=
  [ StableHlo.nullary main_cst_40 (constant S_ .f32 0x00000000#32),
    StableHlo.unary main_cst_40 main_v125 (broadcastInDim S2048x32 ![] bcast_S_S2048x32 : (⟨S_, .f32⟩ : BufTy).Contents (Elt F) → (⟨S2048x32, .f32⟩ : BufTy).Contents (Elt F)),
    StableHlo.nullary main_c_41 (constantI S_ 32 0#32),
    StableHlo.unary main_c_41 main_v126 (broadcastInDim S4196352 ![] bcast_S_S4196352 : (⟨S_, .i32⟩ : BufTy).Contents (Elt F) → (⟨S4196352, .i32⟩ : BufTy).Contents (Elt F)),
    StableHlo.binary main_v84 main_v126 main_v127 (cmpi .slt : (⟨S4196352, .i32⟩ : BufTy).Contents (Elt F) → (⟨S4196352, .i32⟩ : BufTy).Contents (Elt F) → (⟨S4196352, .i1⟩ : BufTy).Contents (Elt F)),
    StableHlo.nullary main_c_42 (constantI S_ 32 2048#32),
    StableHlo.unary main_c_42 main_v128 (broadcastInDim S4196352 ![] bcast_S_S4196352 : (⟨S_, .i32⟩ : BufTy).Contents (Elt F) → (⟨S4196352, .i32⟩ : BufTy).Contents (Elt F)),
    StableHlo.binary main_v84 main_v128 main_v129 (addi : (⟨S4196352, .i32⟩ : BufTy).Contents (Elt F) → (⟨S4196352, .i32⟩ : BufTy).Contents (Elt F) → (⟨S4196352, .i32⟩ : BufTy).Contents (Elt F)),
    StableHlo.ternary main_v127 main_v129 main_v84 main_v130 (select : (⟨S4196352, .i1⟩ : BufTy).Contents (Elt F) → (⟨S4196352, .i32⟩ : BufTy).Contents (Elt F) → (⟨S4196352, .i32⟩ : BufTy).Contents (Elt F) → (⟨S4196352, .i32⟩ : BufTy).Contents (Elt F)),
    StableHlo.unary main_v130 main_v131 (broadcastInDim S4196352x1 ![0] bcast_S4196352_S4196352x1_0 : (⟨S4196352, .i32⟩ : BufTy).Contents (Elt F) → (⟨S4196352x1, .i32⟩ : BufTy).Contents (Elt F)),
    StableHlo.ternary main_v125 main_v131 main_v124 main_v132 ((fun x i u => Host.scatterAdd scatter_S2048x32_S4196352x1_S4196352x32_1_0_0_1 x i u) : (⟨S2048x32, .f32⟩ : BufTy).Contents (Elt F) → (⟨S4196352x1, .i32⟩ : BufTy).Contents (Elt F) → (⟨S4196352x32, .f32⟩ : BufTy).Contents (Elt F) → (⟨S2048x32, .f32⟩ : BufTy).Contents (Elt F)),
    StableHlo.unary main_arg5 main_v133 (broadcastInDim S1x32 ![1] bcast_S32_S1x32_1 : (⟨S32, .f32⟩ : BufTy).Contents (Elt F) → (⟨S1x32, .f32⟩ : BufTy).Contents (Elt F)),
    StableHlo.unary main_v133 main_v134 (broadcastInDim S2048x32 ![0, 1] bcast_S1x32_S2048x32_0_1 : (⟨S1x32, .f32⟩ : BufTy).Contents (Elt F) → (⟨S2048x32, .f32⟩ : BufTy).Contents (Elt F)),
    StableHlo.binary main_v132 main_v134 main_v135 (addf : (⟨S2048x32, .f32⟩ : BufTy).Contents (Elt F) → (⟨S2048x32, .f32⟩ : BufTy).Contents (Elt F) → (⟨S2048x32, .f32⟩ : BufTy).Contents (Elt F)),
    StableHlo.binary main_v135 main_arg1 main_v136 (addf : (⟨S2048x32, .f32⟩ : BufTy).Contents (Elt F) → (⟨S2048x32, .f32⟩ : BufTy).Contents (Elt F) → (⟨S2048x32, .f32⟩ : BufTy).Contents (Elt F)) ]

/-- The buffers window Q writes. -/
abbrev wQ_W : List (Ref sig .tc) := [main_cst_40, main_v125, main_c_41, main_v126, main_v127, main_c_42, main_v128, main_v129, main_v130, main_v131, main_v132, main_v133, main_v134, main_v135, main_v136]

set_option maxRecDepth 8192 in
theorem wQ_writes : (wQ : List (HloOp τ sig (Elt F))).Forall fun op =>
    op.writes ⊆ (wQ_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The windows in order are the whole list. -/
theorem ops_eq_windows : (ops : List (HloOp τ sig (Elt F))) = wA ++ (wB ++ (wC1 ++ (wC2 ++ (wD1 ++ (wD2 ++ (wE ++ (wF ++ (wG ++ (wI ++ (wJ ++ (wK ++ (wL ++ (wM ++ (wO ++ (wP ++ (wQ)))))))))))))))) := rfl

/-- The fold over two lists in order is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The buffer contents after window A, from contents `V` before window A. -/
def VA (V : Valuation τ sig (Elt F)) : Valuation τ sig (Elt F) := after wA (V)
/-- A buffer window A does not write keeps its contents through it. -/
theorem VA_keep (V : Valuation τ sig (Elt F)) (r : Ref sig .tc) (h : r ∉ wA_W) :
    VA V (no_index (Proc.devRef .tc r)) = V (Proc.devRef .tc r) :=
  after_of_writes_sub wA _ wA_writes h

/-- The buffer contents after window B, from contents `V` before window A. -/
def VB (V : Valuation τ sig (Elt F)) : Valuation τ sig (Elt F) := after wB (VA V)
/-- A buffer window B does not write keeps its contents through it. -/
theorem VB_keep (V : Valuation τ sig (Elt F)) (r : Ref sig .tc) (h : r ∉ wB_W) :
    VB V (no_index (Proc.devRef .tc r)) = VA V (Proc.devRef .tc r) :=
  after_of_writes_sub wB _ wB_writes h

/-- The buffer contents after window C1, from contents `V` before window A. -/
def VC1 (V : Valuation τ sig (Elt F)) : Valuation τ sig (Elt F) := after wC1 (VB V)
/-- A buffer window C1 does not write keeps its contents through it. -/
theorem VC1_keep (V : Valuation τ sig (Elt F)) (r : Ref sig .tc) (h : r ∉ wC1_W) :
    VC1 V (no_index (Proc.devRef .tc r)) = VB V (Proc.devRef .tc r) :=
  after_of_writes_sub wC1 _ wC1_writes h

/-- The buffer contents after window C2, from contents `V` before window A. -/
def VC2 (V : Valuation τ sig (Elt F)) : Valuation τ sig (Elt F) := after wC2 (VC1 V)
/-- A buffer window C2 does not write keeps its contents through it. -/
theorem VC2_keep (V : Valuation τ sig (Elt F)) (r : Ref sig .tc) (h : r ∉ wC2_W) :
    VC2 V (no_index (Proc.devRef .tc r)) = VC1 V (Proc.devRef .tc r) :=
  after_of_writes_sub wC2 _ wC2_writes h

/-- The buffer contents after window D1, from contents `V` before window A. -/
def VD1 (V : Valuation τ sig (Elt F)) : Valuation τ sig (Elt F) := after wD1 (VC2 V)
/-- A buffer window D1 does not write keeps its contents through it. -/
theorem VD1_keep (V : Valuation τ sig (Elt F)) (r : Ref sig .tc) (h : r ∉ wD1_W) :
    VD1 V (no_index (Proc.devRef .tc r)) = VC2 V (Proc.devRef .tc r) :=
  after_of_writes_sub wD1 _ wD1_writes h

/-- The buffer contents after window D2, from contents `V` before window A. -/
def VD2 (V : Valuation τ sig (Elt F)) : Valuation τ sig (Elt F) := after wD2 (VD1 V)
/-- A buffer window D2 does not write keeps its contents through it. -/
theorem VD2_keep (V : Valuation τ sig (Elt F)) (r : Ref sig .tc) (h : r ∉ wD2_W) :
    VD2 V (no_index (Proc.devRef .tc r)) = VD1 V (Proc.devRef .tc r) :=
  after_of_writes_sub wD2 _ wD2_writes h

/-- The buffer contents after window E, from contents `V` before window A. -/
def VE (V : Valuation τ sig (Elt F)) : Valuation τ sig (Elt F) := after wE (VD2 V)
/-- A buffer window E does not write keeps its contents through it. -/
theorem VE_keep (V : Valuation τ sig (Elt F)) (r : Ref sig .tc) (h : r ∉ wE_W) :
    VE V (no_index (Proc.devRef .tc r)) = VD2 V (Proc.devRef .tc r) :=
  after_of_writes_sub wE _ wE_writes h

/-- The buffer contents after window F, from contents `V` before window A. -/
def VF (V : Valuation τ sig (Elt F)) : Valuation τ sig (Elt F) := after wF (VE V)
/-- A buffer window F does not write keeps its contents through it. -/
theorem VF_keep (V : Valuation τ sig (Elt F)) (r : Ref sig .tc) (h : r ∉ wF_W) :
    VF V (no_index (Proc.devRef .tc r)) = VE V (Proc.devRef .tc r) :=
  after_of_writes_sub wF _ wF_writes h

/-- The buffer contents after window G, from contents `V` before window A. -/
def VG (V : Valuation τ sig (Elt F)) : Valuation τ sig (Elt F) := after wG (VF V)
/-- A buffer window G does not write keeps its contents through it. -/
theorem VG_keep (V : Valuation τ sig (Elt F)) (r : Ref sig .tc) (h : r ∉ wG_W) :
    VG V (no_index (Proc.devRef .tc r)) = VF V (Proc.devRef .tc r) :=
  after_of_writes_sub wG _ wG_writes h

/-- The buffer contents after window I, from contents `V` before window A. -/
def VI (V : Valuation τ sig (Elt F)) : Valuation τ sig (Elt F) := after wI (VG V)
/-- A buffer window I does not write keeps its contents through it. -/
theorem VI_keep (V : Valuation τ sig (Elt F)) (r : Ref sig .tc) (h : r ∉ wI_W) :
    VI V (no_index (Proc.devRef .tc r)) = VG V (Proc.devRef .tc r) :=
  after_of_writes_sub wI _ wI_writes h

/-- The buffer contents after window J, from contents `V` before window A. -/
def VJ (V : Valuation τ sig (Elt F)) : Valuation τ sig (Elt F) := after wJ (VI V)
/-- A buffer window J does not write keeps its contents through it. -/
theorem VJ_keep (V : Valuation τ sig (Elt F)) (r : Ref sig .tc) (h : r ∉ wJ_W) :
    VJ V (no_index (Proc.devRef .tc r)) = VI V (Proc.devRef .tc r) :=
  after_of_writes_sub wJ _ wJ_writes h

/-- The buffer contents after window K, from contents `V` before window A. -/
def VK (V : Valuation τ sig (Elt F)) : Valuation τ sig (Elt F) := after wK (VJ V)
/-- A buffer window K does not write keeps its contents through it. -/
theorem VK_keep (V : Valuation τ sig (Elt F)) (r : Ref sig .tc) (h : r ∉ wK_W) :
    VK V (no_index (Proc.devRef .tc r)) = VJ V (Proc.devRef .tc r) :=
  after_of_writes_sub wK _ wK_writes h

/-- The buffer contents after window L, from contents `V` before window A. -/
def VL (V : Valuation τ sig (Elt F)) : Valuation τ sig (Elt F) := after wL (VK V)
/-- A buffer window L does not write keeps its contents through it. -/
theorem VL_keep (V : Valuation τ sig (Elt F)) (r : Ref sig .tc) (h : r ∉ wL_W) :
    VL V (no_index (Proc.devRef .tc r)) = VK V (Proc.devRef .tc r) :=
  after_of_writes_sub wL _ wL_writes h

/-- The buffer contents after window M, from contents `V` before window A. -/
def VM (V : Valuation τ sig (Elt F)) : Valuation τ sig (Elt F) := after wM (VL V)
/-- A buffer window M does not write keeps its contents through it. -/
theorem VM_keep (V : Valuation τ sig (Elt F)) (r : Ref sig .tc) (h : r ∉ wM_W) :
    VM V (no_index (Proc.devRef .tc r)) = VL V (Proc.devRef .tc r) :=
  after_of_writes_sub wM _ wM_writes h

/-- The buffer contents after window O, from contents `V` before window A. -/
def VO (V : Valuation τ sig (Elt F)) : Valuation τ sig (Elt F) := after wO (VM V)
/-- A buffer window O does not write keeps its contents through it. -/
theorem VO_keep (V : Valuation τ sig (Elt F)) (r : Ref sig .tc) (h : r ∉ wO_W) :
    VO V (no_index (Proc.devRef .tc r)) = VM V (Proc.devRef .tc r) :=
  after_of_writes_sub wO _ wO_writes h

/-- The buffer contents after window P, from contents `V` before window A. -/
def VP (V : Valuation τ sig (Elt F)) : Valuation τ sig (Elt F) := after wP (VO V)
/-- A buffer window P does not write keeps its contents through it. -/
theorem VP_keep (V : Valuation τ sig (Elt F)) (r : Ref sig .tc) (h : r ∉ wP_W) :
    VP V (no_index (Proc.devRef .tc r)) = VO V (Proc.devRef .tc r) :=
  after_of_writes_sub wP _ wP_writes h

/-- The buffer contents after window Q, from contents `V` before window A. -/
def VQ (V : Valuation τ sig (Elt F)) : Valuation τ sig (Elt F) := after wQ (VP V)
/-- A buffer window Q does not write keeps its contents through it. -/
theorem VQ_keep (V : Valuation τ sig (Elt F)) (r : Ref sig .tc) (h : r ∉ wQ_W) :
    VQ V (no_index (Proc.devRef .tc r)) = VP V (Proc.devRef .tc r) :=
  after_of_writes_sub wQ _ wQ_writes h

/-- The fold of the whole list is the contents after the last window. -/
theorem after_ops (V : Valuation τ sig (Elt F)) : after ops V = VQ V := by
  rw [ops_eq_windows]
  simp only [after_app]
  rfl

end Cert.ReferenceIdeal.RefRun

end
-- ==== Proof.RRTerm.lean ====
/-
  The reference program's result as a staged pure term of its six argument arrays.

  The reference lists the nonzero entries of the adjacency array `A` (row-major, padded to the full
  2048 * 2048 length with the out-of-range node number 2048), appends one self-loop per node, and
  runs two graph-convolution layers over that edge list: scatter-add of ones for the degrees,
  `rsqrt` for the normalisation, gather / multiply per edge, scatter-add of the messages, bias;
  a `relu` between the layers and the input added at the end. Each definition below is one
  meaningful stage and applies exactly the printed operations to the earlier stages.
-/
import proofs.«111189_g13383118094673_cont_sun_m_231_3_alg».proof.ReferenceIdeal

noncomputable section

namespace Cert.ReferenceIdeal.RRTerm

open Idealize.ShloMosaic Cert.ReferenceIdeal
open Cert.ReferenceIdeal.Facts₀ Cert.ReferenceIdeal.Facts

variable {F : FTy → Type} [FloatOps F] [Facts]

/-! ## The edge list: the nonzero entries of `A`, in row-major order -/

/-- Where `A` is not zero (`%1`). -/
def mask (A : Vec F S2048x2048 .f32) : IVec S2048x2048 1 :=
  cmpf .une A (broadcastInDim S2048x2048 ![] bcast_S_S2048x2048 (constant S_ .f32 0x00000000#32))

/-- The running sum of a flat integer array (the outlined cumulative sum: a window of the whole
    length ending at each position). -/
def cumsum (x : IVec S4194304 32) : IVec S4194304 32 :=
  Host.reduceWindow IntOp.addi ![4194304] ![1] ![4194303] ![0] x
    (broadcastInDim S_ ![] bcast_S_S_ (constantI S_ 32 0#32))
    reduceWindows_S4194304_S4194304_w4194304s1p4194303_0 h_S_

/-- The mask flattened and widened to 32 bits. -/
def maskFlat (A : Vec F S2048x2048 .f32) : IVec S4194304 32 :=
  extui 32 (shapeCast S4194304 (mask A) shapeCasts_S2048x2048_S4194304) natLt_1_32

/-- The number of nonzero entries up to and including each flat position (`%2`). -/
def cum (A : Vec F S2048x2048 .f32) : IVec S4194304 32 := cumsum (maskFlat A)

/-- `%4`: the counts clipped below at zero. -/
def clipped (A : Vec F S2048x2048 .f32) : IVec S4194304 32 :=
  maxsi (broadcastInDim S4194304 ![] bcast_S_S4194304 (id (constantI S_ 32 0#32))) (cum A)

/-- `%10`: the clipped counts as scatter positions (a negative one wrapped by the length). -/
def binIdx (A : Vec F S2048x2048 .f32) : IVec S4194304x1 32 :=
  broadcastInDim S4194304x1 ![0] bcast_S4194304_S4194304x1_0
    (select (cmpi .slt (clipped A) (broadcastInDim S4194304 ![] bcast_S_S4194304 (constantI S_ 32 0#32)))
      (addi (clipped A) (broadcastInDim S4194304 ![] bcast_S_S4194304 (constantI S_ 32 4194304#32)))
      (clipped A))

/-- `%12`: how many flat positions have each count (ones scattered into the counts' bins). -/
def bins (A : Vec F S2048x2048 .f32) : IVec S4194304 32 :=
  Host.scatter scatter_S4194304_S4194304x1_S4194304_n_0_0_1 IntOp.addi
    (broadcastInDim S4194304 ![] bcast_S_S4194304 (constantI S_ 32 0#32))
    (binIdx A)
    (broadcastInDim S4194304 ![] bcast_S_S4194304 (constantI S_ 32 1#32))

/-- `%13`: the running sum of the bins: at `k`, the flat position of the `k`-th nonzero entry. -/
def cum2 (A : Vec F S2048x2048 .f32) : IVec S4194304 32 := cumsum (bins A)

/-- The outlined floor division of a flat integer array by a scalar. -/
def floorDiv (x : IVec S4194304 32) (d : IVec S_ 32) : IVec S4194304 32 :=
  select
    (andi
      (cmpi .ne (signi x) (broadcastInDim S4194304 ![] bcast_S_S4194304 (signi d)))
      (cmpi .ne (Host.remsi x (broadcastInDim S4194304 ![] bcast_S_S4194304 d))
        (broadcastInDim S4194304 ![] bcast_S_S4194304 (constantI S_ 32 0#32))))
    (subi (Host.divsi x (broadcastInDim S4194304 ![] bcast_S_S4194304 d))
      (broadcastInDim S4194304 ![] bcast_S_S4194304 (constantI S_ 32 1#32)))
    (Host.divsi x (broadcastInDim S4194304 ![] bcast_S_S4194304 d))

/-- The divisor the outlined remainder uses: `1` in place of `0`. -/
def remDivisor (d : IVec S_ 32) : IVec S_ 32 :=
  select (cmpi .eq (id d) (constantI S_ 32 0#32)) (constantI S_ 32 1#32) (id d)

/-- The truncated remainder inside the outlined remainder (`%4` there). -/
def remTrunc (x : IVec S4194304 32) (d : IVec S_ 32) : IVec S4194304 32 :=
  Host.remsi x (broadcastInDim S4194304 ![] bcast_S_S4194304 (remDivisor d))

/-- The outlined remainder of a flat integer array by a scalar, with the divisor's sign. -/
def remainder (x : IVec S4194304 32) (d : IVec S_ 32) : IVec S4194304 32 :=
  select
    (andi
      (cmpi .ne
        (cmpi .slt (remTrunc x d) (broadcastInDim S4194304 ![] bcast_S_S4194304 (constantI S_ 32 0#32)))
        (broadcastInDim S4194304 ![] bcast_S_S4194304 (cmpi .slt (remDivisor d) (constantI S_ 32 0#32))))
      (cmpi .ne (remTrunc x d) (broadcastInDim S4194304 ![] bcast_S_S4194304 (constantI S_ 32 0#32))))
    (addi (remTrunc x d) (broadcastInDim S4194304 ![] bcast_S_S4194304 (remDivisor d)))
    (remTrunc x d)

/-- `%15`: the row of the `k`-th nonzero entry. -/
def rowIdx (A : Vec F S2048x2048 .f32) : IVec S4194304 32 :=
  remainder (floorDiv (cum2 A) (constantI S_ 32 2048#32)) (constantI S_ 32 2048#32)

/-- `%17`: the column of the `k`-th nonzero entry. -/
def colIdx (A : Vec F S2048x2048 .f32) : IVec S4194304 32 :=
  remainder (floorDiv (cum2 A) (constantI S_ 32 1#32)) (constantI S_ 32 2048#32)

/-- `%20`: the number of nonzero entries. -/
def total (A : Vec F S2048x2048 .f32) : IVec S_ 32 :=
  Host.reduce IntOp.addi (extui 32 (mask A) natLt_1_32) (constantI S_ 32 0#32) reducesTo_S2048x2048_S_d0_1 h_S_

/-- `%22`: the positions from the number of nonzero entries on, which hold no entry. -/
def fill (A : Vec F S2048x2048 .f32) : IVec S4194304 1 :=
  cmpi .sge (iotaInDim S4194304 32 0) (broadcastInDim S4194304 ![] bcast_S_S4194304 (total A))

/-- The outlined selection of a scalar where a mask holds and of an array elsewhere. -/
def whereScalar (c : IVec S4194304 1) (v : IVec S_ 32) (x : IVec S4194304 32) : IVec S4194304 32 :=
  select c (broadcastInDim S4194304 ![] bcast_S_S4194304 (id v)) x

/-- `%23`: the source node of each listed edge, `2048` where there is none. -/
def src (A : Vec F S2048x2048 .f32) : IVec S4194304 32 :=
  whereScalar (fill A) (constantI S_ 32 2048#32) (rowIdx A)

/-- `%24`: the destination node of each listed edge, `2048` where there is none. -/
def dst (A : Vec F S2048x2048 .f32) : IVec S4194304 32 :=
  whereScalar (fill A) (constantI S_ 32 2048#32) (colIdx A)

/-- An edge list followed by one self-loop per node. -/
def withLoops (e : IVec S4194304 32) : IVec S4196352 32 :=
  concatenate S4196352 0 [⟨S4194304, e⟩, ⟨S2048, iotaInDim S2048 32 0⟩] concatenates_S4194304_S2048_S4196352_d0

/-- `%27` (and `%83`): the sources with the self-loops. -/
def srcAll (A : Vec F S2048x2048 .f32) : IVec S4196352 32 := withLoops (src A)

/-- `%28` (and `%84`): the destinations with the self-loops. -/
def dstAll (A : Vec F S2048x2048 .f32) : IVec S4196352 32 := withLoops (dst A)

/-! ## One layer, over any edge list -/

/-- Node numbers as gather / scatter positions: a negative one wrapped by the node count. -/
def wrapIdx (e : IVec S4196352 32) : IVec S4196352x1 32 :=
  broadcastInDim S4196352x1 ![0] bcast_S4196352_S4196352x1_0
    (select (cmpi .slt e (broadcastInDim S4196352 ![] bcast_S_S4196352 (constantI S_ 32 0#32)))
      (addi e (broadcastInDim S4196352 ![] bcast_S_S4196352 (constantI S_ 32 2048#32)))
      e)

/-- `%25` / `%81`: the linear map `h · W`. -/
def lin (h : Vec F S2048x32 .f32) (W : Vec F S32x32 .f32) : Vec F S2048x32 .f32 :=
  Host.dotGeneral dot_S2048x32_S32x32_S2048x32_1_0_0_1_n_n none h W

/-- `%37` / `%93`: the degrees: a one added at each edge's destination. -/
def deg (d : IVec S4196352 32) : Vec F S2048 .f32 :=
  Host.scatterAdd scatter_S2048_S4196352x1_S4196352_n_0_0_1
    (broadcastInDim S2048 ![] bcast_S_S2048 (constant S_ .f32 0x00000000#32))
    (wrapIdx d)
    (broadcastInDim S4196352 ![] bcast_S_S4196352 (constant S_ .f32 0x3F800000#32))

/-- `%43` / `%99`: the normalisation `deg^(-1/2)` where the degree is positive, zero elsewhere. -/
def dis (d : IVec S4196352 32) : Vec F S2048 .f32 :=
  select
    (cmpf .ogt (deg (F := F) d) (broadcastInDim S2048 ![] bcast_S_S2048 (constant S_ .f32 0x00000000#32)))
    (Host.rsqrt (maximumf (deg (F := F) d) (broadcastInDim S2048 ![] bcast_S_S2048 (constant S_ .f32 0x2B8CBCCC#32))))
    (broadcastInDim S2048 ![] bcast_S_S2048 (id (constant S_ .f32 0x00000000#32)))

/-- `%58` / `%114`: per edge, the normalisation at its source times that at its destination. -/
def norm (s d : IVec S4196352 32) : Vec F S4196352 .f32 :=
  mulf (Host.gather gather_S2048_S4196352x1_S4196352_n_0_n_n_0_1_1 (dis (F := F) d) (wrapIdx s))
    (Host.gather gather_S2048_S4196352x1_S4196352_n_0_n_n_0_1_1 (dis (F := F) d) (wrapIdx d))

/-- `%68` / `%124`: per edge, the source's row of `h · W` scaled by the edge's normalisation. -/
def msg (s d : IVec S4196352 32) (h : Vec F S2048x32 .f32) (W : Vec F S32x32 .f32) : Vec F S4196352x32 .f32 :=
  mulf (Host.gather gather_S2048x32_S4196352x1_S4196352x32_1_0_n_n_0_1_132 (lin h W) (wrapIdx s))
    (broadcastInDim S4196352x32 ![0, 1] bcast_S4196352x1_S4196352x32_0_1
      (broadcastInDim S4196352x1 ![0] bcast_S4196352_S4196352x1_0 (norm (F := F) s d)))

/-- `%76` / `%132`: the messages added up at each edge's destination. -/
def agg (s d : IVec S4196352 32) (h : Vec F S2048x32 .f32) (W : Vec F S32x32 .f32) : Vec F S2048x32 .f32 :=
  Host.scatterAdd scatter_S2048x32_S4196352x1_S4196352x32_1_0_0_1
    (broadcastInDim S2048x32 ![] bcast_S_S2048x32 (constant S_ .f32 0x00000000#32))
    (wrapIdx d)
    (msg s d h W)

/-- `%79` / `%135`: one layer: the aggregate plus the bias along the rows. -/
def layer (s d : IVec S4196352 32) (h : Vec F S2048x32 .f32) (W : Vec F S32x32 .f32) (b : Vec F S32 .f32) :
    Vec F S2048x32 .f32 :=
  addf (agg s d h W)
    (broadcastInDim S2048x32 ![0, 1] bcast_S1x32_S2048x32_0_1 (broadcastInDim S1x32 ![1] bcast_S32_S1x32_1 b))

/-- `%80`: the outlined `relu`. -/
def relu (y : Vec F S2048x32 .f32) : Vec F S2048x32 .f32 :=
  maximumf y (broadcastInDim S2048x32 ![] bcast_S_S2048x32 (constant S_ .f32 0x00000000#32))

/-! ## The network -/

/-- `%79`: the first layer's output. -/
def layer1 (A : Vec F S2048x2048 .f32) (x : Vec F S2048x32 .f32) (W1 : Vec F S32x32 .f32) (b1 : Vec F S32 .f32) :
    Vec F S2048x32 .f32 :=
  layer (srcAll A) (dstAll A) x W1 b1

/-- `%80`: the hidden features. -/
def hidden (A : Vec F S2048x2048 .f32) (x : Vec F S2048x32 .f32) (W1 : Vec F S32x32 .f32) (b1 : Vec F S32 .f32) :
    Vec F S2048x32 .f32 :=
  relu (layer1 A x W1 b1)

/-- `%135`: the second layer's output. -/
def layer2 (A : Vec F S2048x2048 .f32) (x : Vec F S2048x32 .f32) (W1 : Vec F S32x32 .f32) (b1 : Vec F S32 .f32)
    (W2 : Vec F S32x32 .f32) (b2 : Vec F S32 .f32) : Vec F S2048x32 .f32 :=
  layer (srcAll A) (dstAll A) (hidden A x W1 b1) W2 b2

/-- `%136`: the reference's result: the second layer's output plus the input features. -/
def out (A : Vec F S2048x2048 .f32) (x : Vec F S2048x32 .f32) (W1 : Vec F S32x32 .f32) (b1 : Vec F S32 .f32)
    (W2 : Vec F S32x32 .f32) (b2 : Vec F S32 .f32) : Vec F S2048x32 .f32 :=
  addf (layer2 A x W1 b1 W2 b2) x

end Cert.ReferenceIdeal.RRTerm

end
-- ==== Proof.RRVal1.lean ====
/-
  The value of each stage's buffer after its window, as the staged pure term of the argument
  arrays (the edge list): the window's operations composed over the buffers it reads, those read back
  through the windows that keep them to the stage that wrote them. The typed references of the
  outlined functions' operations carry their values along an equation of a buffer's type with
  itself; those transports are removed by rewriting, so that no comparison of terms has to look
  inside a fold over an operand's elements.
-/
import proofs.«111189_g13383118094673_cont_sun_m_231_3_alg».proof.Proof.RRWin
import proofs.«111189_g13383118094673_cont_sun_m_231_3_alg».proof.Proof.RRTerm

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- A transport along an equation of a type with itself is the identity (stated as an equation to rewrite with). -/
theorem cast_self {α : Sort _} (h : α = α) (a : α) : cast h a = a := eq_of_heq (cast_heq h a)

/-- Rewrites with the given stage lemmas, and carries a buffer back through every window that does not write it
    (membership in a window's literal list of written buffers is decided). -/
macro "stage_chain" "[" ls:Lean.Parser.Tactic.simpLemma,* "]" : tactic =>
  `(tactic| simp (disch := decide) only [VA_keep, VB_keep, VC1_keep, VC2_keep, VD1_keep, VD2_keep, VE_keep, VF_keep, VG_keep, VI_keep, VJ_keep, VK_keep, VL_keep, VM_keep, VO_keep, VP_keep, VQ_keep, $ls,*])

-- the folds and searches over the operands' elements stay folded while terms are compared
attribute [local irreducible] Host.reduce Host.reduceWindow Host.gather Host.scatter Host.scatterAdd

set_option maxRecDepth 8192 in
set_option maxHeartbeats 1000000 in
/-- After window A the mask's buffer holds the mask of the adjacency array. -/
theorem VA_main_v1 (V : Valuation τ sig (Elt F)) :
    VA V (no_index (Proc.devRef .tc main_v1)) = RRTerm.mask (V (Proc.devRef .tc main_arg0)) := by
  unfold VA
  simp only [wA]
  after_results_simp
  try simp only [TRef.toBuf, TRef.ofBuf, cast_self]
  rfl

set_option maxRecDepth 8192 in
set_option maxHeartbeats 1000000 in
/-- After window A: the running count of nonzero entries. -/
theorem VA_main_v2 (V : Valuation τ sig (Elt F)) :
    VA V (no_index (Proc.devRef .tc main_v2)) = RRTerm.cum (V (Proc.devRef .tc main_arg0)) := by
  unfold VA
  simp only [wA]
  after_results_simp
  try simp only [TRef.toBuf, TRef.ofBuf, cast_self]
  rfl

set_option maxRecDepth 8192 in
set_option maxHeartbeats 1000000 in
/-- After window B: the flat position of each nonzero entry. -/
theorem VB_main_v13 (V : Valuation τ sig (Elt F)) :
    VB V (no_index (Proc.devRef .tc main_v13)) = RRTerm.cum2 (V (Proc.devRef .tc main_arg0)) := by
  unfold VB
  simp only [wB]
  after_results_simp
  stage_chain [VA_main_v2]
  try simp only [TRef.toBuf, TRef.ofBuf, cast_self]
  rfl

set_option maxRecDepth 8192 in
set_option maxHeartbeats 1000000 in
/-- After window C1: the positions divided by the row length. -/
theorem VC1_main_v14 (V : Valuation τ sig (Elt F)) :
    VC1 V (no_index (Proc.devRef .tc main_v14)) = RRTerm.floorDiv (RRTerm.cum2 (V (Proc.devRef .tc main_arg0))) (constantI S_ 32 2048#32) := by
  unfold VC1
  simp only [wC1]
  after_results_simp
  stage_chain [VB_main_v13]
  try simp only [TRef.toBuf, TRef.ofBuf, cast_self]
  rfl

set_option maxRecDepth 8192 in
set_option maxHeartbeats 1000000 in
/-- After window C2: the row numbers. -/
theorem VC2_main_v15 (V : Valuation τ sig (Elt F)) :
    VC2 V (no_index (Proc.devRef .tc main_v15)) = RRTerm.rowIdx (V (Proc.devRef .tc main_arg0)) := by
  unfold VC2
  simp only [wC2]
  after_results_simp
  stage_chain [VC1_main_v14]
  try simp only [TRef.toBuf, TRef.ofBuf, cast_self]
  rfl

set_option maxRecDepth 8192 in
set_option maxHeartbeats 1000000 in
/-- After window D1: the positions divided by one. -/
theorem VD1_main_v16 (V : Valuation τ sig (Elt F)) :
    VD1 V (no_index (Proc.devRef .tc main_v16)) = RRTerm.floorDiv (RRTerm.cum2 (V (Proc.devRef .tc main_arg0))) (constantI S_ 32 1#32) := by
  unfold VD1
  simp only [wD1]
  after_results_simp
  stage_chain [VB_main_v13]
  try simp only [TRef.toBuf, TRef.ofBuf, cast_self]
  rfl

set_option maxRecDepth 8192 in
set_option maxHeartbeats 1000000 in
/-- After window D2: the column numbers. -/
theorem VD2_main_v17 (V : Valuation τ sig (Elt F)) :
    VD2 V (no_index (Proc.devRef .tc main_v17)) = RRTerm.colIdx (V (Proc.devRef .tc main_arg0)) := by
  unfold VD2
  simp only [wD2]
  after_results_simp
  stage_chain [VD1_main_v16]
  try simp only [TRef.toBuf, TRef.ofBuf, cast_self]
  rfl

set_option maxRecDepth 8192 in
set_option maxHeartbeats 1000000 in
/-- After window E: the padded source list. -/
theorem VE_main_v23 (V : Valuation τ sig (Elt F)) :
    VE V (no_index (Proc.devRef .tc main_v23)) = RRTerm.src (V (Proc.devRef .tc main_arg0)) := by
  unfold VE
  simp only [wE]
  after_results_simp
  stage_chain [VA_main_v1, VC2_main_v15]
  try simp only [TRef.toBuf, TRef.ofBuf, cast_self]
  rfl

set_option maxRecDepth 8192 in
set_option maxHeartbeats 1000000 in
/-- After window E: the padded destination list. -/
theorem VE_main_v24 (V : Valuation τ sig (Elt F)) :
    VE V (no_index (Proc.devRef .tc main_v24)) = RRTerm.dst (V (Proc.devRef .tc main_arg0)) := by
  unfold VE
  simp only [wE]
  after_results_simp
  stage_chain [VA_main_v1, VD2_main_v17]
  try simp only [TRef.toBuf, TRef.ofBuf, cast_self]
  rfl

set_option maxRecDepth 8192 in
set_option maxHeartbeats 1000000 in
/-- After window F: the first linear map. -/
theorem VF_main_v25 (V : Valuation τ sig (Elt F)) :
    VF V (no_index (Proc.devRef .tc main_v25)) = RRTerm.lin (V (Proc.devRef .tc main_arg1)) (V (Proc.devRef .tc main_arg2)) := by
  unfold VF
  simp only [wF]
  after_results_simp
  stage_chain []
  try simp only [TRef.toBuf, TRef.ofBuf, cast_self]
  rfl

set_option maxRecDepth 8192 in
set_option maxHeartbeats 1000000 in
/-- After window F: the sources with the self-loops. The operands are pieces of the list that is concatenated. -/
theorem VF_main_v27 (V : Valuation τ sig (Elt F)) :
    VF V (no_index (Proc.devRef .tc main_v27)) = RRTerm.srcAll (V (Proc.devRef .tc main_arg0)) := by
  unfold VF
  simp only [wF]
  after_results
  rw [VE_main_v23]
  rfl

set_option maxRecDepth 8192 in
set_option maxHeartbeats 1000000 in
/-- After window F: the destinations with the self-loops. The operands are pieces of the list that is concatenated. -/
theorem VF_main_v28 (V : Valuation τ sig (Elt F)) :
    VF V (no_index (Proc.devRef .tc main_v28)) = RRTerm.dstAll (V (Proc.devRef .tc main_arg0)) := by
  unfold VF
  simp only [wF]
  after_results
  rw [VE_main_v24]
  rfl

end Cert.ReferenceIdeal.RefRun

end
-- ==== Proof.RRVal2.lean ====
/-
  The value of each stage's buffer after its window, as the staged pure term of the argument
  arrays (the first layer): the window's operations composed over the buffers it reads, those read back
  through the windows that keep them to the stage that wrote them. The typed references of the
  outlined functions' operations carry their values along an equation of a buffer's type with
  itself; those transports are removed by rewriting, so that no comparison of terms has to look
  inside a fold over an operand's elements.
-/
import proofs.«111189_g13383118094673_cont_sun_m_231_3_alg».proof.Proof.RRVal1

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

-- the folds and searches over the operands' elements stay folded while terms are compared
attribute [local irreducible] Host.reduce Host.reduceWindow Host.gather Host.scatter Host.scatterAdd

set_option maxRecDepth 8192 in
set_option maxHeartbeats 1000000 in
/-- After window G: the first layer's normalisation. -/
theorem VG_main_v43 (V : Valuation τ sig (Elt F)) :
    VG V (no_index (Proc.devRef .tc main_v43)) = RRTerm.dis (F := F) (RRTerm.dstAll (V (Proc.devRef .tc main_arg0))) := by
  unfold VG
  simp only [wG]
  after_results_simp
  stage_chain [VF_main_v28]
  try simp only [TRef.toBuf, TRef.ofBuf, cast_self]
  rfl

set_option maxRecDepth 8192 in
set_option maxHeartbeats 1000000 in
/-- After window I: the first layer's per-edge normalisation. -/
theorem VI_main_v58 (V : Valuation τ sig (Elt F)) :
    VI V (no_index (Proc.devRef .tc main_v58)) = RRTerm.norm (F := F) (RRTerm.srcAll (V (Proc.devRef .tc main_arg0))) (RRTerm.dstAll (V (Proc.devRef .tc main_arg0))) := by
  unfold VI
  simp only [wI]
  after_results_simp
  stage_chain [VG_main_v43, VF_main_v27, VF_main_v28]
  try simp only [TRef.toBuf, TRef.ofBuf, cast_self]
  rfl

set_option maxRecDepth 8192 in
set_option maxHeartbeats 1000000 in
/-- After window J: the first layer's messages. -/
theorem VJ_main_v68 (V : Valuation τ sig (Elt F)) :
    VJ V (no_index (Proc.devRef .tc main_v68)) = RRTerm.msg (RRTerm.srcAll (V (Proc.devRef .tc main_arg0))) (RRTerm.dstAll (V (Proc.devRef .tc main_arg0))) (V (Proc.devRef .tc main_arg1)) (V (Proc.devRef .tc main_arg2)) := by
  unfold VJ
  simp only [wJ]
  after_results_simp
  stage_chain [VI_main_v58, VF_main_v27, VF_main_v25]
  try simp only [TRef.toBuf, TRef.ofBuf, cast_self]
  rfl

set_option maxRecDepth 8192 in
set_option maxHeartbeats 1000000 in
/-- After window K: the hidden features. -/
theorem VK_main_v80 (V : Valuation τ sig (Elt F)) :
    VK V (no_index (Proc.devRef .tc main_v80)) = RRTerm.hidden (V (Proc.devRef .tc main_arg0)) (V (Proc.devRef .tc main_arg1)) (V (Proc.devRef .tc main_arg2)) (V (Proc.devRef .tc main_arg3)) := by
  unfold VK
  simp only [wK]
  after_results_simp
  stage_chain [VJ_main_v68, VF_main_v28]
  try simp only [TRef.toBuf, TRef.ofBuf, cast_self]
  rfl

end Cert.ReferenceIdeal.RefRun

end
-- ==== Proof.RRVal3.lean ====
/-
  The value of each stage's buffer after its window, as the staged pure term of the argument
  arrays (the second layer and the result): the window's operations composed over the buffers it reads, those read back
  through the windows that keep them to the stage that wrote them. The typed references of the
  outlined functions' operations carry their values along an equation of a buffer's type with
  itself; those transports are removed by rewriting, so that no comparison of terms has to look
  inside a fold over an operand's elements.
-/
import proofs.«111189_g13383118094673_cont_sun_m_231_3_alg».proof.Proof.RRVal2

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

-- the folds and searches over the operands' elements stay folded while terms are compared
attribute [local irreducible] Host.reduce Host.reduceWindow Host.gather Host.scatter Host.scatterAdd

/-- The padded source list is still there after window K. -/
theorem VK_main_v23 (V : Valuation τ sig (Elt F)) :
    VK V (no_index (Proc.devRef .tc main_v23)) = RRTerm.src (V (Proc.devRef .tc main_arg0)) := by
  stage_chain [VE_main_v23]

/-- The padded destination list is still there after window K. -/
theorem VK_main_v24 (V : Valuation τ sig (Elt F)) :
    VK V (no_index (Proc.devRef .tc main_v24)) = RRTerm.dst (V (Proc.devRef .tc main_arg0)) := by
  stage_chain [VE_main_v24]

set_option maxRecDepth 8192 in
set_option maxHeartbeats 1000000 in
/-- After window L: the second linear map. -/
theorem VL_main_v81 (V : Valuation τ sig (Elt F)) :
    VL V (no_index (Proc.devRef .tc main_v81)) = RRTerm.lin (RRTerm.hidden (V (Proc.devRef .tc main_arg0)) (V (Proc.devRef .tc main_arg1)) (V (Proc.devRef .tc main_arg2)) (V (Proc.devRef .tc main_arg3))) (V (Proc.devRef .tc main_arg4)) := by
  unfold VL
  simp only [wL]
  after_results_simp
  stage_chain [VK_main_v80]
  try simp only [TRef.toBuf, TRef.ofBuf, cast_self]
  rfl

set_option maxRecDepth 8192 in
set_option maxHeartbeats 1000000 in
/-- After window L: the sources with the self-loops, again. The operands are pieces of the list that is concatenated. -/
theorem VL_main_v83 (V : Valuation τ sig (Elt F)) :
    VL V (no_index (Proc.devRef .tc main_v83)) = RRTerm.srcAll (V (Proc.devRef .tc main_arg0)) := by
  unfold VL
  simp only [wL]
  after_results
  rw [VK_main_v23]
  rfl

set_option maxRecDepth 8192 in
set_option maxHeartbeats 1000000 in
/-- After window L: the destinations with the self-loops, again. The operands are pieces of the list that is concatenated. -/
theorem VL_main_v84 (V : Valuation τ sig (Elt F)) :
    VL V (no_index (Proc.devRef .tc main_v84)) = RRTerm.dstAll (V (Proc.devRef .tc main_arg0)) := by
  unfold VL
  simp only [wL]
  after_results
  rw [VK_main_v24]
  rfl

set_option maxRecDepth 8192 in
set_option maxHeartbeats 1000000 in
/-- After window M: the second layer's normalisation. -/
theorem VM_main_v99 (V : Valuation τ sig (Elt F)) :
    VM V (no_index (Proc.devRef .tc main_v99)) = RRTerm.dis (F := F) (RRTerm.dstAll (V (Proc.devRef .tc main_arg0))) := by
  unfold VM
  simp only [wM]
  after_results_simp
  stage_chain [VL_main_v84]
  try simp only [TRef.toBuf, TRef.ofBuf, cast_self]
  rfl

set_option maxRecDepth 8192 in
set_option maxHeartbeats 1000000 in
/-- After window O: the second layer's per-edge normalisation. -/
theorem VO_main_v114 (V : Valuation τ sig (Elt F)) :
    VO V (no_index (Proc.devRef .tc main_v114)) = RRTerm.norm (F := F) (RRTerm.srcAll (V (Proc.devRef .tc main_arg0))) (RRTerm.dstAll (V (Proc.devRef .tc main_arg0))) := by
  unfold VO
  simp only [wO]
  after_results_simp
  stage_chain [VM_main_v99, VL_main_v83, VL_main_v84]
  try simp only [TRef.toBuf, TRef.ofBuf, cast_self]
  rfl

set_option maxRecDepth 8192 in
set_option maxHeartbeats 1000000 in
/-- After window P: the second layer's messages. -/
theorem VP_main_v124 (V : Valuation τ sig (Elt F)) :
    VP V (no_index (Proc.devRef .tc main_v124)) = RRTerm.msg (RRTerm.srcAll (V (Proc.devRef .tc main_arg0))) (RRTerm.dstAll (V (Proc.devRef .tc main_arg0))) (RRTerm.hidden (V (Proc.devRef .tc main_arg0)) (V (Proc.devRef .tc main_arg1)) (V (Proc.devRef .tc main_arg2)) (V (Proc.devRef .tc main_arg3))) (V (Proc.devRef .tc main_arg4)) := by
  unfold VP
  simp only [wP]
  after_results_simp
  stage_chain [VO_main_v114, VL_main_v83, VL_main_v81]
  try simp only [TRef.toBuf, TRef.ofBuf, cast_self]
  rfl

set_option maxRecDepth 8192 in
set_option maxHeartbeats 1000000 in
/-- After the last window: the result. -/
theorem VQ_main_v136 (V : Valuation τ sig (Elt F)) :
    VQ V (no_index (Proc.devRef .tc main_v136)) = RRTerm.out (V (Proc.devRef .tc main_arg0)) (V (Proc.devRef .tc main_arg1)) (V (Proc.devRef .tc main_arg2)) (V (Proc.devRef .tc main_arg3)) (V (Proc.devRef .tc main_arg4)) (V (Proc.devRef .tc main_arg5)) := by
  unfold VQ
  simp only [wQ]
  after_results_simp
  stage_chain [VP_main_v124, VL_main_v84]
  try simp only [TRef.toBuf, TRef.ofBuf, cast_self]
  rfl

/-- Argument 0 is never written. -/
theorem VQ_main_arg0 (V : Valuation τ sig (Elt F)) :
    VQ V (Proc.devRef .tc main_arg0) = V (Proc.devRef .tc main_arg0) := by
  stage_chain []

/-- Argument 1 is never written. -/
theorem VQ_main_arg1 (V : Valuation τ sig (Elt F)) :
    VQ V (Proc.devRef .tc main_arg1) = V (Proc.devRef .tc main_arg1) := by
  stage_chain []

/-- Argument 2 is never written. -/
theorem VQ_main_arg2 (V : Valuation τ sig (Elt F)) :
    VQ V (Proc.devRef .tc main_arg2) = V (Proc.devRef .tc main_arg2) := by
  stage_chain []

/-- Argument 3 is never written. -/
theorem VQ_main_arg3 (V : Valuation τ sig (Elt F)) :
    VQ V (Proc.devRef .tc main_arg3) = V (Proc.devRef .tc main_arg3) := by
  stage_chain []

/-- Argument 4 is never written. -/
theorem VQ_main_arg4 (V : Valuation τ sig (Elt F)) :
    VQ V (Proc.devRef .tc main_arg4) = V (Proc.devRef .tc main_arg4) := by
  stage_chain []

/-- Argument 5 is never written. -/
theorem VQ_main_arg5 (V : Valuation τ sig (Elt F)) :
    VQ V (Proc.devRef .tc main_arg5) = V (Proc.devRef .tc main_arg5) := by
  stage_chain []

end Cert.ReferenceIdeal.RefRun

end
-- ==== Proof.RRRun.lean ====
/-
  The reference's run: from any memory with zero counters every weakly fair execution of @main
  terminates, with the result buffer at the staged pure term of the six argument arrays and the
  argument arrays unchanged.
-/
import proofs.«111189_g13383118094673_cont_sun_m_231_3_alg».proof.Proof.RRVal3

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- On every device, for any float values: every weakly fair execution of the reference's @main terminates,
    the result is `RRTerm.out` of the arguments' launch contents, and the arguments end as they started. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v136)
          = RRTerm.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v136).trans ((congrFun (after_ops _) _).trans (VQ_main_v136 _)),
        (h c main_arg0).trans ((congrFun (after_ops _) _).trans (VQ_main_arg0 _)),
        (h c main_arg1).trans ((congrFun (after_ops _) _).trans (VQ_main_arg1 _)),
        (h c main_arg2).trans ((congrFun (after_ops _) _).trans (VQ_main_arg2 _)),
        (h c main_arg3).trans ((congrFun (after_ops _) _).trans (VQ_main_arg3 _)),
        (h c main_arg4).trans ((congrFun (after_ops _) _).trans (VQ_main_arg4 _)),
        (h c main_arg5).trans ((congrFun (after_ops _) _).trans (VQ_main_arg5 _))⟩)
    (run_after m ρ)

/-- The same run with the result dropped: the reference's frame. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => (h c).2) (run m ρ)

end Cert.ReferenceIdeal.RefRun

end
-- ==== Proof.RVGather.lean ====
/-
  The reference's two gathers read at an index.

  A gather of single entries of a vector `x : [N]` at start indices `idx : [E, 1]` reads, at `e`, the entry of
  `x` whose number is `idx[e, 0]` read signed and clamped into `0 … N − 1`. A gather of whole rows of a matrix
  `x : [N, C]` at the same kind of start indices reads, at `(e, k)`, entry `k` of the row with that number.
-/
import proofs.«111189_g13383118094673_cont_sun_m_231_3_alg».proof.Proof.RRTerm
import Idealize.ShloMosaic.Lib.ValueIdx

noncomputable section

namespace Cert.RefValue

open Idealize.ShloMosaic Idealize.ShloMosaic.ValueIdx

section General
variable {α : Type}

/-- The dimension numbers of a gather of entries: operand `[N]`, start indices `[E, 1]`, result `[E]`. -/
abbrev entryDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of entries read at `e`: the operand at the start index `idx[e, 0]`, read signed and clamped. -/
theorem gather_entry_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (entryDims N E wf).start (ix1 e) idx 0 + (entryDims N E wf).batchCoord (ix1 e) 0
    + (entryDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N E wf).startIndexMap from List.mem_singleton.mpr rfl)]
  have hsi : (entryDims N E wf).siIdx (ix1 e) ⟨List.idxOf (0 : Fin 1) (entryDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of a gather of rows: operand `[N, C]`, start indices `[E, 1]`, result `[E, C]`. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of rows read at `(e, k)`: entry `k` of the operand's row `idx[e, 0]`, read signed and clamped. -/
theorem gather_row_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N C E wf) x idx (ix2 e k)
      = x (ix2 ⟨min (idx (ix2 e (0 : Fin 1))).toInt.toNat (N - 1), by omega⟩ k) := by
  unfold Host.gather
  congr 1
  have h0 : ((rowGatherDims N C E wf).operandIdx (ix2 e k) idx 0).val
      = min (idx (ix2 e (0 : Fin 1))).toInt.toNat (N - 1) := by
    show (rowGatherDims N C E wf).start (ix2 e k) idx 0 + (rowGatherDims N C E wf).batchCoord (ix2 e k) 0
      + (rowGatherDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e k) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : ((rowGatherDims N C E wf).operandIdx (ix2 e k) idx 1).val = k.val := by
    show (rowGatherDims N C E wf).start (ix2 e k) idx 1 + (rowGatherDims N C E wf).batchCoord (ix2 e k) 1
      + (rowGatherDims N C E wf).offCoord (ix2 e k) 1 = _
    have hs : (rowGatherDims N C E wf).start (ix2 e k) idx 1 = 0 := by
      unfold GatherDims.start
      rw [dif_neg (show ¬ (1 : Fin 2) ∈ ([0] : List (Fin 2)) by decide)]
    have ho : (rowGatherDims N C E wf).offCoord (ix2 e k) 1 = k.val := by
      unfold GatherDims.offCoord
      have h : (1 : Fin 2) ∈ (rowGatherDims N C E wf).sKept :=
        show (1 : Fin 2) ∈ (List.finRange 2).filter (· ∉ (([0] : List (Fin 2)) ++ [])) by decide
      rw [dif_pos h]
      rfl
    rw [GatherDims.batchCoord_eq_zero _ _ _ List.not_mem_nil, hs, ho]
    simp
  funext a
  refine Fin.ext ?_
  match a with
  | ⟨0, _⟩ => exact h0
  | ⟨1, _⟩ => exact h1

end General

/-! ## The reference's two gather records -/

section Records
open Cert.ReferenceIdeal Cert.ReferenceIdeal.Facts₀ Cert.ReferenceIdeal.Facts
variable [Cert.ReferenceIdeal.Facts] {α : Type}

/-- The reference's gather of entries of a `[2048]` vector, read at edge `e`. -/
theorem gather_nodes_apply {w : Nat} (x : S2048.Idx → α) (idx : IVec S4196352x1 w) (e : Fin 4196352) :
    Host.gather gather_S2048_S4196352x1_S4196352_n_0_n_n_0_1_1 x idx (ix1 e)
      = x (ix1 ⟨min (idx (ix2 e (0 : Fin 1))).toInt.toNat 2047, by omega⟩) :=
  gather_entry_apply (N := 2048) (E := 4196352) (by decide) gather_S2048_S4196352x1_S4196352_n_0_n_n_0_1_1_wf x idx e

/-- The reference's gather of rows of a `[2048, 32]` matrix, read at edge `e` and column `k`. -/
theorem gather_rows_apply {w : Nat} (x : S2048x32.Idx → α) (idx : IVec S4196352x1 w) (e : Fin 4196352) (k : Fin 32) :
    Host.gather gather_S2048x32_S4196352x1_S4196352x32_1_0_n_n_0_1_132 x idx (ix2 e k)
      = x (ix2 ⟨min (idx (ix2 e (0 : Fin 1))).toInt.toNat 2047, by omega⟩ k) :=
  gather_row_apply (N := 2048) (C := 32) (E := 4196352) (by decide)
    gather_S2048x32_S4196352x1_S4196352x32_1_0_n_n_0_1_132_wf x idx e k

end Records

end Cert.RefValue

end
-- ==== Proof.LibRowScatter.lean ====
/-
  A scatter of rows with addition, read at an index; and two such scatters fused into one.

  The operand is an N × C array, the updates an E × C array, and update row e is added into the operand row
  that the e-th scatter index names (read signed, not clamped; a row outside the operand is dropped). Read at
  (n, k), the result is the operand's entry plus the sum of the updates' k-th column over the rows e whose
  index is n.

  Fusing: scattering the 2E rows "u followed by −u" by the indices "r followed by s" gives, at every entry,
  the scatter of u by r MINUS the scatter of u by s — provided the entries of u are real numbers: negation
  does not distribute over a sum of extended reals that contains both infinities.

  General: nothing here mentions a program.
-/
import Idealize.ShloMosaic.PureOps.Ideal
import Idealize.ShloMosaic.Lib.ValueIdx

noncomputable section

open scoped BigOperators

namespace Cert.LibRowScatter

open Idealize.ShloMosaic Idealize.ShloMosaic.ValueIdx Finset

/-! ## Where an update lands, for any dimension numbers -/

/-- An update lands at `i` exactly when, on every operand axis, window start plus window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := congrArg (fun f => (f a).val) hi
      simp only at h1
      have h2 := h a
      omega
    · intro hi
      funext a
      apply Fin.ext
      have h1 := hi a
      simp only
      omega
  · rename_i h
    constructor
    · intro hi; exact absurd hi (by simp)
    · intro hi
      exfalso; apply h
      intro a
      have h1 := hi a
      have h2 := (i a).isLt
      omega

/-! ## Rows -/

/-- The dimension numbers of a scatter of rows: operand N × C, scatter indices E × 1, updates E × C; the
    updates' second axis is the window, the operand's first axis is the one indexed. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)

/-- Where the scatter indices hold update row `e`'s index. -/
abbrev rowAt (e : Fin E) : (⟨2, ![E, 1]⟩ : Shape).Idx := ix2 e (0 : Fin 1)

theorem start_zero (e : Fin E) (k : Fin C) (idx : IVec ⟨2, ![E, 1]⟩ w) :
    (rowDims N C E wf).start (ix2 e k) idx 0 = (idx (rowAt e)).toInt := by
  unfold ScatterDims.start
  rw [dif_pos (show (0 : Fin 2) ∈ (rowDims N C E wf).scatterDimsToOperandDims from List.mem_singleton.mpr rfl)]
  have hsi : (rowDims N C E wf).siIdx (ix2 e k) ⟨List.idxOf (0 : Fin 2) (rowDims N C E wf).scatterDimsToOperandDims,
      List.idxOf_lt_length_iff.2 (List.mem_singleton.mpr rfl)⟩ = rowAt e := by
    funext b; refine Fin.ext ?_
    match b with
    | ⟨0, _⟩ => rfl
    | ⟨1, _⟩ => rfl
  rw [hsi]

theorem start_one (e : Fin E) (k : Fin C) (idx : IVec ⟨2, ![E, 1]⟩ w) :
    (rowDims N C E wf).start (ix2 e k) idx 1 = 0 := by
  unfold ScatterDims.start
  have h : ¬ (1 : Fin 2) ∈ (rowDims N C E wf).scatterDimsToOperandDims :=
    show ¬ (1 : Fin 2) ∈ ([0] : List (Fin 2)) by decide
  rw [dif_neg h]

theorem window_zero (e : Fin E) (k : Fin C) : (rowDims N C E wf).window (ix2 e k) 0 = 0 := by
  unfold ScatterDims.window
  have h : ¬ (0 : Fin 2) ∈ (rowDims N C E wf).sKept :=
    show ¬ (0 : Fin 2) ∈ (List.finRange 2).filter (· ∉ ([0] : List (Fin 2))) by decide
  rw [dif_neg h]

theorem window_one (e : Fin E) (k : Fin C) : (rowDims N C E wf).window (ix2 e k) 1 = k.val := by
  unfold ScatterDims.window
  have h : (1 : Fin 2) ∈ (rowDims N C E wf).sKept :=
    show (1 : Fin 2) ∈ (List.finRange 2).filter (· ∉ ([0] : List (Fin 2))) by decide
  rw [dif_pos h]
  rfl

/-- Update entry (e, k) lands at (n, k') exactly when row e's index is n and the columns agree. -/
theorem resultIdx?_rows (e : Fin E) (k : Fin C) (idx : IVec ⟨2, ![E, 1]⟩ w) (n : Fin N) (k' : Fin C) :
    (rowDims N C E wf).resultIdx? (ix2 e k) idx = some (ix2 n k') ↔ (idx (rowAt e)).toInt = (n.val : Int) ∧ k = k' := by
  rw [resultIdx?_eq_some_iff, Fin.forall_fin_two, start_zero, start_one, window_zero, window_one]
  constructor
  · rintro ⟨h0, h1⟩
    refine ⟨by simpa using h0, Fin.ext ?_⟩
    have : ((k.val : Int)) = ((k'.val : Nat) : Int) := by simpa using h1
    exact_mod_cast this
  · rintro ⟨h0, rfl⟩
    exact ⟨by simpa using h0, by simp⟩

/-- THE SCATTER READ AT (n, k): the operand's entry plus the k-th column of the updates summed over the rows
    whose index is n. -/
theorem hostScatterAdd_rows_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowDims N C E wf) x idx upd (ix2 n k)
      = x (ix2 n k) + ∑ e ∈ univ.filter (fun e : Fin E => (idx (rowAt e)).toInt = (n.val : Int)), upd (ix2 e k) := by
  unfold Ideal.hostScatterAdd
  congr 1
  rw [Finset.sum_filter, sum_idx2, Finset.sum_filter]
  refine Finset.sum_congr rfl fun e _ => ?_
  simp only [resultIdx?_rows]
  by_cases h : (idx (rowAt e)).toInt = (n.val : Int)
  · simp only [h, true_and, if_true]
    rw [Finset.sum_ite_eq' Finset.univ k (fun c => upd (ix2 e c)), if_pos (Finset.mem_univ k)]
  · simp only [h, false_and, if_false, Finset.sum_const_zero]

end Rows

/-! ## Sums of real numbers among the extended reals -/

/-- The inclusion of the reals carries a finite sum to the sum of the inclusions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Negation distributes over a finite sum of real numbers. -/
theorem sum_neg_coe {ι : Type} (s : Finset ι) (f : ι → ℝ) :
    ∑ i ∈ s, -((f i : ℝ) : EReal) = -∑ i ∈ s, ((f i : ℝ) : EReal) := by
  rw [← coe_sum, ← EReal.coe_neg, ← Finset.sum_neg_distrib, coe_sum]
  simp only [EReal.coe_neg]

/-! ## Two scatters in one -/

/-- THE FUSED SUM. Over 2E rows whose indices are `ρ` then `σ` and whose values are `υ` then `−υ` (`υ` real), the
    rows indexed `n` sum to: the rows of `υ` that `ρ` sends to `n`, minus the rows of `υ` that `σ` sends to `n`. -/
theorem sum_fused {E E2 : Nat} (hE : E2 = E + E) (n : Int) (ρ σ : Fin E → Int) (υ : Fin E → ℝ)
    (ρ2 : Fin E2 → Int) (υ2 : Fin E2 → EReal)
    (hl : ∀ (e : Fin E2) (h : e.val < E), ρ2 e = ρ ⟨e.val, h⟩ ∧ υ2 e = ((υ ⟨e.val, h⟩ : ℝ) : EReal))
    (hr : ∀ (e : Fin E2) (h : E ≤ e.val), ρ2 e = σ ⟨e.val - E, by have := e.isLt; omega⟩
      ∧ υ2 e = -((υ ⟨e.val - E, by have := e.isLt; omega⟩ : ℝ) : EReal)) :
    ∑ e ∈ univ.filter (fun e => ρ2 e = n), υ2 e
      = (∑ e ∈ univ.filter (fun e => ρ e = n), ((υ e : ℝ) : EReal))
        - ∑ e ∈ univ.filter (fun e => σ e = n), ((υ e : ℝ) : EReal) := by
  subst hE
  rw [Finset.sum_filter, Fin.sum_univ_add, sub_eq_add_neg, ← sum_neg_coe, Finset.sum_filter, Finset.sum_filter]
  congr 1
  · refine Finset.sum_congr rfl fun e _ => ?_
    obtain ⟨h1, h2⟩ := hl (Fin.castAdd E e) (by simp)
    rw [h1, h2]
    rfl
  · refine Finset.sum_congr rfl fun e _ => ?_
    obtain ⟨h1, h2⟩ := hr (Fin.natAdd E e) (by simp)
    rw [h1, h2]
    have he : (⟨(Fin.natAdd E e).val - E, by simp⟩ : Fin E) = e := Fin.ext (by simp)
    simp only [he]

end Cert.LibRowScatter

end
-- ==== Proof.RVScatter.lean ====
/-
  The reference's two accumulating scatters read at an index.

  Scattering the entries of `upd : [E]` with addition into `x : [N]` at the scatter indices `idx : [E, 1]` gives,
  at `n`, the entry of `x` plus the sum of the updates whose index, read signed, is `n`. The scatter of rows is
  the general one of the rows lemma file; here its dimension numbers are identified with the program's record.
-/
import proofs.«111189_g13383118094673_cont_sun_m_231_3_alg».proof.Proof.RRTerm
import proofs.«111189_g13383118094673_cont_sun_m_231_3_alg».proof.Proof.LibRowScatter
import Idealize.ShloMosaic.Lib.ValueIdx

noncomputable section

open scoped BigOperators

namespace Cert.RefValue

open Idealize.ShloMosaic Idealize.ShloMosaic.ValueIdx Finset

/-! ## Entries -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of entries: operand `[N]`, scatter indices `[E, 1]`, updates `[E]`. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Entries
variable {N E w : Nat} (wf : ScatterDims.WF ⟨1, ![N]⟩ ⟨2, ![E, 1]⟩ ⟨1, ![E]⟩ [] [0] [0] 1)

theorem vec_start_zero (e : Fin E) (idx : IVec ⟨2, ![E, 1]⟩ w) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vec_window_zero (e : Fin E) : (vecDims N E wf).window (ix1 e) 0 = 0 := by
  unfold ScatterDims.window
  have h : ¬ (0 : Fin 1) ∈ (vecDims N E wf).sKept :=
    show ¬ (0 : Fin 1) ∈ (List.finRange 1).filter (· ∉ ([0] : List (Fin 1))) by decide
  rw [dif_neg h]

/-- Update entry `e` lands at `n` exactly when its index, read signed, is `n`. -/
theorem resultIdx?_vec (e : Fin E) (idx : IVec ⟨2, ![E, 1]⟩ w) (n : Fin N) :
    (vecDims N E wf).resultIdx? (ix1 e) idx = some (ix1 n) ↔ (idx (ix2 e (0 : Fin 1))).toInt = (n.val : Int) := by
  rw [Cert.LibRowScatter.resultIdx?_eq_some_iff, Fin.forall_fin_one, vec_start_zero, vec_window_zero]
  constructor
  · intro h; simpa using h
  · intro h; simpa using h

/-- The scatter of entries read at `n`: the operand's entry plus the updates whose index is `n`. -/
theorem hostScatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e ∈ univ.filter (fun e : Fin E => (idx (ix2 e (0 : Fin 1))).toInt = (n.val : Int)), upd (ix1 e) := by
  unfold Ideal.hostScatterAdd
  congr 1
  rw [Finset.sum_filter, sum_idx1, Finset.sum_filter]
  refine Finset.sum_congr rfl fun e _ => ?_
  by_cases h : (idx (ix2 e (0 : Fin 1))).toInt = (n.val : Int)
  · rw [if_pos ((resultIdx?_vec wf e idx n).mpr h), if_pos h]
  · rw [if_neg (fun h' => h ((resultIdx?_vec wf e idx n).mp h')), if_neg h]

end Entries

/-! ## The reference's two scatter records -/

section Records
open Cert.ReferenceIdeal Cert.ReferenceIdeal.Facts₀ Cert.ReferenceIdeal.Facts
variable [Cert.ReferenceIdeal.Facts]

/-- The reference's scatter of ones or entries into a `[2048]` vector, read at node `n`. -/
theorem scatterAdd_nodes_apply {w : Nat} (x : FVec Ideal S2048 .f32) (idx : IVec S4196352x1 w)
    (upd : FVec Ideal S4196352 .f32) (n : Fin 2048) :
    Host.scatterAdd (F := Ideal) (φ := .f32) scatter_S2048_S4196352x1_S4196352_n_0_0_1 x idx upd (ix1 n)
      = x (ix1 n) + ∑ e ∈ univ.filter (fun e : Fin 4196352 => (idx (ix2 e (0 : Fin 1))).toInt = (n.val : Int)),
          upd (ix1 e) :=
  hostScatterAdd_vec_apply (N := 2048) (E := 4196352) scatter_S2048_S4196352x1_S4196352_n_0_0_1_wf x idx upd n

/-- The reference's scatter of rows into a `[2048, 32]` matrix, read at node `n` and column `k`. -/
theorem scatterAdd_rows_apply {w : Nat} (x : FVec Ideal S2048x32 .f32) (idx : IVec S4196352x1 w)
    (upd : FVec Ideal S4196352x32 .f32) (n : Fin 2048) (k : Fin 32) :
    Host.scatterAdd (F := Ideal) (φ := .f32) scatter_S2048x32_S4196352x1_S4196352x32_1_0_0_1 x idx upd (ix2 n k)
      = x (ix2 n k) + ∑ e ∈ univ.filter (fun e : Fin 4196352 => (idx (ix2 e (0 : Fin 1))).toInt = (n.val : Int)),
          upd (ix2 e k) :=
  Cert.LibRowScatter.hostScatterAdd_rows_apply (N := 2048) (C := 32) (E := 4196352)
    scatter_S2048x32_S4196352x1_S4196352x32_1_0_0_1_wf x idx upd n k

end Records

end Cert.RefValue

end
-- ==== Proof.LibERealSum.lean ====
/-
  Finite sums and products of extended reals that are real.

  The extended reals are not a ring: distributivity and cancellation fail at the infinities. Where every entry
  is a real number the coercion commutes with finite sums and with products, so a sum of products of real
  entries is the coercion of the real sum of products, and the algebra can be done in the reals. General:
  nothing here mentions a program.
-/
import Mathlib.Data.EReal.Basic
import Mathlib.Data.EReal.Operations
import Mathlib.Algebra.BigOperators.Group.Finset.Basic
import Mathlib.Tactic

namespace LibERealSum

open Finset

variable {ι κ : Type}

/-- The coercion commutes with a finite sum. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real entries is the coercion of the real sum of products. -/
theorem sum_mul_coe (s : Finset ι) (f g : ι → ℝ) :
    ∑ i ∈ s, ((f i : EReal) * (g i : EReal)) = ((∑ i ∈ s, f i * g i : ℝ) : EReal) := by
  rw [coe_sum]
  exact Finset.sum_congr rfl fun i _ => (EReal.coe_mul _ _).symm

/-- A family of extended reals each of which is real is the coercion of a real family. -/
theorem exists_real (f : ι → EReal) (h : ∀ i, f i ≠ ⊤ ∧ f i ≠ ⊥) : ∃ g : ι → ℝ, ∀ i, f i = (g i : EReal) :=
  ⟨fun i => (f i).toReal, fun i => (EReal.coe_toReal (h i).1 (h i).2).symm⟩

/-- Moving a real factor across a finite sum of reals, in the extended reals. -/
theorem mul_sum_coe (s : Finset ι) (a : ℝ) (f : ι → ℝ) :
    (a : EReal) * ∑ i ∈ s, (f i : EReal) = ∑ i ∈ s, (a : EReal) * (f i : EReal) := by
  rw [← coe_sum, ← EReal.coe_mul, Finset.mul_sum, coe_sum]
  exact Finset.sum_congr rfl fun i _ => EReal.coe_mul _ _

/-- Exchanging two finite sums of products of reals: the associativity of a product of three real matrices, entrywise. -/
theorem sum_sum_assoc (s : Finset ι) (t : Finset κ) (x : ι → ℝ) (A : ι → κ → ℝ) (B : κ → ℝ) :
    ∑ k ∈ t, ((∑ i ∈ s, (x i : EReal) * (A i k : EReal)) * (B k : EReal))
      = ∑ i ∈ s, ((x i : EReal) * ∑ k ∈ t, (A i k : EReal) * (B k : EReal)) := by
  have h1 : ∀ k, (∑ i ∈ s, (x i : EReal) * (A i k : EReal)) * (B k : EReal) = ((∑ i ∈ s, x i * A i k) * B k : ℝ) := by
    intro k; rw [sum_mul_coe, ← EReal.coe_mul]
  have h2 : ∀ i, (x i : EReal) * ∑ k ∈ t, (A i k : EReal) * (B k : EReal) = ((x i * ∑ k ∈ t, A i k * B k : ℝ) : EReal) := by
    intro i; rw [sum_mul_coe, ← EReal.coe_mul]
  rw [Finset.sum_congr rfl (fun k _ => h1 k), Finset.sum_congr rfl (fun i _ => h2 i), ← coe_sum, ← coe_sum]
  congr 1
  simp only [Finset.sum_mul, Finset.mul_sum]
  rw [Finset.sum_comm]
  exact Finset.sum_congr rfl fun i _ => Finset.sum_congr rfl fun k _ => by ring

end LibERealSum
-- ==== Proof.RVDeg.lean ====
/-
  The reference's degrees and normalisation are the specification's.

  The degree of node `n` is a one added for every edge landing at `n`. When the edges landing at `n` are the
  rows `i` with `A i n ≠ 0` once each and the self-loop once, and the entries of `A` are 0 or 1, that count is
  the column sum of `A` plus one: a real number that is at least one. So the comparison with zero holds, the
  maximum with the small constant is the degree itself, and the normalisation is `deg^(-1/2)`, a real number.
-/
import proofs.«111189_g13383118094673_cont_sun_m_231_3_alg».proof.Proof.RRTerm
import proofs.«111189_g13383118094673_cont_sun_m_231_3_alg».proof.Proof.RVScatter
import proofs.«111189_g13383118094673_cont_sun_m_231_3_alg».proof.Proof.Spec
import proofs.«111189_g13383118094673_cont_sun_m_231_3_alg».proof.Proof.LibERealSum
import Idealize.ShloMosaic.PureOps.Ideal.Laws

noncomputable section

open scoped BigOperators

namespace Cert.RefValue

open Idealize.ShloMosaic Idealize.ShloMosaic.ValueIdx Finset
open Cert.ReferenceIdeal Cert.ReferenceIdeal.RRTerm

variable [Cert.ReferenceIdeal.Facts]

/-! ## The float constants -/

/-- The word of `1.0` denotes one. -/
theorem ofBits_one : Ideal.ofBits .f32 0x3F800000#32 = 1 := by
  simp [Ideal.ofBits, Ideal.ieee, -EReal.coe_mul]; norm_num

/-- The word of the small constant under the square root denotes a real number that is at most one. -/
theorem ofBits_tiny : ∃ r : ℝ, Ideal.ofBits .f32 0x2B8CBCCC#32 = (r : EReal) ∧ r ≤ 1 := by
  simp [Ideal.ofBits, Ideal.ieee, -EReal.coe_mul]
  norm_num

/-! ## What a layer needs of its edge list -/

/-- The edge list `(s, d)` enumerates, for each destination `n`, the rows `i` with `A i n ≠ 0` once each and the
    self-loop at `n` once: summing any function of the (clamped) source over the edges whose destination word is
    `n` is summing it over those rows, plus its value at `n`. -/
def EdgeSum (s d : IVec S4196352 32) (A : Vec Ideal S2048x2048 .f32) : Prop :=
  ∀ (n : Fin 2048) (G : Nat → EReal),
    ∑ e ∈ univ.filter (fun e : Fin 4196352 => ((wrapIdx d) (ix2 e (0 : Fin 1))).toInt = (n.val : Int)),
        G (min ((wrapIdx s) (ix2 e (0 : Fin 1))).toInt.toNat 2047)
      = (∑ i ∈ univ.filter (fun i : Fin 2048 => A (ix2 i n) ≠ 0), G i.val) + G n.val

/-- The adjacency array as a function of row and column. -/
abbrev adj (A : Vec Ideal S2048x2048 .f32) : Fin 2048 → Fin 2048 → EReal := fun i n => A (ix2 i n)

/-! ## The degrees -/

/-- The reference's degree at `n`: zero plus a one for every edge whose destination word is `n`. -/
theorem deg_apply (d : IVec S4196352 32) (n : Fin 2048) :
    RRTerm.deg (F := Ideal) d (ix1 n)
      = 0 + ∑ e ∈ univ.filter (fun e : Fin 4196352 => ((wrapIdx d) (ix2 e (0 : Fin 1))).toInt = (n.val : Int)),
          (1 : EReal) := by
  unfold RRTerm.deg
  rw [scatterAdd_nodes_apply]
  show Ideal.ofBits .f32 0x00000000#32 + ∑ e ∈ _, Ideal.ofBits .f32 0x3F800000#32 = _
  rw [Ideal.ofBits_zero_f32, ofBits_one]

/-- With entries 0 or 1, counting the nonzero entries of a column is summing the column. -/
theorem count_eq_sum (A : Vec Ideal S2048x2048 .f32) (hA : ∀ i, A i = 0 ∨ A i = 1) (n : Fin 2048) :
    ∑ i ∈ univ.filter (fun i : Fin 2048 => A (ix2 i n) ≠ 0), (1 : EReal) = ∑ i : Fin 2048, A (ix2 i n) := by
  rw [Finset.sum_filter]
  refine Finset.sum_congr rfl fun i _ => ?_
  rcases hA (ix2 i n) with h | h
  · rw [h]; simp
  · rw [h]; simp

/-- Under the edge-list fact the reference's degree is the specification's. -/
theorem deg_eq_spec (s d : IVec S4196352 32) (A : Vec Ideal S2048x2048 .f32) (hA : ∀ i, A i = 0 ∨ A i = 1)
    (hE : EdgeSum s d A) (n : Fin 2048) :
    RRTerm.deg (F := Ideal) d (ix1 n) = GcnSpec.deg (adj A) n := by
  rw [deg_apply, hE n (fun _ => 1), count_eq_sum A hA n, zero_add]
  rfl

/-- The specification's degree is a real number that is at least one. -/
theorem deg_real (A : Vec Ideal S2048x2048 .f32) (hA : ∀ i, A i = 0 ∨ A i = 1) (n : Fin 2048) :
    ∃ r : ℝ, 1 ≤ r ∧ GcnSpec.deg (adj A) n = (r : EReal) := by
  have h : ∀ i : Fin 2048, ∃ a : ℝ, A (ix2 i n) = (a : EReal) ∧ 0 ≤ a := by
    intro i
    rcases hA (ix2 i n) with h | h
    · exact ⟨0, by rw [h, EReal.coe_zero], le_refl _⟩
    · exact ⟨1, by rw [h, EReal.coe_one], zero_le_one⟩
  choose a ha ha0 using h
  refine ⟨(∑ i, a i) + 1, by have := Finset.sum_nonneg (fun i (_ : i ∈ univ) => ha0 i); linarith, ?_⟩
  unfold GcnSpec.deg
  rw [EReal.coe_add, LibERealSum.coe_sum, EReal.coe_one]
  exact congrArg (· + 1) (Finset.sum_congr rfl fun i _ => ha i)

end Cert.RefValue

end
-- ==== Proof.RVDis.lean ====
/-
  The reference's normalisation is the specification's.

  The degree is a real number that is at least one, so the comparison with zero holds, the maximum with the small
  constant is the degree itself, and the normalisation is `deg^(-1/2)`, a real number.
-/
import proofs.«111189_g13383118094673_cont_sun_m_231_3_alg».proof.Proof.RRTerm
import proofs.«111189_g13383118094673_cont_sun_m_231_3_alg».proof.Proof.RVDeg
import proofs.«111189_g13383118094673_cont_sun_m_231_3_alg».proof.Proof.Spec
import Idealize.ShloMosaic.PureOps.Ideal.Laws

noncomputable section

open scoped BigOperators

namespace Cert.RefValue

open Idealize.ShloMosaic Idealize.ShloMosaic.ValueIdx Finset
open Cert.ReferenceIdeal Cert.ReferenceIdeal.RRTerm Cert.ReferenceIdeal.Facts₀ Cert.ReferenceIdeal.Facts

variable [Cert.ReferenceIdeal.Facts]

/-! ## The normalisation -/

/-- A scalar constant broadcast over the nodes reads the constant's value everywhere. -/
theorem bcast_scalar_nodes (b : BitVec 32) (i : S2048.Idx) :
    broadcastInDim S2048 ![] bcast_S_S2048 (constant (F := Ideal) S_ .f32 b) i = Ideal.ofBits .f32 b := rfl

/-- The same through an identity (a format change that changes nothing). -/
theorem bcast_scalar_nodes_id (b : BitVec 32) (i : S2048.Idx) :
    broadcastInDim S2048 ![] bcast_S_S2048 (id (constant (F := Ideal) S_ .f32 b)) i = Ideal.ofBits .f32 b := rfl

/-- The `rsqrt` of a maximum, at an index. -/
theorem rsqrt_max_apply (a b : FVec Ideal S2048 .f32) (i : S2048.Idx) :
    Host.rsqrt (F := Ideal) (maximumf a b) i = Ideal.rsqrt (max (a i) (b i)) := rfl

/-- Where the degree is a real number that is at least one, the reference's normalisation is its `rsqrt`. -/
theorem dis_apply (d : IVec S4196352 32) (n : Fin 2048) (r : ℝ) (hr : 1 ≤ r)
    (hd : RRTerm.deg (F := Ideal) d (ix1 n) = (r : EReal)) :
    RRTerm.dis (F := Ideal) d (ix1 n) = Ideal.rsqrt (r : EReal) := by
  unfold RRTerm.dis
  rw [select_apply, cmpf_apply, Ideal.cmpf_def, rsqrt_max_apply, bcast_scalar_nodes, bcast_scalar_nodes,
    bcast_scalar_nodes_id]
  obtain ⟨t, ht, ht1⟩ := ofBits_tiny
  have h0 : (0 : EReal) < (r : EReal) := by exact_mod_cast (lt_of_lt_of_le one_pos hr)
  have hc : Ideal.cmp .ogt (r : EReal) 0 = 1#1 := by simp [Ideal.cmp, h0]
  have hm : max (r : EReal) (t : EReal) = (r : EReal) := max_eq_left (by exact_mod_cast (le_trans ht1 hr))
  rw [hd, Ideal.ofBits_zero_f32, ht, hc, select_one, hm]

/-- The `rsqrt` of a real number that is at least one is a real number. -/
theorem rsqrt_real (r : ℝ) (hr : 1 ≤ r) : Ideal.rsqrt (r : EReal) = (((Real.sqrt r)⁻¹ : ℝ) : EReal) := by
  have h0 : 0 < r := lt_of_lt_of_le one_pos hr
  rw [Ideal.rsqrt_coe, if_neg (not_lt.2 h0.le), if_neg (ne_of_gt h0)]

/-- Under the edge-list fact the reference's normalisation is the specification's. -/
theorem dis_eq_spec (s d : IVec S4196352 32) (A : Vec Ideal S2048x2048 .f32) (hA : ∀ i, A i = 0 ∨ A i = 1)
    (hE : EdgeSum s d A) (n : Fin 2048) :
    RRTerm.dis (F := Ideal) d (ix1 n) = GcnSpec.dis (adj A) n := by
  obtain ⟨r, hr, hd⟩ := deg_real A hA n
  rw [dis_apply d n r hr ((deg_eq_spec s d A hA hE n).trans hd)]
  unfold GcnSpec.dis
  rw [hd]

/-- The specification's normalisation is a real number. -/
theorem dis_real (A : Vec Ideal S2048x2048 .f32) (hA : ∀ i, A i = 0 ∨ A i = 1) (n : Fin 2048) :
    ∃ q : ℝ, GcnSpec.dis (adj A) n = (q : EReal) := by
  obtain ⟨r, hr, hd⟩ := deg_real A hA n
  exact ⟨(Real.sqrt r)⁻¹, by unfold GcnSpec.dis; rw [hd, rsqrt_real r hr]⟩

end Cert.RefValue

end
-- ==== Proof.RVLayer.lean ====
/-
  One layer of the reference is the specification's graph convolution.

  Per edge `e` the reference multiplies the source's row of `h · W` by the normalisation at the source times that
  at the destination, and adds the results up at the destination. Summed over the edges landing at `n` — the rows
  `i` with `A i n ≠ 0` once each, and the self-loop — that is
    ∑_{i : A i n ≠ 0} (h·W)(i, f) · (dis i · dis n)  +  (h·W)(n, f) · (dis n · dis n),
  and, the entries of `A` being 0 or 1 and every number involved being real, this is the dense form
    ((∑ i, ((h·W)(i, f) · dis i) · A i n) + (h·W)(n, f) · dis n) · dis n.
-/
import proofs.«111189_g13383118094673_cont_sun_m_231_3_alg».proof.Proof.RRTerm
import proofs.«111189_g13383118094673_cont_sun_m_231_3_alg».proof.Proof.RVGather
import proofs.«111189_g13383118094673_cont_sun_m_231_3_alg».proof.Proof.RVScatter
import proofs.«111189_g13383118094673_cont_sun_m_231_3_alg».proof.Proof.RVDeg
import proofs.«111189_g13383118094673_cont_sun_m_231_3_alg».proof.Proof.RVDis
import proofs.«111189_g13383118094673_cont_sun_m_231_3_alg».proof.Proof.Spec
import proofs.«111189_g13383118094673_cont_sun_m_231_3_alg».proof.Proof.LibERealSum
import Idealize.ShloMosaic.Lib.StackMember

noncomputable section

open scoped BigOperators

namespace Cert.RefValue

open Idealize.ShloMosaic Idealize.ShloMosaic.ValueIdx Finset
open Cert.ReferenceIdeal Cert.ReferenceIdeal.RRTerm Cert.ReferenceIdeal.Facts₀ Cert.ReferenceIdeal.Facts

/-! ## Real numbers among the extended reals -/

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {ι : Type} (s : Finset ι) (f : ι → EReal) (hf : ∀ i, IsReal (f i)) : IsReal (∑ i ∈ s, f i) := by
  choose g hg using hf
  exact ⟨∑ i ∈ s, g i, by rw [LibERealSum.coe_sum]; exact Finset.sum_congr rfl fun i _ => hg i⟩

theorem IsReal.max_zero {x : EReal} (hx : IsReal x) : IsReal (max x 0) := by
  obtain ⟨a, rfl⟩ := hx
  rcases le_total ((a : ℝ) : EReal) 0 with h | h
  · exact ⟨0, by rw [max_eq_right h, EReal.coe_zero]⟩
  · exact ⟨a, by rw [max_eq_left h]⟩

theorem isReal_of_ne {x : EReal} (h : x ≠ ⊤ ∧ x ≠ ⊥) : IsReal x := ⟨x.toReal, (EReal.coe_toReal h.1 h.2).symm⟩

/-! ## The algebra of one column -/

/-- Over real numbers `l`, `q` and 0/1 numbers `a`: the sum over the rows with `a i ≠ 0` of `l i · (q i · q n)`,
    plus the self-loop's term, is the dense form `((∑ i, (l i · q i) · a i) + l n · q n) · q n`. -/
theorem conv_algebra {ι : Type} [Fintype ι] (l q a : ι → ℝ) (ha : ∀ i, a i = 0 ∨ a i = 1) (n : ι) :
    (∑ i ∈ univ.filter (fun i => ((a i : ℝ) : EReal) ≠ 0), (l i : EReal) * ((q i : EReal) * (q n : EReal)))
        + (l n : EReal) * ((q n : EReal) * (q n : EReal))
      = ((∑ i, ((l i : EReal) * (q i : EReal)) * (a i : EReal)) + (l n : EReal) * (q n : EReal)) * (q n : EReal) := by
  classical
  have hL : ∀ i, (if ((a i : ℝ) : EReal) ≠ 0 then (l i : EReal) * ((q i : EReal) * (q n : EReal)) else 0)
      = ((l i * q i * a i * q n : ℝ) : EReal) := by
    intro i
    rcases ha i with h | h
    · rw [h]; simp
    · rw [if_pos (by rw [h]; simp), ← EReal.coe_mul, ← EReal.coe_mul, h]
      exact congrArg _ (by ring)
  have hR : ∀ i, ((l i : EReal) * (q i : EReal)) * (a i : EReal) = ((l i * q i * a i : ℝ) : EReal) := by
    intro i; rw [← EReal.coe_mul, ← EReal.coe_mul]
  rw [Finset.sum_filter, Finset.sum_congr rfl (fun i _ => hL i), Finset.sum_congr rfl (fun i _ => hR i),
    ← LibERealSum.coe_sum, ← LibERealSum.coe_sum]
  simp only [← EReal.coe_mul, ← EReal.coe_add]
  refine congrArg _ ?_
  rw [add_mul, Finset.sum_mul]
  ring

variable [Cert.ReferenceIdeal.Facts]

/-! ## The arrays as functions of their coordinates -/

/-- Node features as a function of node and feature. -/
abbrev feat (h : Vec Ideal S2048x32 .f32) : Fin 2048 → Fin 32 → EReal := fun n k => h (ix2 n k)
/-- A weight matrix as a function of its two coordinates. -/
abbrev wts (W : Vec Ideal S32x32 .f32) : Fin 32 → Fin 32 → EReal := fun k f => W (ix2 k f)
/-- A bias vector as a function of the feature. -/
abbrev bias (b : Vec Ideal S32 .f32) : Fin 32 → EReal := fun f => b (ix1 f)

/-! ## The stages of a layer at an index -/

/-- The linear map `h · W` at `(n, f)` is the specification's. -/
theorem lin_apply (h : Vec Ideal S2048x32 .f32) (W : Vec Ideal S32x32 .f32) (n : Fin 2048) (f : Fin 32) :
    RRTerm.lin (F := Ideal) h W (ix2 n f) = GcnSpec.lin (wts W) (feat h) n f := by
  unfold RRTerm.lin GcnSpec.lin
  exact StackMember.dotGeneral_plain_apply (m := 2048) (k := 32) (n := 32) none h W n f

/-- The node an edge's index word names once a gather has clamped it into range. -/
def nodeOf (s : IVec S4196352 32) (e : Fin 4196352) : Fin 2048 :=
  ⟨min ((wrapIdx s) (ix2 e (0 : Fin 1))).toInt.toNat 2047, by omega⟩

/-- An edge whose index word, read signed, is `n` names the node `n`. -/
theorem nodeOf_of_lands (d : IVec S4196352 32) (e : Fin 4196352) (n : Fin 2048)
    (h : ((wrapIdx d) (ix2 e (0 : Fin 1))).toInt = (n.val : Int)) : nodeOf d e = n := by
  refine Fin.ext ?_
  show min ((wrapIdx d) (ix2 e (0 : Fin 1))).toInt.toNat 2047 = n.val
  rw [h]
  have := n.isLt
  simp only [Int.toNat_natCast]
  omega

/-- Per edge, the normalisation at its source times that at its destination. -/
theorem norm_apply (s d : IVec S4196352 32) (e : Fin 4196352) :
    RRTerm.norm (F := Ideal) s d (ix1 e)
      = RRTerm.dis (F := Ideal) d (ix1 (nodeOf s e)) * RRTerm.dis (F := Ideal) d (ix1 (nodeOf d e)) := by
  unfold RRTerm.norm
  rw [mulf_apply, gather_nodes_apply, gather_nodes_apply]
  rfl

/-- A per-edge number broadcast along the features reads the edge's number. -/
theorem bcast_edge_apply (v : FVec Ideal S4196352 .f32) (e : Fin 4196352) (k : Fin 32) :
    broadcastInDim S4196352x32 ![0, 1] bcast_S4196352x1_S4196352x32_0_1
      (broadcastInDim S4196352x1 ![0] bcast_S4196352_S4196352x1_0 v) (ix2 e k) = v (ix1 e) := by
  unfold broadcastInDim
  refine congrArg v ?_
  funext a
  match a with
  | ⟨0, _⟩ => rfl

/-- A bias broadcast along the nodes reads the feature's entry. -/
theorem bcast_bias_apply (b : FVec Ideal S32 .f32) (n : Fin 2048) (f : Fin 32) :
    broadcastInDim S2048x32 ![0, 1] bcast_S1x32_S2048x32_0_1 (broadcastInDim S1x32 ![1] bcast_S32_S1x32_1 b) (ix2 n f)
      = b (ix1 f) := by
  unfold broadcastInDim
  refine congrArg b ?_
  funext a
  match a with
  | ⟨0, _⟩ => rfl

/-- Per edge and feature, the source's row of `h · W` times the edge's normalisation. -/
theorem msg_apply (s d : IVec S4196352 32) (h : Vec Ideal S2048x32 .f32) (W : Vec Ideal S32x32 .f32)
    (e : Fin 4196352) (k : Fin 32) :
    RRTerm.msg (F := Ideal) s d h W (ix2 e k)
      = RRTerm.lin (F := Ideal) h W (ix2 (nodeOf s e) k) * RRTerm.norm (F := Ideal) s d (ix1 e) := by
  unfold RRTerm.msg
  rw [mulf_apply, gather_rows_apply, bcast_edge_apply]
  rfl

/-- The aggregate at `(n, f)`: zero plus the messages of the edges whose destination word is `n`. -/
theorem agg_apply (s d : IVec S4196352 32) (h : Vec Ideal S2048x32 .f32) (W : Vec Ideal S32x32 .f32)
    (n : Fin 2048) (f : Fin 32) :
    RRTerm.agg (F := Ideal) s d h W (ix2 n f)
      = 0 + ∑ e ∈ univ.filter (fun e : Fin 4196352 => ((wrapIdx d) (ix2 e (0 : Fin 1))).toInt = (n.val : Int)),
          RRTerm.msg (F := Ideal) s d h W (ix2 e f) := by
  unfold RRTerm.agg
  rw [scatterAdd_rows_apply]
  show Ideal.ofBits .f32 0x00000000#32 + _ = _
  rw [Ideal.ofBits_zero_f32]

/-! ## The layer -/

/-- The specification's `h · W` is real where `h` and `W` are. -/
theorem lin_real (h : Vec Ideal S2048x32 .f32) (W : Vec Ideal S32x32 .f32) (hh : ∀ i, IsReal (h i))
    (hW : ∀ i, IsReal (W i)) (n : Fin 2048) (f : Fin 32) : IsReal (GcnSpec.lin (wts W) (feat h) n f) := by
  unfold GcnSpec.lin
  exact IsReal.sum _ _ fun k => (hh _).mul (hW _)

/-- ONE LAYER: under the edge-list fact, with 0/1 adjacency entries and real features and weights, the reference's
    layer is the specification's graph convolution. -/
theorem layer_eq_spec (s d : IVec S4196352 32) (A : Vec Ideal S2048x2048 .f32) (hA : ∀ i, A i = 0 ∨ A i = 1)
    (hE : EdgeSum s d A) (h : Vec Ideal S2048x32 .f32) (W : Vec Ideal S32x32 .f32) (b : Vec Ideal S32 .f32)
    (hh : ∀ i, IsReal (h i)) (hW : ∀ i, IsReal (W i)) (n : Fin 2048) (f : Fin 32) :
    RRTerm.layer (F := Ideal) s d h W b (ix2 n f) = GcnSpec.conv (adj A) (wts W) (bias b) (feat h) n f := by
  -- real witnesses
  have hl : ∀ i : Fin 2048, IsReal (GcnSpec.lin (wts W) (feat h) i f) := fun i => lin_real h W hh hW i f
  choose l hl using hl
  have hq : ∀ i : Fin 2048, ∃ q : ℝ, GcnSpec.dis (adj A) i = (q : EReal) := fun i => dis_real A hA i
  choose q hq using hq
  have ha : ∀ i : Fin 2048, ∃ a : ℝ, A (ix2 i n) = (a : EReal) ∧ (a = 0 ∨ a = 1) := by
    intro i
    rcases hA (ix2 i n) with h0 | h1
    · exact ⟨0, by rw [h0, EReal.coe_zero], Or.inl rfl⟩
    · exact ⟨1, by rw [h1, EReal.coe_one], Or.inr rfl⟩
  choose a ha ha01 using ha
  -- the per-edge term as a function of the source node's number
  let G : Nat → EReal := fun i =>
    if hi : i < 2048 then (l ⟨i, hi⟩ : EReal) * ((q ⟨i, hi⟩ : EReal) * (q n : EReal)) else 0
  have hG : ∀ i : Fin 2048, G i.val = (l i : EReal) * ((q i : EReal) * (q n : EReal)) := by
    intro i; simp only [G]; rw [dif_pos i.isLt]
  have hmsg : ∀ e ∈ univ.filter (fun e : Fin 4196352 => ((wrapIdx d) (ix2 e (0 : Fin 1))).toInt = (n.val : Int)),
      RRTerm.msg (F := Ideal) s d h W (ix2 e f) = G (min ((wrapIdx s) (ix2 e (0 : Fin 1))).toInt.toNat 2047) := by
    intro e he
    have hland := (Finset.mem_filter.1 he).2
    rw [msg_apply, norm_apply, lin_apply, dis_eq_spec s d A hA hE, dis_eq_spec s d A hA hE,
      nodeOf_of_lands d e n hland, hl, hq, hq]
    exact (hG (nodeOf s e)).symm
  unfold RRTerm.layer
  rw [addf_apply, bcast_bias_apply, agg_apply, Finset.sum_congr rfl hmsg, hE n G, zero_add, hG n]
  rw [Finset.sum_congr rfl (fun i _ => hG i)]
  unfold GcnSpec.conv
  simp only [hl, hq, adj, ha]
  rw [← conv_algebra l q a ha01 n]

/-- The specification's graph convolution is real where everything it reads is. -/
theorem conv_real (A : Vec Ideal S2048x2048 .f32) (hA : ∀ i, A i = 0 ∨ A i = 1)
    (h : Vec Ideal S2048x32 .f32) (W : Vec Ideal S32x32 .f32) (b : Vec Ideal S32 .f32)
    (hh : ∀ i, IsReal (h i)) (hW : ∀ i, IsReal (W i)) (hb : ∀ i, IsReal (b i)) (n : Fin 2048) (f : Fin 32) :
    IsReal (GcnSpec.conv (adj A) (wts W) (bias b) (feat h) n f) := by
  have hq : ∀ i : Fin 2048, IsReal (GcnSpec.dis (adj A) i) := fun i => dis_real A hA i
  have hAr : ∀ i : Fin 2048, IsReal (A (ix2 i n)) := by
    intro i
    rcases hA (ix2 i n) with h0 | h1
    · exact ⟨0, by rw [h0, EReal.coe_zero]⟩
    · exact ⟨1, by rw [h1, EReal.coe_one]⟩
  unfold GcnSpec.conv
  exact ((((IsReal.sum _ _ fun i => ((lin_real h W hh hW i f).mul (hq i)).mul (hAr i)).add
    ((lin_real h W hh hW n f).mul (hq n))).mul (hq n)).add (hb _))

end Cert.RefValue

end
-- ==== Proof.EdgeSpec.lean ====
/-
  What the rest of the proof needs to know about the reference's edge list.

  The reference turns the adjacency array `A` into two integer arrays of length 2048 * 2048 + 2048 (sources
  and destinations: the nonzero entries of `A` in row-major order, padding entries that name the
  out-of-range node 2048, then one self-loop per node).  Every later stage reads them only through
  "which edges land at destination `n`" (a scatter-add keeps an update whose index is in range) and "the
  source of such an edge, clamped into range" (a gather clamps its start index).  The one fact needed is
  that summing any function of the source over the edges landing at `n` is summing it over the rows `i`
  with `A i n ≠ 0`, plus the self-loop's term.
-/
import proofs.«111189_g13383118094673_cont_sun_m_231_3_alg».proof.Proof.RRTerm
import Idealize.ShloMosaic.Lib.ValueIdx

noncomputable section

namespace EdgeSpec

open Idealize.ShloMosaic Idealize.ShloMosaic.ValueIdx Cert.ReferenceIdeal Cert.ReferenceIdeal.RRTerm

variable [Cert.ReferenceIdeal.Facts]

/-- The source node of edge `e` as a gather reads it: the index word read signed, clamped into `0 … 2047`. -/
def srcN (A : Vec Ideal S2048x2048 .f32) (e : Fin 4196352) : Nat :=
  min ((wrapIdx (srcAll (F := Ideal) A)) (ix2 e (0 : Fin 1))).toInt.toNat 2047

/-- Edge `e` lands at destination `n`: its index word, read signed, is `n`. -/
def Lands (A : Vec Ideal S2048x2048 .f32) (e : Fin 4196352) (n : Fin 2048) : Prop :=
  ((wrapIdx (dstAll (F := Ideal) A)) (ix2 e (0 : Fin 1))).toInt = (n.val : Int)

instance (A : Vec Ideal S2048x2048 .f32) (e : Fin 4196352) (n : Fin 2048) : Decidable (Lands A e n) := by
  unfold Lands; infer_instance

/-- The edge list enumerates, for each destination `n`, the rows `i` with `A i n ≠ 0` once each, and the
    self-loop at `n` once. -/
def Holds (A : Vec Ideal S2048x2048 .f32) : Prop :=
  ∀ (n : Fin 2048) (G : Nat → EReal),
    ∑ e ∈ Finset.univ.filter (fun e : Fin 4196352 => Lands A e n), G (srcN A e)
      = (∑ i ∈ Finset.univ.filter (fun i : Fin 2048 => A (ix2 i n) ≠ 0), G i.val) + G n.val

end EdgeSpec

end
-- ==== Proof.RVOut.lean ====
/-
  The reference's result is the specification's network.

  Two layers over the same edge list with a `relu` between and the input added at the end. Each layer is the
  specification's graph convolution (for real features); the hidden features — the maximum of a real number and
  zero — are real again, so the second layer is the convolution of the hidden features.
-/
import proofs.«111189_g13383118094673_cont_sun_m_231_3_alg».proof.Proof.RRTerm
import proofs.«111189_g13383118094673_cont_sun_m_231_3_alg».proof.Proof.RVLayer
import proofs.«111189_g13383118094673_cont_sun_m_231_3_alg».proof.Proof.EdgeSpec
import proofs.«111189_g13383118094673_cont_sun_m_231_3_alg».proof.Proof.Spec

noncomputable section

open scoped BigOperators

namespace Cert.RefValue

open Idealize.ShloMosaic Idealize.ShloMosaic.ValueIdx Finset
open Cert.ReferenceIdeal Cert.ReferenceIdeal.RRTerm

variable [Cert.ReferenceIdeal.Facts]

/-- The `relu` at an index is the maximum with zero. -/
theorem relu_apply (y : Vec Ideal S2048x32 .f32) (i : S2048x32.Idx) :
    RRTerm.relu (F := Ideal) y i = max (y i) 0 := by
  unfold RRTerm.relu
  rw [maximumf_apply]
  show max (y i) (Ideal.ofBits .f32 0x00000000#32) = _
  rw [Ideal.ofBits_zero_f32]

/-- THE NETWORK over any edge list with the edge-list fact. -/
theorem net_eq_spec (s d : IVec S4196352 32) (A : Vec Ideal S2048x2048 .f32) (hA : ∀ i, A i = 0 ∨ A i = 1)
    (hE : EdgeSum s d A) (x : Vec Ideal S2048x32 .f32) (W1 : Vec Ideal S32x32 .f32) (b1 : Vec Ideal S32 .f32)
    (W2 : Vec Ideal S32x32 .f32) (b2 : Vec Ideal S32 .f32)
    (hx : ∀ i, IsReal (x i)) (hW1 : ∀ i, IsReal (W1 i)) (hb1 : ∀ i, IsReal (b1 i)) (hW2 : ∀ i, IsReal (W2 i))
    (n : Fin 2048) (f : Fin 32) :
    addf (F := Ideal) (φ := .f32) (RRTerm.layer (F := Ideal) s d (RRTerm.relu (RRTerm.layer (F := Ideal) s d x W1 b1)) W2 b2)
        x (ix2 n f)
      = GcnSpec.out (adj A) (feat x) (wts W1) (bias b1) (wts W2) (bias b2) n f := by
  have hhid : ∀ i, IsReal (RRTerm.relu (RRTerm.layer (F := Ideal) s d x W1 b1) i) := by
    intro i
    obtain ⟨n', f', rfl⟩ : ∃ (n' : Fin 2048) (f' : Fin 32), i = ix2 n' f' := ⟨i 0, i 1, eq_ix2 i⟩
    rw [relu_apply, layer_eq_spec s d A hA hE x W1 b1 hx hW1 n' f']
    exact (conv_real A hA x W1 b1 hx hW1 hb1 n' f').max_zero
  have hfeat : feat (RRTerm.relu (RRTerm.layer (F := Ideal) s d x W1 b1))
      = fun n' f' => max (GcnSpec.conv (adj A) (wts W1) (bias b1) (feat x) n' f') 0 := by
    funext n' f'
    show RRTerm.relu (RRTerm.layer (F := Ideal) s d x W1 b1) (ix2 n' f') = _
    rw [relu_apply, layer_eq_spec s d A hA hE x W1 b1 hx hW1 n' f']
  rw [addf_apply, layer_eq_spec s d A hA hE _ W2 b2 hhid hW2 n f, hfeat]
  rfl

/-- The edge-list fact about the reference's own edge list, in the form the layers use. -/
theorem edgeSum_of_holds (A : Vec Ideal S2048x2048 .f32) (hE : EdgeSpec.Holds A) :
    EdgeSum (srcAll (F := Ideal) A) (dstAll (F := Ideal) A) A := by
  intro n G
  have h := hE n G
  unfold EdgeSpec.Lands EdgeSpec.srcN at h
  convert h using 2

/-- THE REFERENCE'S VALUE, entry by entry: under the edge-list fact, with 0/1 adjacency entries and every float input
    a real number, the reference's result is the specification's network. -/
theorem out_eq_spec_apply (A : Vec Ideal S2048x2048 .f32) (x : Vec Ideal S2048x32 .f32) (W1 : Vec Ideal S32x32 .f32)
    (b1 : Vec Ideal S32 .f32) (W2 : Vec Ideal S32x32 .f32) (b2 : Vec Ideal S32 .f32)
    (hA : ∀ i, A i = 0 ∨ A i = 1) (hx : ∀ i, x i ≠ ⊤ ∧ x i ≠ ⊥) (hW1 : ∀ i, W1 i ≠ ⊤ ∧ W1 i ≠ ⊥)
    (hb1 : ∀ i, b1 i ≠ ⊤ ∧ b1 i ≠ ⊥) (hW2 : ∀ i, W2 i ≠ ⊤ ∧ W2 i ≠ ⊥) (hb2 : ∀ i, b2 i ≠ ⊤ ∧ b2 i ≠ ⊥)
    (hE : EdgeSpec.Holds A) (n : Fin 2048) (f : Fin 32) :
    RRTerm.out (F := Ideal) A x W1 b1 W2 b2 (ix2 n f)
      = GcnSpec.out (fun i n => A (ix2 i n)) (fun n k => x (ix2 n k)) (fun k f => W1 (ix2 k f)) (fun f => b1 (ix1 f))
          (fun k f => W2 (ix2 k f)) (fun f => b2 (ix1 f)) n f :=
  net_eq_spec (srcAll (F := Ideal) A) (dstAll (F := Ideal) A) A hA (edgeSum_of_holds A hE) x W1 b1 W2 b2
    (fun i => isReal_of_ne (hx i)) (fun i => isReal_of_ne (hW1 i)) (fun i => isReal_of_ne (hb1 i))
    (fun i => isReal_of_ne (hW2 i)) n f

/-- THE REFERENCE'S VALUE as one function of the index. -/
theorem out_eq_spec (A : Vec Ideal S2048x2048 .f32) (x : Vec Ideal S2048x32 .f32) (W1 : Vec Ideal S32x32 .f32)
    (b1 : Vec Ideal S32 .f32) (W2 : Vec Ideal S32x32 .f32) (b2 : Vec Ideal S32 .f32)
    (hA : ∀ i, A i = 0 ∨ A i = 1) (hx : ∀ i, x i ≠ ⊤ ∧ x i ≠ ⊥) (hW1 : ∀ i, W1 i ≠ ⊤ ∧ W1 i ≠ ⊥)
    (hb1 : ∀ i, b1 i ≠ ⊤ ∧ b1 i ≠ ⊥) (hW2 : ∀ i, W2 i ≠ ⊤ ∧ W2 i ≠ ⊥) (hb2 : ∀ i, b2 i ≠ ⊤ ∧ b2 i ≠ ⊥)
    (hE : EdgeSpec.Holds A) :
    RRTerm.out (F := Ideal) A x W1 b1 W2 b2
      = fun j => GcnSpec.out (fun i n => A (ix2 i n)) (fun n k => x (ix2 n k)) (fun k f => W1 (ix2 k f))
          (fun f => b1 (ix1 f)) (fun k f => W2 (ix2 k f)) (fun f => b2 (ix1 f)) (j 0) (j 1) := by
  funext j
  obtain ⟨n, f, rfl⟩ : ∃ (n : Fin 2048) (f : Fin 32), j = ix2 n f := ⟨j 0, j 1, eq_ix2 j⟩
  exact out_eq_spec_apply A x W1 b1 W2 b2 hA hx hW1 hb1 hW2 hb2 hE n f

end Cert.RefValue

end
-- ==== Proof.LibNonzeroEnum.lean ====
/-
  Enumerating the marked positions of a finite sequence by counting.

  Fix a length `M` and a decidable mark on positions.  Let
    cnt p   = the number of marked positions `≤ p`            (an inclusive running count),
    total   = the number of marked positions `< M`,
    D k     = the number of positions `i < M` with `cnt i ≤ k`.
  This is how `nonzero` is computed from two running totals and a histogram: the histogram of the
  running count, summed again, is `D`.  The facts proved here:
    * at a marked position `p < M`:  `D (cnt p - 1) = p`   — `D` undoes the rank of a marked position;
    * `k ↦ D k` on `k < total` runs through the marked positions exactly once, so a sum over the first
      `total` values of `D` is the sum over the marked positions (`sum_enum`);
    * for `total ≤ k`:  `D k = M`   — past the last marked position every position is counted.
-/
import Mathlib.Algebra.BigOperators.Intervals
import Mathlib.Data.Finset.Card
import Mathlib.Tactic

namespace LibNonzeroEnum

open Finset

variable (M : Nat) (mark : Nat → Prop) [DecidablePred mark]

/-- The number of marked positions strictly below `p`. -/
def cntLt (p : Nat) : Nat := ((range p).filter mark).card

/-- The number of marked positions up to and including `p`. -/
def cnt (p : Nat) : Nat := cntLt mark (p + 1)

/-- The number of marked positions below `M`. -/
def total : Nat := cntLt mark M

/-- The number of positions below `M` whose inclusive count is at most `k`. -/
def D (k : Nat) : Nat := ((range M).filter (fun i => cnt mark i ≤ k)).card

theorem cntLt_mono {p q : Nat} (h : p ≤ q) : cntLt mark p ≤ cntLt mark q :=
  card_le_card (filter_subset_filter _ (range_mono h))

theorem cnt_mono {p q : Nat} (h : p ≤ q) : cnt mark p ≤ cnt mark q := cntLt_mono mark (by omega)

theorem cntLt_succ (p : Nat) : cntLt mark (p + 1) = cntLt mark p + (if mark p then 1 else 0) := by
  unfold cntLt
  rw [Finset.range_add_one, filter_insert]
  split_ifs with h
  · rw [card_insert_of_notMem (by simp)]
  · rfl

theorem cnt_eq (p : Nat) : cnt mark p = cntLt mark p + (if mark p then 1 else 0) := cntLt_succ mark p

theorem cntLt_le (p : Nat) : cntLt mark p ≤ p := by
  unfold cntLt
  exact (card_filter_le _ _).trans (card_range p).le

theorem cnt_le_total {p : Nat} (h : p < M) : cnt mark p ≤ total M mark := cntLt_mono mark (by omega)

/-- At a marked position, the positions with a strictly smaller inclusive count are exactly the earlier ones. -/
theorem cnt_lt_iff {p : Nat} (hp : mark p) (i : Nat) : cnt mark i ≤ cnt mark p - 1 ↔ i < p := by
  have hc : cnt mark p = cntLt mark p + 1 := by rw [cnt_eq, if_pos hp]
  constructor
  · intro h
    by_contra hge
    have := cnt_mono mark (Nat.le_of_not_lt hge)
    omega
  · intro h
    have : cnt mark i ≤ cntLt mark p := cntLt_mono mark (by omega)
    omega

/-- `D` undoes the rank of a marked position. -/
theorem D_rank {p : Nat} (hpM : p < M) (hp : mark p) : D M mark (cnt mark p - 1) = p := by
  unfold D
  have : (range M).filter (fun i => cnt mark i ≤ cnt mark p - 1) = range p := by
    ext i
    simp only [mem_filter, mem_range, cnt_lt_iff mark hp]
    omega
  rw [this, card_range]

/-- Past the last marked position every position is counted. -/
theorem D_of_total_le {k : Nat} (hk : total M mark ≤ k) : D M mark k = M := by
  unfold D
  rw [filter_true_of_mem, card_range]
  intro i hi
  exact (cnt_le_total M mark (mem_range.1 hi)).trans hk

theorem D_le (k : Nat) : D M mark k ≤ M := by
  unfold D
  exact (card_filter_le _ _).trans (card_range M).le

/-- The rank of a marked position is below the total. -/
theorem rank_lt_total {p : Nat} (hpM : p < M) (hp : mark p) : cnt mark p - 1 < total M mark := by
  have hc : cnt mark p = cntLt mark p + 1 := by rw [cnt_eq, if_pos hp]
  have := cnt_le_total M mark hpM
  omega

/-- The rank is injective on marked positions. -/
theorem rank_inj {p q : Nat} (hp : mark p) (hq : mark q) (h : cnt mark p - 1 = cnt mark q - 1) : p = q := by
  have hcp : cnt mark p = cntLt mark p + 1 := by rw [cnt_eq, if_pos hp]
  have hcq : cnt mark q = cntLt mark q + 1 := by rw [cnt_eq, if_pos hq]
  rcases Nat.lt_trichotomy p q with hlt | heq | hgt
  · have : cnt mark p ≤ cntLt mark q := cntLt_mono mark (by omega)
    omega
  · exact heq
  · have : cnt mark q ≤ cntLt mark p := cntLt_mono mark (by omega)
    omega

/-- **Enumeration.**  Summing any function over the first `total` values of `D` is summing it over the
    marked positions below `M`. -/
theorem sum_enum {β : Type*} [AddCommMonoid β] (f : Nat → β) :
    ∑ k ∈ range (total M mark), f (D M mark k) = ∑ p ∈ (range M).filter mark, f p := by
  symm
  refine sum_nbij (fun p => cnt mark p - 1) ?_ ?_ ?_ ?_
  · intro p hp
    obtain ⟨hpM, hm⟩ := mem_filter.1 hp
    exact mem_range.2 (rank_lt_total M mark (mem_range.1 hpM) hm)
  · intro p hp q hq h
    exact rank_inj mark (mem_filter.1 (mem_coe.1 hp)).2 (mem_filter.1 (mem_coe.1 hq)).2 h
  · -- onto: an injection between finite sets of equal size
    have hcard : (range (total M mark)).card ≤ ((range M).filter mark).card := by
      rw [card_range]; rfl
    have hmaps : ∀ p ∈ (range M).filter mark, cnt mark p - 1 ∈ range (total M mark) := fun p hp => by
      obtain ⟨hpM, hm⟩ := mem_filter.1 hp
      exact mem_range.2 (rank_lt_total M mark (mem_range.1 hpM) hm)
    have hinj : ∀ (p q : Nat), p ∈ (range M).filter mark → q ∈ (range M).filter mark →
        cnt mark p - 1 = cnt mark q - 1 → p = q := fun p q hp hq h =>
      rank_inj mark (mem_filter.1 hp).2 (mem_filter.1 hq).2 h
    intro k hk
    obtain ⟨p, hp, hpk⟩ := surj_on_of_inj_on_of_card_le (fun p _ => cnt mark p - 1) hmaps hinj hcard k (mem_coe.1 hk)
    exact ⟨p, mem_coe.2 hp, hpk.symm⟩
  · intro p hp
    obtain ⟨hpM, hm⟩ := mem_filter.1 hp
    rw [D_rank M mark (mem_range.1 hpM) hm]

/-- The histogram of the inclusive count, summed up to `k`, is `D k`. -/
theorem sum_bins (k : Nat) :
    ∑ k' ∈ range (k + 1), ((range M).filter (fun i => cnt mark i = k')).card = D M mark k := by
  unfold D
  rw [← card_biUnion]
  · congr 1
    ext i
    simp only [mem_biUnion, mem_range, mem_filter]
    constructor
    · rintro ⟨k', hk', hi, rfl⟩; exact ⟨hi, by omega⟩
    · rintro ⟨hi, hle⟩; exact ⟨cnt mark i, by omega, hi, rfl⟩
  · intro a _ b _ hab
    rw [Function.onFun, disjoint_left]
    intro i hia hib
    exact hab ((mem_filter.1 hia).2.symm.trans (mem_filter.1 hib).2)

end LibNonzeroEnum
-- ==== Proof.LibPrefixSum.lean ====
/-
  A running total written as a padded window reduction.

  `jnp.cumsum` of a rank-one array of `N` integers reaches the host as a `reduce_window` whose window
  is the whole length `N`, stride one, padded `N - 1` on the low side with the additive identity: the
  window at position `j` covers padded positions `j … j + N - 1`, of which exactly the last `j + 1` lie
  inside the array, at array positions `0 … j`.  So entry `j` of the result is the sum of entries
  `0 … j` of the operand — in the ring of 32-bit words, where the order of a sum does not matter.
-/
import Idealize.ShloMosaic.PureOps.Contract
import Idealize.ShloMosaic.Lib.ValueIdx
import Mathlib.Data.BitVec
import Mathlib.Algebra.BigOperators.Intervals

noncomputable section

namespace LibPrefixSum

open Idealize.ShloMosaic Idealize.ShloMosaic.ValueIdx

/-- The multi-indices of a rank-one shape are its one coordinate. -/
def idx1Equiv (n : Nat) : (⟨1, ![n]⟩ : Shape).Idx ≃ Fin n where
  toFun j := j 0
  invFun a := ix1 a
  left_inv j := (eq_ix1 j).symm
  right_inv _ := rfl

/-- A left fold that adds one term per list element is the start value plus the sum of the terms. -/
theorem foldl_add_list {M ι : Type} [AddCommMonoid M] (f : M → M → M) (hf : ∀ a b, f a b = a + b)
    (g : ι → M) (l : List ι) (v : M) :
    l.foldl (fun r k => f r (g k)) v = v + (l.map g).sum := by
  induction l generalizing v with
  | nil => simp
  | cons a l ih => rw [List.foldl_cons, ih, hf, List.map_cons, List.sum_cons, add_assoc]

/-- The same over all of `Fin n` in order. -/
theorem foldl_add_finRange {M : Type} [AddCommMonoid M] (f : M → M → M) (hf : ∀ a b, f a b = a + b)
    (n : Nat) (g : Fin n → M) (v : M) :
    (List.finRange n).foldl (fun r k => f r (g k)) v = v + ∑ k, g k := by
  rw [foldl_add_list f hf g, Fin.sum_univ_def]

/-- A rank-one array continued by zero past its end, as a function of a natural number. -/
def ext0 {N : Nat} (x : (⟨1, ![N]⟩ : Shape).Idx → BitVec 32) (i : Nat) : BitVec 32 :=
  if h : i < N then x (ix1 ⟨i, h⟩) else 0

theorem ext0_lt {N : Nat} (x : (⟨1, ![N]⟩ : Shape).Idx → BitVec 32) (i : Fin N) : ext0 x i.val = x (ix1 i) := by
  unfold ext0; rw [dif_pos i.isLt]

/-- Shifting a window of length `N` that starts `j` places into the low padding: the terms inside the
    array are those of positions `0 … j`. -/
theorem sum_shift (N j0 : Nat) (hj : j0 < N) (X : Nat → BitVec 32) :
    (∑ k ∈ Finset.range N, if N - 1 ≤ j0 + k then X (j0 + k - (N - 1)) else 0)
      = ∑ i ∈ Finset.range (j0 + 1), X i := by
  rw [← Finset.sum_filter]
  have hset : (Finset.range N).filter (fun k => N - 1 ≤ j0 + k) = Finset.Ico (N - 1 - j0) N := by
    ext k; simp only [Finset.mem_filter, Finset.mem_range, Finset.mem_Ico]; omega
  rw [hset, Finset.sum_Ico_eq_sum_range]
  have hlen : N - (N - 1 - j0) = j0 + 1 := by omega
  rw [hlen]
  refine Finset.sum_congr rfl fun i hi => ?_
  have := Finset.mem_range.1 hi
  congr 1; omega

/-- **The running total.**  A window reduction by addition over a rank-one array of `N` words, window `N`,
    stride one, low padding `L = N - 1`, from the initial value zero, holds at position `j` the sum of the
    operand's entries `0 … j`. -/
theorem reduceWindow_cumsum {N L : Nat} (hL : L + 1 = N) (x : (⟨1, ![N]⟩ : Shape).Idx → BitVec 32)
    (init : (⟨0, ![]⟩ : Shape).Idx → BitVec 32) (hinit : ∀ i, init i = 0)
    (h : (⟨1, ![N]⟩ : Shape).ReduceWindows ![N] ![1] ![L] ![0] ⟨1, ![N]⟩) (hu : 0 < (⟨0, ![]⟩ : Shape).numel)
    (j : (⟨1, ![N]⟩ : Shape).Idx) :
    Host.reduceWindow IntOp.addi ![N] ![1] ![L] ![0] x init h hu j
      = ∑ i ∈ Finset.range ((j 0).val + 1), ext0 x i := by
  unfold Host.reduceWindow
  dsimp only
  rw [foldl_add_finRange IntOp.addi (fun _ _ => rfl), hinit, zero_add]
  rw [← Equiv.sum_comp (Shape.rowMajor ⟨1, ![N]⟩)]
  simp only [Equiv.symm_apply_apply]
  rw [← Equiv.sum_comp (idx1Equiv N).symm]
  have hj : (j 0).val < N := (j 0).isLt
  rw [← sum_shift N (j 0).val hj (ext0 x), ← Fin.sum_univ_eq_sum_range]
  refine Finset.sum_congr rfl fun k _ => ?_
  by_cases hc : N - 1 ≤ (j 0).val + k.val
  · have hall : ∀ (a : Fin 1),
          ![L] a ≤ (j (Fin.cast h.1.symm a)).val * ![1] a + ((idx1Equiv N).symm k a).val ∧
            (j (Fin.cast h.1.symm a)).val * ![1] a + ((idx1Equiv N).symm k a).val - ![L] a < ![N] a := by
      intro a
      match a with
      | ⟨0, _⟩ => show L ≤ (j 0).val * 1 + k.val ∧ (j 0).val * 1 + k.val - L < N; omega
    rw [if_pos hc, dif_pos hall]
    unfold ext0
    rw [dif_pos (by omega)]
    congr 1; funext a
    match a with
    | ⟨0, _⟩ => exact Fin.ext (by show (j 0).val * 1 + k.val - L = (j 0).val + k.val - (N - 1); omega)
  · rw [if_neg hc, dif_neg]
    intro hall
    have h2 : L ≤ (j 0).val * 1 + k.val := (hall 0).1
    omega

end LibPrefixSum

end
-- ==== Proof.LibScatterSum.lean ====
/-
  A scatter whose combining operation is an addition, read at one index.

  The host's `scatter` walks the updates in row-major order; each update that lands inside the operand
  replaces the entry it lands on by "entry combined with update".  When the combination is the addition of
  a commutative monoid (32-bit words under wrapping addition, for instance: a histogram by scattering
  ones), the order is immaterial and entry `i` of the result is the operand's entry plus the sum of the
  updates landing on `i`.
-/
import Idealize.ShloMosaic.PureOps.ShapeOps
import Mathlib.Algebra.BigOperators.Fin

noncomputable section

namespace LibScatterSum

open Idealize.ShloMosaic

/-- Summing the values of the list elements that pass a test is summing "value if it passes, else zero". -/
theorem sum_map_filter {ι M : Type} [AddCommMonoid M] (p : ι → Prop) [DecidablePred p] (val : ι → M) (l : List ι) :
    ((l.filter (fun n => p n)).map val).sum = (l.map fun n => if p n then val n else 0).sum := by
  induction l with
  | nil => simp
  | cons a l ih =>
    by_cases h : p a
    · simp [List.filter_cons, h, ih]
    · simp [List.filter_cons, h, ih]

/-- A fold that, for each list element with a target, adds its value into the target's entry: entry `i`
    ends at its start value plus the values of the elements whose target is `i`. -/
theorem foldl_step_apply {ι κ M : Type} [DecidableEq κ] [AddCommMonoid M] (f : M → M → M) (hf : ∀ a b, f a b = a + b)
    (tgt : ι → Option κ) (val : ι → M) (step : (κ → M) → ι → (κ → M))
    (hsome : ∀ r n i0, tgt n = some i0 → step r n = fun i' => if i' = i0 then f (r i0) (val n) else r i')
    (hnone : ∀ r n, tgt n = none → step r n = r)
    (l : List ι) (x : κ → M) (i : κ) :
    (l.foldl step x) i = x i + ((l.filter (fun n => tgt n = some i)).map val).sum := by
  induction l generalizing x with
  | nil => simp
  | cons a l ih =>
    rw [List.foldl_cons, ih]
    cases hta : tgt a with
    | none =>
      rw [hnone x a hta, List.filter_cons, if_neg (by simp [hta])]
    | some i0 =>
      rw [hsome x a i0 hta]
      beta_reduce
      by_cases hi : i = i0
      · subst hi
        rw [if_pos rfl, hf, List.filter_cons, if_pos (by simp [hta]), List.map_cons, List.sum_cons, add_assoc]
      · rw [if_neg hi, List.filter_cons, if_neg (by simpa [hta] using fun h => hi h.symm)]

/-- **A scatter by addition, read at an index**: the operand's entry plus the sum of the updates that land
    there. -/
theorem scatter_add_apply {s si u : Shape} {w : Nat} {M : Type} [AddCommMonoid M] (d : ScatterDims s si u)
    (f : M → M → M) (hf : ∀ a b, f a b = a + b) (x : s.Idx → M) (idx : IVec si w) (upd : u.Idx → M) (i : s.Idx) :
    Host.scatter d f x idx upd i
      = x i + ∑ j ∈ Finset.univ.filter (fun j : u.Idx => d.resultIdx? j idx = some i), upd j := by
  unfold Host.scatter
  rw [foldl_step_apply f hf (fun n => d.resultIdx? (u.rowMajor.symm n) idx) (fun n => upd (u.rowMajor.symm n))
    _ (fun r n i0 h => by simp only [h]) (fun r n h => by simp only [h])]
  congr 1
  rw [sum_map_filter (fun n => d.resultIdx? (u.rowMajor.symm n) idx = some i), ← Fin.sum_univ_def,
    Finset.sum_filter, ← Equiv.sum_comp u.rowMajor]
  simp only [Equiv.symm_apply_apply]

end LibScatterSum

end
-- ==== Proof.NZDefs.lean ====
/-
  The reference's edge list, word by word: the marked positions and the flat mask.

  Notation: `M = 2048 * 2048 = 4194304` flat positions; flat position `p` is entry `(p / 2048, p % 2048)`
  of the adjacency array; a position is MARKED when the entry there is not zero.  With the counting
  functions of the enumeration library (`cnt`: marked positions up to and including `p`; `total`: all
  marked positions; `D k`: positions whose count is at most `k`):
    * the widened flat mask holds the word 1 at marked positions and 0 elsewhere;
    * its running total holds the word `cnt p`;
    * clipping below at zero and wrapping negative indices change nothing (the counts are small and
      non-negative);
    * scattering ones into the counts' bins gives the histogram of `cnt`;
    * the histogram's running total holds the word `D k`.
-/
import proofs.«111189_g13383118094673_cont_sun_m_231_3_alg».proof.Proof.RRTerm
import proofs.«111189_g13383118094673_cont_sun_m_231_3_alg».proof.Proof.LibPrefixSum
import proofs.«111189_g13383118094673_cont_sun_m_231_3_alg».proof.Proof.LibNonzeroEnum
import proofs.«111189_g13383118094673_cont_sun_m_231_3_alg».proof.Proof.LibScatterSum
import Idealize.ShloMosaic.Lib.ValueIdx
import Idealize.ShloMosaic.Lib.IdealHost
import Idealize.ShloMosaic.Lib.Pipeline.Value

noncomputable section

namespace NZWords

open Idealize.ShloMosaic Idealize.ShloMosaic.ValueIdx Cert.ReferenceIdeal Cert.ReferenceIdeal.RRTerm
open Cert.ReferenceIdeal.Facts₀ Cert.ReferenceIdeal.Facts
open LibNonzeroEnum

variable [Cert.ReferenceIdeal.Facts]

/-- Flat position `p` as an entry of the 2048 × 2048 array. -/
def flatIdx (p : Nat) (h : p < 4194304) : S2048x2048.Idx :=
  ix2 (⟨p / 2048, by omega⟩ : Fin 2048) (⟨p % 2048, by omega⟩ : Fin 2048)

/-- Flat position `p` is marked: it is in range and the adjacency entry there is not zero. -/
def Mark (A : Vec Ideal S2048x2048 .f32) (p : Nat) : Prop := ∃ h : p < 4194304, A (flatIdx p h) ≠ 0

instance (A : Vec Ideal S2048x2048 .f32) : DecidablePred (Mark A) := fun _ => Classical.propDecidable _

/-- A rank-zero array broadcast to any shape holds its one element everywhere. -/
theorem bcast0 {α : Type} {t : Shape} (h : S_.BroadcastsInDim t ![]) (v : S_.Idx → α) (j : t.Idx) :
    broadcastInDim t ![] h v j = v ix0 := by
  unfold broadcastInDim
  exact congrArg v (funext fun a => a.elim0)

/-- The widened flat mask: the word 1 at marked positions, 0 elsewhere. -/
theorem maskFlat_apply (A : Vec Ideal S2048x2048 .f32) (p : Fin 4194304) :
    maskFlat (F := Ideal) A (ix1 p) = if Mark A p.val then 1#32 else 0#32 := by
  unfold maskFlat
  rw [extui_apply, shapeCast_apply (mask (F := Ideal) A) shapeCasts_S2048x2048_S4194304 (ix1 p) (flatIdx p.val p.isLt)
    (by rw [Shape.rowMajor_val_two, Shape.rowMajor_val_one]
        show p.val / 2048 * 2048 + p.val % 2048 = p.val
        omega)]
  unfold mask
  rw [cmpf_apply, bcast0, constant_apply, Ideal.ofBits_zero_f32]
  show (Ideal.cmp .une (A (flatIdx p.val p.isLt)) 0).setWidth 32 = _
  unfold Ideal.cmp
  by_cases h : A (flatIdx p.val p.isLt) ≠ 0
  · rw [if_pos ⟨p.isLt, h⟩]; simp [h]
  · rw [if_neg (fun ⟨_, h'⟩ => h h')]; simp [h]

end NZWords

end
-- ==== Proof.NEWords.lean ====
/-
  Small non-negative 32-bit words.

  Every index word of the edge list is the word of a natural number below 2^31.  On such words the
  signed readings are the natural numbers themselves, signed division and remainder are the natural
  quotient and remainder, and the sign-correcting selects of the floor division and of the remainder
  with the divisor's sign never fire.
-/
import Idealize.ShloMosaic.Lib.ValueIdx
import Mathlib.Tactic

namespace NEWords

open Idealize.ShloMosaic Idealize.ShloMosaic.ValueIdx

/-- The word of a natural number. -/
abbrev W (n : Nat) : BitVec 32 := BitVec.ofNat 32 n

theorem toNat_W {n : Nat} (h : n < 2147483648) : (W n).toNat = n := by
  rw [BitVec.toNat_ofNat]; exact Nat.mod_eq_of_lt (by omega)

theorem msb_W {n : Nat} (h : n < 2147483648) : (W n).msb = false := by
  rw [BitVec.msb_eq_false_iff_two_mul_lt, toNat_W h]; omega

theorem toInt_W {n : Nat} (h : n < 2147483648) : (W n).toInt = (n : Int) := by
  rw [BitVec.toInt_eq_toNat_of_msb (msb_W h), toNat_W h]

theorem W_inj {a b : Nat} (ha : a < 2147483648) (hb : b < 2147483648) (h : W a = W b) : a = b := by
  have := congrArg BitVec.toNat h
  rwa [toNat_W ha, toNat_W hb] at this

theorem W_ne_zero {n : Nat} (h : n < 2147483648) (h0 : 0 < n) : W n ≠ 0#32 := by
  intro e
  have := congrArg BitVec.toNat e
  rw [toNat_W h] at this
  simp at this; omega

theorem W_eq_zero_iff {n : Nat} (h : n < 2147483648) : W n = 0#32 ↔ n = 0 := by
  constructor
  · intro e
    have := congrArg BitVec.toNat e
    rw [toNat_W h] at this
    simpa using this
  · rintro rfl; rfl

/-- Signed "less than zero" is false on a small word. -/
theorem slt_zero_W {n : Nat} (h : n < 2147483648) : (W n).slt 0#32 = false := by
  rw [BitVec.slt, toInt_W h]; simp

/-- Signed division of small words is the natural quotient. -/
theorem sdiv_W {a d : Nat} (ha : a < 2147483648) (hd : d < 2147483648) : (W a).sdiv (W d) = W (a / d) := by
  rw [BitVec.sdiv_eq, msb_W ha, msb_W hd]
  show (W a).udiv (W d) = W (a / d)
  apply BitVec.eq_of_toNat_eq
  have hq : a / d < 2147483648 := lt_of_le_of_lt (Nat.div_le_self a d) ha
  rw [BitVec.udiv_eq, BitVec.toNat_udiv, toNat_W ha, toNat_W hd, toNat_W hq]

/-- Signed remainder of small words is the natural remainder. -/
theorem srem_W {a d : Nat} (ha : a < 2147483648) (hd : d < 2147483648) : (W a).srem (W d) = W (a % d) := by
  rw [BitVec.srem_eq, msb_W ha, msb_W hd]
  show (W a).umod (W d) = W (a % d)
  apply BitVec.eq_of_toNat_eq
  have hq : a % d < 2147483648 := lt_of_le_of_lt (Nat.mod_le a d) ha
  rw [BitVec.umod_eq, BitVec.toNat_umod, toNat_W ha, toNat_W hd, toNat_W hq]

/-- A small positive divisor is not at the signed-division corner. -/
theorem not_corner {x : BitVec 32} {d : Nat} (hd : d < 2147483648) (h0 : 0 < d) : ¬ IntOp.SDivCorner x (W d) := by
  rintro (h | ⟨_, h⟩)
  · exact W_ne_zero hd h0 h
  · have := congrArg BitVec.msb h
    rw [msb_W hd] at this
    revert this; decide

theorem divsi_W {a d : Nat} (ha : a < 2147483648) (hd : d < 2147483648) (h0 : 0 < d) :
    IntOp.divsi .host (W a) (W d) = W (a / d) := by
  unfold IntOp.divsi; rw [if_neg (not_corner hd h0), sdiv_W ha hd]

theorem remsi_W {a d : Nat} (ha : a < 2147483648) (hd : d < 2147483648) (h0 : 0 < d) :
    IntOp.remsi .host (W a) (W d) = W (a % d) := by
  unfold IntOp.remsi; rw [if_neg (not_corner hd h0), srem_W ha hd]

/-- The sign word: 0, 1 or -1. -/
def signW (x : BitVec 32) : BitVec 32 := if x = 0 then 0 else if x.msb then -1 else 1

theorem signW_W {n : Nat} (h : n < 2147483648) : signW (W n) = if n = 0 then 0#32 else 1#32 := by
  unfold signW
  by_cases h0 : n = 0
  · subst h0; rfl
  · rw [if_neg (show ¬ W n = (0 : BitVec 32) from W_ne_zero h (by omega)), msb_W h, if_neg h0]; rfl

/-- Floor division of one word by another, as the outlined operation computes it. -/
def floorDivW (x d : BitVec 32) : BitVec 32 :=
  Scalar.select
    (IntOp.andi (IntOp.cmpi .ne (signW x) (signW d)) (IntOp.cmpi .ne (IntOp.remsi .host x d) 0#32))
    (IntOp.subi (IntOp.divsi .host x d) 1#32)
    (IntOp.divsi .host x d)

/-- On small words with a positive divisor the floor division is the natural quotient: either the dividend
    is zero and so is the remainder, or the signs agree. -/
theorem floorDivW_W {a d : Nat} (ha : a < 2147483648) (hd : d < 2147483648) (h0 : 0 < d) :
    floorDivW (W a) (W d) = W (a / d) := by
  unfold floorDivW
  rw [divsi_W ha hd h0, remsi_W ha hd h0, signW_W ha, signW_W hd, if_neg (by omega : ¬ d = 0)]
  have hc : IntOp.andi (IntOp.cmpi .ne (if a = 0 then 0#32 else 1#32) 1#32) (IntOp.cmpi .ne (W (a % d)) 0#32) = 0#1 := by
    by_cases h : a = 0
    · subst h; simp [IntOp.andi, IntOp.cmpi]
    · rw [if_neg h]; simp [IntOp.andi, IntOp.cmpi]
  rw [hc, select_zero]

/-- The remainder with the divisor's sign of one word by another, as the outlined operation computes it. -/
def remW (x d : BitVec 32) : BitVec 32 :=
  Scalar.select
    (IntOp.andi
      (IntOp.cmpi .ne
        (IntOp.cmpi .slt (IntOp.remsi .host x (Scalar.select (IntOp.cmpi .eq d 0#32) 1#32 d)) 0#32)
        (IntOp.cmpi .slt (Scalar.select (IntOp.cmpi .eq d 0#32) 1#32 d) 0#32))
      (IntOp.cmpi .ne (IntOp.remsi .host x (Scalar.select (IntOp.cmpi .eq d 0#32) 1#32 d)) 0#32))
    (IntOp.addi (IntOp.remsi .host x (Scalar.select (IntOp.cmpi .eq d 0#32) 1#32 d)) (Scalar.select (IntOp.cmpi .eq d 0#32) 1#32 d))
    (IntOp.remsi .host x (Scalar.select (IntOp.cmpi .eq d 0#32) 1#32 d))

/-- On small words with a positive divisor that remainder is the natural remainder: the truncated remainder
    is not negative and neither is the divisor. -/
theorem remW_W {a d : Nat} (ha : a < 2147483648) (hd : d < 2147483648) (h0 : 0 < d) :
    remW (W a) (W d) = W (a % d) := by
  unfold remW
  have hsel : Scalar.select (IntOp.cmpi .eq (W d) 0#32) 1#32 (W d) = W d := by
    have : IntOp.cmpi .eq (W d) 0#32 = 0#1 := by
      show BitVec.ofBool (W d == 0#32) = 0#1
      rw [beq_eq_false_iff_ne.2 (W_ne_zero hd h0)]; rfl
    rw [this, select_zero]
  have hq : a % d < 2147483648 := lt_of_le_of_lt (Nat.mod_le a d) ha
  rw [hsel, remsi_W ha hd h0]
  have hc : IntOp.cmpi .ne (IntOp.cmpi .slt (W (a % d)) 0#32) (IntOp.cmpi .slt (W d) 0#32) = 0#1 := by
    simp [IntOp.cmpi, slt_zero_W hq, slt_zero_W hd]
  rw [hc]
  have : IntOp.andi 0#1 (IntOp.cmpi .ne (W (a % d)) 0#32) = 0#1 := by simp [IntOp.andi]
  rw [this, select_zero]

/-- Signed "at least" between small words is the natural order. -/
theorem sge_W {k t : Nat} (hk : k < 2147483648) (ht : t < 2147483648) :
    IntOp.cmpi .sge (W k) (W t) = if t ≤ k then 1#1 else 0#1 := by
  unfold IntOp.cmpi
  simp only [BitVec.sle, toInt_W hk, toInt_W ht]
  by_cases h : t ≤ k
  · rw [if_pos h]; simp [h]
  · rw [if_neg h]; simp [h]

/-- Wrapping a negative index does nothing to a small word. -/
theorem wrap_W {n : Nat} (h : n < 2147483648) (c : BitVec 32) :
    Scalar.select (IntOp.cmpi .slt (W n) 0#32) (IntOp.addi (W n) c) (W n) = W n := by
  have : IntOp.cmpi .slt (W n) 0#32 = 0#1 := by simp [IntOp.cmpi, slt_zero_W h]
  rw [this, select_zero]

end NEWords
-- ==== Proof.NEStages.lean ====
/-
  The reference's edge list, word by word: rows, columns, padding and self-loops.

  Notation: `M = 4194304` flat positions, `T` the number of marked ones, `D k` the number of positions whose
  inclusive count of marked positions is at most `k` (for `k < T` the flat position of the `k`-th marked entry,
  for `T ≤ k` the length `M`).  Given that the second running total holds the word `D k` and the count holds
  the word `T`:
    * the row stage holds the word `D k / 2048 % 2048`, the column stage `D k % 2048` (all words are small and
      non-negative, so the signed division and remainder are the natural ones and no sign correction fires);
    * positions `k ≥ T` are overwritten by the out-of-range node `2048`;
    * appending the self-loops puts the word `e - M` at position `e ≥ M`;
    * wrapping negative indices changes nothing.
-/
import proofs.«111189_g13383118094673_cont_sun_m_231_3_alg».proof.Proof.RRTerm
import proofs.«111189_g13383118094673_cont_sun_m_231_3_alg».proof.Proof.EdgeSpec
import proofs.«111189_g13383118094673_cont_sun_m_231_3_alg».proof.Proof.LibNonzeroEnum
import proofs.«111189_g13383118094673_cont_sun_m_231_3_alg».proof.Proof.NZDefs
import proofs.«111189_g13383118094673_cont_sun_m_231_3_alg».proof.Proof.NEWords
import Idealize.ShloMosaic.Lib.ValueIdx
import Idealize.ShloMosaic.Lib.IdealHost
import Idealize.ShloMosaic.Lib.Pipeline.Value

noncomputable section

namespace NZEdges

open Idealize.ShloMosaic Idealize.ShloMosaic.ValueIdx Cert.ReferenceIdeal Cert.ReferenceIdeal.RRTerm
open Cert.ReferenceIdeal.Facts₀ Cert.ReferenceIdeal.Facts
open NEWords

variable [Cert.ReferenceIdeal.Facts]

/-- A scalar broadcast to the flat length reads the scalar everywhere. -/
theorem bc4 {α : Type} (v : S_.Idx → α) (i : S4194304.Idx) :
    broadcastInDim S4194304 ![] bcast_S_S4194304 v i = v ix0 := NZWords.bcast0 _ v i

/-- A scalar broadcast to the edge-list length reads the scalar everywhere. -/
theorem bc6 {α : Type} (v : S_.Idx → α) (i : S4196352.Idx) :
    broadcastInDim S4196352 ![] bcast_S_S4196352 v i = v ix0 := NZWords.bcast0 _ v i

/-! ## The outlined integer operations at an index -/

/-- The floor division at an index is the word-level floor division of the element by the scalar. -/
theorem floorDiv_apply (x : IVec S4194304 32) (d : IVec S_ 32) (i : S4194304.Idx) :
    floorDiv x d i = floorDivW (x i) (d ix0) := by
  simp only [floorDiv, select, andi, cmpi, subi, Host.divsi, Host.remsi, constantI, signi]
  repeat rw [bc4]
  rfl

/-- The remainder at an index is the word-level remainder of the element by the scalar. -/
theorem remainder_apply (x : IVec S4194304 32) (d : IVec S_ 32) (i : S4194304.Idx) :
    remainder x d i = remW (x i) (d ix0) := by
  simp only [remainder, remTrunc, remDivisor, select, andi, cmpi, addi, Host.remsi, constantI, id_eq]
  repeat rw [bc4]
  rfl

/-! ## Rows, columns and padding -/

section Stages

variable (A : Vec Ideal S2048x2048 .f32)

/-- The number of flat positions whose inclusive count of marked positions is at most `k`. -/
abbrev Dk (k : Nat) : Nat := LibNonzeroEnum.D 4194304 (NZWords.Mark A) k

/-- The number of marked positions. -/
abbrev Tot : Nat := LibNonzeroEnum.total 4194304 (NZWords.Mark A)

theorem Dk_le (k : Nat) : Dk A k ≤ 4194304 := LibNonzeroEnum.D_le _ _ k

theorem Dk_lt (k : Nat) : Dk A k < 2147483648 := lt_of_le_of_lt (Dk_le A k) (by norm_num)

theorem Tot_le : Tot A ≤ 4194304 := LibNonzeroEnum.cntLt_le _ _

/-- The row stage: the word `D k / 2048 % 2048`. -/
theorem rowIdx_apply
    (hcum2 : ∀ k : Fin 4194304, cum2 (F := Ideal) A (ix1 k) = ((Dk A k.val : ℕ) : BitVec 32))
    (k : Fin 4194304) : rowIdx (F := Ideal) A (ix1 k) = W (Dk A k.val / 2048 % 2048) := by
  unfold rowIdx
  rw [remainder_apply, floorDiv_apply, hcum2, BitVec.natCast_eq_ofNat]
  show remW (floorDivW (W (Dk A k.val)) (W 2048)) (W 2048) = _
  rw [floorDivW_W (Dk_lt A _) (by norm_num) (by norm_num),
    remW_W (lt_of_le_of_lt (Nat.div_le_self _ _) (Dk_lt A _)) (by norm_num) (by norm_num)]

/-- The column stage: the word `D k % 2048`. -/
theorem colIdx_apply
    (hcum2 : ∀ k : Fin 4194304, cum2 (F := Ideal) A (ix1 k) = ((Dk A k.val : ℕ) : BitVec 32))
    (k : Fin 4194304) : colIdx (F := Ideal) A (ix1 k) = W (Dk A k.val % 2048) := by
  unfold colIdx
  rw [remainder_apply, floorDiv_apply, hcum2, BitVec.natCast_eq_ofNat]
  show remW (floorDivW (W (Dk A k.val)) (W 1)) (W 2048) = _
  rw [floorDivW_W (Dk_lt A _) (by norm_num) (by norm_num),
    remW_W (lt_of_le_of_lt (Nat.div_le_self _ _) (Dk_lt A _)) (by norm_num) (by norm_num), Nat.div_one]

/-- The padding mask: positions from the number of marked entries on. -/
theorem fill_apply
    (htotal : RRTerm.total (F := Ideal) A ix0 = ((Tot A : ℕ) : BitVec 32))
    (k : Fin 4194304) : fill (F := Ideal) A (ix1 k) = if Tot A ≤ k.val then 1#1 else 0#1 := by
  unfold fill
  simp only [cmpi]
  rw [bc4, htotal, BitVec.natCast_eq_ofNat]
  show IntOp.cmpi .sge (W k.val) (W (Tot A)) = _
  exact sge_W (by omega) (by have := Tot_le A; omega)

/-- A scalar selected where a mask holds, at an index. -/
theorem whereScalar_apply (c : IVec S4194304 1) (v : IVec S_ 32) (x : IVec S4194304 32) (i : S4194304.Idx) :
    whereScalar c v x i = Scalar.select (c i) (v ix0) (x i) := by
  simp only [whereScalar, select, id_eq]
  rw [bc4]

/-- The sources: the row of the `k`-th marked entry, the node `2048` past the last one. -/
theorem src_apply
    (hcum2 : ∀ k : Fin 4194304, cum2 (F := Ideal) A (ix1 k) = ((Dk A k.val : ℕ) : BitVec 32))
    (htotal : RRTerm.total (F := Ideal) A ix0 = ((Tot A : ℕ) : BitVec 32))
    (k : Fin 4194304) :
    src (F := Ideal) A (ix1 k) = if Tot A ≤ k.val then W 2048 else W (Dk A k.val / 2048 % 2048) := by
  unfold src
  rw [whereScalar_apply, fill_apply A htotal, rowIdx_apply A hcum2]
  by_cases h : Tot A ≤ k.val
  · rw [if_pos h, if_pos h, select_one]; rfl
  · rw [if_neg h, if_neg h, select_zero]

/-- The destinations: the column of the `k`-th marked entry, the node `2048` past the last one. -/
theorem dst_apply
    (hcum2 : ∀ k : Fin 4194304, cum2 (F := Ideal) A (ix1 k) = ((Dk A k.val : ℕ) : BitVec 32))
    (htotal : RRTerm.total (F := Ideal) A ix0 = ((Tot A : ℕ) : BitVec 32))
    (k : Fin 4194304) :
    dst (F := Ideal) A (ix1 k) = if Tot A ≤ k.val then W 2048 else W (Dk A k.val % 2048) := by
  unfold dst
  rw [whereScalar_apply, fill_apply A htotal, colIdx_apply A hcum2]
  by_cases h : Tot A ≤ k.val
  · rw [if_pos h, if_pos h, select_one]; rfl
  · rw [if_neg h, if_neg h, select_zero]

end Stages

/-! ## The self-loops and the index wrap -/

/-- Below the flat length the extended list is the list itself. -/
theorem withLoops_left (x : IVec S4194304 32) (e : Fin 4196352) (h : e.val < 4194304) :
    withLoops x (ix1 e) = x (ix1 (⟨e.val, h⟩ : Fin 4194304)) := by
  unfold withLoops
  exact concatenate_pair_apply_left (0 : Fin S4196352.rank) x (iotaInDim S2048 32 0)
    concatenates_S4194304_S2048_S4196352_d0 (ix1 e) rfl (ix1 (⟨e.val, h⟩ : Fin 4194304))
    (fun b => by match b with | ⟨0, _⟩ => rfl)

/-- From the flat length on the extended list holds the self-loops: node `e - 4194304` at position `e`. -/
theorem withLoops_right (x : IVec S4194304 32) (e : Fin 4196352) (h : 4194304 ≤ e.val) :
    withLoops x (ix1 e) = W (e.val - 4194304) := by
  unfold withLoops
  rw [concatenate_pair_apply_right (0 : Fin S4196352.rank) x (iotaInDim S2048 32 0)
    concatenates_S4194304_S2048_S4196352_d0 (ix1 e) rfl rfl
    (ix1 (⟨e.val - 4194304, by have := e.isLt; omega⟩ : Fin 2048))
    (fun b hb => by match b with | ⟨0, _⟩ => exact absurd rfl hb)
    (by show e.val - 4194304 + 4194304 = e.val; omega)]
  rfl

/-- The index wrap at an edge: the select on "negative" of the edge's word. -/
theorem wrapIdx_apply (x : IVec S4196352 32) (e : Fin 4196352) :
    wrapIdx x (ix2 e (0 : Fin 1))
      = Scalar.select (IntOp.cmpi .slt (x (ix1 e)) 0#32) (IntOp.addi (x (ix1 e)) 2048#32) (x (ix1 e)) := by
  unfold wrapIdx
  rw [broadcastInDim_apply ![0] bcast_S4196352_S4196352x1_0 _ (ix2 e (0 : Fin 1)) (ix1 e)
    (fun a => by match a with | ⟨0, _⟩ => rfl)]
  simp only [select, cmpi, addi]
  repeat rw [bc6]
  rfl

/-! ## Every edge's two words -/

section Edges

variable (A : Vec Ideal S2048x2048 .f32)

/-- The destination node of edge `e`, as a natural number. -/
def dstNat (e : Nat) : Nat :=
  if e < Tot A then Dk A e % 2048 else if e < 4194304 then 2048 else e - 4194304

/-- The source node of edge `e`, as a natural number. -/
def srcNat (e : Nat) : Nat :=
  if e < Tot A then Dk A e / 2048 % 2048 else if e < 4194304 then 2048 else e - 4194304

theorem dstNat_lt {e : Nat} (h : e < 4196352) : dstNat A e < 2147483648 := by
  unfold dstNat
  split_ifs <;> omega

theorem srcNat_lt {e : Nat} (h : e < 4196352) : srcNat A e < 2147483648 := by
  unfold srcNat
  split_ifs <;> omega

theorem dstAll_apply
    (hcum2 : ∀ k : Fin 4194304, cum2 (F := Ideal) A (ix1 k) = ((Dk A k.val : ℕ) : BitVec 32))
    (htotal : RRTerm.total (F := Ideal) A ix0 = ((Tot A : ℕ) : BitVec 32))
    (e : Fin 4196352) : dstAll (F := Ideal) A (ix1 e) = W (dstNat A e.val) := by
  unfold dstAll dstNat
  have hT := Tot_le A
  by_cases h : e.val < 4194304
  · rw [withLoops_left _ e h, dst_apply A hcum2 htotal]
    show (if Tot A ≤ e.val then W 2048 else W (Dk A e.val % 2048)) = _
    by_cases ht : e.val < Tot A
    · rw [if_neg (by omega), if_pos ht]
    · rw [if_pos (by omega), if_neg ht, if_pos h]
  · rw [withLoops_right _ e (by omega), if_neg (by omega), if_neg h]

theorem srcAll_apply
    (hcum2 : ∀ k : Fin 4194304, cum2 (F := Ideal) A (ix1 k) = ((Dk A k.val : ℕ) : BitVec 32))
    (htotal : RRTerm.total (F := Ideal) A ix0 = ((Tot A : ℕ) : BitVec 32))
    (e : Fin 4196352) : srcAll (F := Ideal) A (ix1 e) = W (srcNat A e.val) := by
  unfold srcAll srcNat
  have hT := Tot_le A
  by_cases h : e.val < 4194304
  · rw [withLoops_left _ e h, src_apply A hcum2 htotal]
    show (if Tot A ≤ e.val then W 2048 else W (Dk A e.val / 2048 % 2048)) = _
    by_cases ht : e.val < Tot A
    · rw [if_neg (by omega), if_pos ht]
    · rw [if_pos (by omega), if_neg ht, if_pos h]
  · rw [withLoops_right _ e (by omega), if_neg (by omega), if_neg h]

/-- Edge `e` lands at `n` exactly when its destination number is `n`. -/
theorem lands_iff
    (hcum2 : ∀ k : Fin 4194304, cum2 (F := Ideal) A (ix1 k) = ((Dk A k.val : ℕ) : BitVec 32))
    (htotal : RRTerm.total (F := Ideal) A ix0 = ((Tot A : ℕ) : BitVec 32))
    (e : Fin 4196352) (n : Fin 2048) : EdgeSpec.Lands A e n ↔ dstNat A e.val = n.val := by
  unfold EdgeSpec.Lands
  rw [wrapIdx_apply, dstAll_apply A hcum2 htotal, wrap_W (dstNat_lt A e.isLt), toInt_W (dstNat_lt A e.isLt)]
  exact Int.natCast_inj

/-- The clamped source of edge `e` is its source number, capped at 2047. -/
theorem srcN_eq
    (hcum2 : ∀ k : Fin 4194304, cum2 (F := Ideal) A (ix1 k) = ((Dk A k.val : ℕ) : BitVec 32))
    (htotal : RRTerm.total (F := Ideal) A ix0 = ((Tot A : ℕ) : BitVec 32))
    (e : Fin 4196352) : EdgeSpec.srcN A e = min (srcNat A e.val) 2047 := by
  unfold EdgeSpec.srcN
  rw [wrapIdx_apply, srcAll_apply A hcum2 htotal, wrap_W (srcNat_lt A e.isLt), toInt_W (srcNat_lt A e.isLt),
    Int.toNat_natCast]

end Edges

end NZEdges

end
-- ==== Proof.NESum.lean ====
/-
  The reference's edge list enumerates, for each destination, the nonzero rows of that column once each
  and the self-loop once.

  With `M = 4194304` flat positions and `T` marked ones, edge `e` has
    destination `D e % 2048` and source `D e / 2048 % 2048`  for `e < T`  (`D e` the flat position of the
                                                               `e`-th marked entry),
    destination and source `2048`                             for `T ≤ e < M` (it lands nowhere),
    destination and source `e - M`                            for `M ≤ e`     (the self-loops).
  Summing a function of the source over the edges landing at `n` therefore splits into three ranges: the first is,
  by the enumeration of the marked positions, the sum over the marked flat positions in column `n`, that is over
  the rows `i` with `A i n ≠ 0` (`p ↦ p / 2048`, inverse `i ↦ i * 2048 + n`); the second is empty; the third is the
  single term at `e = M + n`.
-/
import proofs.«111189_g13383118094673_cont_sun_m_231_3_alg».proof.Proof.NEStages
import Mathlib.Algebra.BigOperators.Intervals
import Mathlib.Algebra.BigOperators.Fin

noncomputable section

namespace NZEdges

open Idealize.ShloMosaic Idealize.ShloMosaic.ValueIdx Cert.ReferenceIdeal Cert.ReferenceIdeal.RRTerm
open Cert.ReferenceIdeal.Facts₀ Cert.ReferenceIdeal.Facts
open NEWords Finset

variable [Cert.ReferenceIdeal.Facts]

variable (A : Vec Ideal S2048x2048 .f32)

/-- A flat position is the entry at its quotient and remainder by the row length. -/
theorem flatIdx_eq (p : Nat) (h : p < 4194304) (i n : Fin 2048) (hi : p / 2048 = i.val) (hn : p % 2048 = n.val) :
    NZWords.flatIdx p h = ix2 i n := by
  unfold NZWords.flatIdx
  have e1 : (⟨p / 2048, by omega⟩ : Fin 2048) = i := Fin.ext hi
  have e2 : (⟨p % 2048, by omega⟩ : Fin 2048) = n := Fin.ext hn
  rw [e1, e2]

/-- The marked flat positions in column `n` are the rows `i` with `A i n ≠ 0`. -/
theorem sum_marked_col (n : Fin 2048) (G : Nat → EReal) :
    ∑ p ∈ (range 4194304).filter (NZWords.Mark A),
        (if p % 2048 = n.val then G (min (p / 2048 % 2048) 2047) else 0)
      = ∑ i ∈ univ.filter (fun i : Fin 2048 => A (ix2 i n) ≠ 0), G i.val := by
  rw [← sum_filter]
  symm
  refine sum_nbij' (fun i => i.val * 2048 + n.val)
    (fun p => (⟨p / 2048 % 2048, Nat.mod_lt _ (by norm_num)⟩ : Fin 2048)) ?_ ?_ ?_ ?_ ?_
  · intro i hi
    have hA := (mem_filter.1 hi).2
    have hlt : i.val * 2048 + n.val < 4194304 := by have := i.isLt; have := n.isLt; omega
    rw [mem_filter, mem_filter, mem_range]
    refine ⟨⟨hlt, hlt, ?_⟩, by have := n.isLt; omega⟩
    rw [flatIdx_eq _ hlt i n (by have := n.isLt; omega) (by have := n.isLt; omega)]
    exact hA
  · intro p hp
    obtain ⟨hp1, hpn⟩ := mem_filter.1 hp
    obtain ⟨hpM, hlt, hA⟩ := mem_filter.1 hp1
    rw [mem_filter]
    refine ⟨mem_univ _, ?_⟩
    rw [flatIdx_eq p hlt (⟨p / 2048 % 2048, Nat.mod_lt _ (by norm_num)⟩ : Fin 2048) n
      (by show p / 2048 = p / 2048 % 2048; omega) hpn] at hA
    exact hA
  · intro i _
    apply Fin.ext
    show (i.val * 2048 + n.val) / 2048 % 2048 = i.val
    have := i.isLt; have := n.isLt; omega
  · intro p hp
    obtain ⟨hp1, hpn⟩ := mem_filter.1 hp
    have hpM := mem_range.1 (mem_filter.1 hp1).1
    show p / 2048 % 2048 * 2048 + n.val = p
    omega
  · intro i _
    show G i.val = G (min ((i.val * 2048 + n.val) / 2048 % 2048) 2047)
    have hi := i.isLt
    have hn := n.isLt
    rw [(by omega : min ((i.val * 2048 + n.val) / 2048 % 2048) 2047 = i.val)]

/-- The term edge `k` contributes at destination `n`. -/
def edgeTerm (n : Fin 2048) (G : Nat → EReal) (k : Nat) : EReal :=
  if dstNat A k = n.val then G (min (srcNat A k) 2047) else 0

/-- The listed edges: by the enumeration, the marked positions in column `n`. -/
theorem sum_listed (n : Fin 2048) (G : Nat → EReal) :
    ∑ k ∈ range (Tot A), edgeTerm A n G k
      = ∑ i ∈ univ.filter (fun i : Fin 2048 => A (ix2 i n) ≠ 0), G i.val := by
  rw [← sum_marked_col A n G,
    ← LibNonzeroEnum.sum_enum 4194304 (NZWords.Mark A)
      (fun p => if p % 2048 = n.val then G (min (p / 2048 % 2048) 2047) else 0)]
  refine sum_congr rfl (fun k hk => ?_)
  have hk' := mem_range.1 hk
  unfold edgeTerm dstNat srcNat
  rw [if_pos hk', if_pos hk']

theorem dstNat_pad {k : Nat} (h1 : Tot A ≤ k) (h2 : k < 4194304) : dstNat A k = 2048 := by
  unfold dstNat
  rw [if_neg (by omega : ¬ k < Tot A), if_pos h2]

theorem dstNat_loop {k : Nat} (h : 4194304 ≤ k) : dstNat A k = k - 4194304 := by
  have hT := Tot_le A
  unfold dstNat
  rw [if_neg (by omega : ¬ k < Tot A), if_neg (by omega : ¬ k < 4194304)]

theorem srcNat_loop {k : Nat} (h : 4194304 ≤ k) : srcNat A k = k - 4194304 := by
  have hT := Tot_le A
  unfold srcNat
  rw [if_neg (by omega : ¬ k < Tot A), if_neg (by omega : ¬ k < 4194304)]

/-- The padding edges land nowhere. -/
theorem sum_padding (n : Fin 2048) (G : Nat → EReal) :
    ∑ k ∈ Ico (Tot A) 4194304, edgeTerm A n G k = 0 := by
  refine sum_eq_zero (fun k hk => ?_)
  obtain ⟨h1, h2⟩ := mem_Ico.1 hk
  have hn := n.isLt
  unfold edgeTerm
  rw [dstNat_pad A h1 h2, if_neg (by omega : ¬ 2048 = n.val)]

/-- Of the self-loops exactly the one at `n` lands at `n`. -/
theorem sum_loops (n : Fin 2048) (G : Nat → EReal) :
    ∑ k ∈ Ico 4194304 4196352, edgeTerm A n G k = G n.val := by
  have hn := n.isLt
  rw [sum_eq_single (4194304 + n.val)]
  · unfold edgeTerm
    rw [dstNat_loop A (by omega), srcNat_loop A (by omega),
      if_pos (by omega : 4194304 + n.val - 4194304 = n.val),
      (by omega : min (4194304 + n.val - 4194304) 2047 = n.val)]
  · intro k hk hne
    obtain ⟨h1, h2⟩ := mem_Ico.1 hk
    unfold edgeTerm
    rw [dstNat_loop A h1, if_neg (by omega : ¬ k - 4194304 = n.val)]
  · intro h
    exact absurd (mem_Ico.2 ⟨by omega, by omega⟩) h

/-- **The edge list.**  Summing any function of the clamped source over the edges landing at `n` is summing it
    over the rows `i` with `A i n ≠ 0`, plus the self-loop's term. -/
theorem edges_hold
    (hcum2 : ∀ k : Fin 4194304, cum2 (F := Ideal) A (ix1 k)
      = ((LibNonzeroEnum.D 4194304 (NZWords.Mark A) k.val : ℕ) : BitVec 32))
    (htotal : RRTerm.total (F := Ideal) A ix0
      = ((LibNonzeroEnum.total 4194304 (NZWords.Mark A) : ℕ) : BitVec 32)) :
    EdgeSpec.Holds A := by
  intro n G
  have hterm : ∀ e : Fin 4196352,
      (if EdgeSpec.Lands A e n then G (EdgeSpec.srcN A e) else 0) = edgeTerm A n G e.val := by
    intro e
    unfold edgeTerm
    rw [srcN_eq A hcum2 htotal e]
    by_cases h : EdgeSpec.Lands A e n
    · rw [if_pos h, if_pos ((lands_iff A hcum2 htotal e n).1 h)]
    · rw [if_neg h, if_neg (fun h' => h ((lands_iff A hcum2 htotal e n).2 h'))]
  rw [sum_filter, sum_congr rfl (fun e _ => hterm e), Fin.sum_univ_eq_sum_range (edgeTerm A n G) 4196352,
    ← sum_range_add_sum_Ico (edgeTerm A n G) (show 4194304 ≤ 4196352 by norm_num),
    ← sum_range_add_sum_Ico (edgeTerm A n G) (Tot_le A),
    sum_listed, sum_padding, sum_loops, add_zero]

end NZEdges

end
-- ==== Proof.NZCount.lean ====
/-
  The reference's edge list, word by word: the counting stages.

  With `cnt`, `total` and `D` the counting functions of the marked flat positions (a position is marked
  when the adjacency entry there is not zero):
    * the running total of the widened flat mask holds the word `cnt p` at position `p`;
    * clipping below at zero and wrapping negative indices change nothing: the counts are between 0 and
      `2048 * 2048`;
    * scattering ones into the counts' bins gives the histogram of `cnt`;
    * the histogram's running total holds the word `D k` at position `k`;
    * the sum of the widened mask holds the word `total`.
-/
import proofs.«111189_g13383118094673_cont_sun_m_231_3_alg».proof.Proof.NZDefs
import proofs.«111189_g13383118094673_cont_sun_m_231_3_alg».proof.Proof.RVScatter
import Idealize.ShloMosaic.PureOps.Reduce

noncomputable section

namespace NZWords

open Idealize.ShloMosaic Idealize.ShloMosaic.ValueIdx Cert.ReferenceIdeal Cert.ReferenceIdeal.RRTerm
open Cert.ReferenceIdeal.Facts₀ Cert.ReferenceIdeal.Facts
open LibNonzeroEnum LibPrefixSum

variable [Cert.ReferenceIdeal.Facts]

/-- The flat mask continued by zero: the word 1 exactly at marked positions. -/
theorem ext0_maskFlat (A : Vec Ideal S2048x2048 .f32) (i : Nat) :
    ext0 (maskFlat (F := Ideal) A) i = if Mark A i then 1 else 0 := by
  unfold ext0
  by_cases h : i < 4194304
  · rw [dif_pos h, maskFlat_apply A ⟨i, h⟩]; rfl
  · rw [dif_neg h, if_neg (fun ⟨h', _⟩ => h h')]

/-- The running total of the flat mask holds the inclusive count of marked positions. -/
theorem cum_apply (A : Vec Ideal S2048x2048 .f32) (p : Fin 4194304) :
    cum (F := Ideal) A (ix1 p) = ((cnt (Mark A) p.val : ℕ) : BitVec 32) := by
  unfold cum cumsum
  rw [reduceWindow_cumsum (N := 4194304) (L := 4194303) rfl (maskFlat (F := Ideal) A) _ (fun i => by rw [bcast0]; rfl)]
  simp only [ext0_maskFlat]
  rw [Finset.sum_boole]
  rfl

/-! ## Small non-negative words -/

theorem natCast_toNat {n : Nat} (h : n < 2 ^ 31) : ((n : ℕ) : BitVec 32).toNat = n := by
  rw [BitVec.natCast_eq_ofNat, BitVec.toNat_ofNat]; omega

theorem natCast_toInt {n : Nat} (h : n < 2 ^ 31) : ((n : ℕ) : BitVec 32).toInt = (n : Int) := by
  rw [BitVec.toInt_eq_toNat_of_lt (by rw [natCast_toNat h]; omega), natCast_toNat h]

theorem natCast_slt_zero {n : Nat} (h : n < 2 ^ 31) : ((n : ℕ) : BitVec 32).slt 0#32 = false := by
  unfold BitVec.slt
  rw [natCast_toInt h]
  simp

theorem cnt_lt (A : Vec Ideal S2048x2048 .f32) (p : Fin 4194304) : cnt (Mark A) p.val < 2 ^ 31 := by
  have := cntLt_le (Mark A) (p.val + 1)
  have hp := p.isLt
  unfold cnt; omega

/-- Clipping the counts below at zero changes nothing. -/
theorem clipped_apply (A : Vec Ideal S2048x2048 .f32) (p : Fin 4194304) :
    clipped (F := Ideal) A (ix1 p) = cum (F := Ideal) A (ix1 p) := by
  unfold clipped
  show IntOp.maxsi (broadcastInDim S4194304 ![] bcast_S_S4194304 (id (constantI S_ 32 0#32)) (ix1 p)) (cum (F := Ideal) A (ix1 p)) = _
  rw [bcast0]
  show IntOp.maxsi 0#32 (cum (F := Ideal) A (ix1 p)) = _
  unfold IntOp.maxsi
  rw [cum_apply, natCast_slt_zero (cnt_lt A p)]
  rfl

/-- The counts as scatter positions: wrapping a negative index changes nothing. -/
theorem binIdx_apply (A : Vec Ideal S2048x2048 .f32) (p : Fin 4194304) :
    binIdx (F := Ideal) A (ix2 p (0 : Fin 1)) = ((cnt (Mark A) p.val : ℕ) : BitVec 32) := by
  unfold binIdx
  rw [broadcastInDim_apply _ _ _ _ (ix1 p) (fun a => by match a with | ⟨0, _⟩ => rfl)]
  rw [select_apply]
  show Scalar.select (IntOp.cmpi .slt (clipped (F := Ideal) A (ix1 p)) (broadcastInDim S4194304 ![] bcast_S_S4194304 (constantI S_ 32 0#32) (ix1 p))) _ (clipped (F := Ideal) A (ix1 p)) = _
  rw [bcast0, clipped_apply, cum_apply]
  show Scalar.select (IntOp.cmpi .slt ((cnt (Mark A) p.val : ℕ) : BitVec 32) 0#32) _ _ = _
  unfold IntOp.cmpi
  rw [natCast_slt_zero (cnt_lt A p)]
  exact select_zero _ _

/-- The histogram of the counts: bin `k` holds the number of flat positions whose count is `k`. -/
theorem bins_apply (A : Vec Ideal S2048x2048 .f32) (k : Fin 4194304) :
    bins (F := Ideal) A (ix1 k)
      = ((((Finset.range 4194304).filter (fun i => cnt (Mark A) i = k.val)).card : ℕ) : BitVec 32) := by
  unfold bins
  rw [LibScatterSum.scatter_add_apply _ IntOp.addi (fun _ _ => rfl), bcast0]
  show (0#32 : BitVec 32) + _ = _
  rw [BitVec.zero_add]
  simp only [bcast0]
  show ∑ _j ∈ _, (1 : BitVec 32) = _
  rw [Finset.sum_const, nsmul_one]
  refine congrArg (fun n : ℕ => (n : BitVec 32)) ?_
  refine Finset.card_bij (fun j _ => (j 0).val) ?_ ?_ ?_
  · intro j hj
    obtain ⟨p, rfl⟩ : ∃ p : Fin 4194304, j = ix1 p := ⟨j 0, eq_ix1 j⟩
    have hj' := (Finset.mem_filter.1 hj).2
    have h2 := (Cert.RefValue.resultIdx?_vec (N := 4194304) (E := 4194304) scatter_S4194304_S4194304x1_S4194304_n_0_0_1_wf
      p (binIdx (F := Ideal) A) k).1 hj'
    rw [binIdx_apply, natCast_toInt (cnt_lt A p)] at h2
    exact Finset.mem_filter.2 ⟨Finset.mem_range.2 p.isLt, by exact_mod_cast h2⟩
  · intro j _ j' _ h
    obtain ⟨p, rfl⟩ : ∃ p : Fin 4194304, j = ix1 p := ⟨j 0, eq_ix1 j⟩
    obtain ⟨q, rfl⟩ : ∃ q : Fin 4194304, j' = ix1 q := ⟨j' 0, eq_ix1 j'⟩
    exact congrArg ix1 (Fin.ext h)
  · intro i hi
    obtain ⟨hiM, hc⟩ := Finset.mem_filter.1 hi
    have hiM' := Finset.mem_range.1 hiM
    refine ⟨ix1 ⟨i, hiM'⟩, Finset.mem_filter.2 ⟨Finset.mem_univ _, ?_⟩, rfl⟩
    refine (Cert.RefValue.resultIdx?_vec (N := 4194304) (E := 4194304) scatter_S4194304_S4194304x1_S4194304_n_0_0_1_wf
      ⟨i, hiM'⟩ (binIdx (F := Ideal) A) k).2 ?_
    rw [binIdx_apply, natCast_toInt (cnt_lt A ⟨i, hiM'⟩)]
    exact_mod_cast hc

/-- The histogram's running total holds `D k`: the number of flat positions whose count is at most `k`. -/
theorem cum2_apply (A : Vec Ideal S2048x2048 .f32) (k : Fin 4194304) :
    cum2 (F := Ideal) A (ix1 k) = ((D 4194304 (Mark A) k.val : ℕ) : BitVec 32) := by
  unfold cum2 cumsum
  rw [reduceWindow_cumsum (N := 4194304) (L := 4194303) rfl (bins (F := Ideal) A) _ (fun i => by rw [bcast0]; rfl)]
  rw [← sum_bins, Nat.cast_sum]
  refine Finset.sum_congr rfl fun i hi => ?_
  have hi' : i < 4194304 := by have := Finset.mem_range.1 hi; have := k.isLt; omega
  unfold ext0
  rw [dif_pos hi', bins_apply A ⟨i, hi'⟩]

end NZWords

end
-- ==== Proof.NZTotal.lean ====
/-
  The reference's edge list, word by word: the number of edges.

  The sum of the widened mask over the whole adjacency array is the number of its nonzero entries, which
  is the number of marked flat positions (flat position `p` being entry `(p / 2048, p % 2048)`).
-/
import proofs.«111189_g13383118094673_cont_sun_m_231_3_alg».proof.Proof.NZDefs
import Idealize.ShloMosaic.PureOps.Reduce

noncomputable section

namespace NZWords

open Idealize.ShloMosaic Idealize.ShloMosaic.ValueIdx Cert.ReferenceIdeal Cert.ReferenceIdeal.RRTerm
open Cert.ReferenceIdeal.Facts₀ Cert.ReferenceIdeal.Facts
open LibNonzeroEnum

variable [Cert.ReferenceIdeal.Facts]

instance addi_comm : Std.Commutative (IntOp.addi : BitVec 32 → BitVec 32 → BitVec 32) := ⟨fun a b => BitVec.add_comm a b⟩
instance addi_assoc : Std.Associative (IntOp.addi : BitVec 32 → BitVec 32 → BitVec 32) :=
  ⟨fun a b c => BitVec.add_assoc a b c⟩

/-- A fold by word addition over a finite set is the start value plus the sum. -/
theorem fold_addi_eq_sum {ι : Type} (s : Finset ι) (init : BitVec 32) (x : ι → BitVec 32) :
    s.fold IntOp.addi init x = init + ∑ i ∈ s, x i := by
  induction s using Finset.cons_induction with
  | empty => simp
  | cons a S ha ih =>
    rw [Finset.fold_cons, Finset.sum_cons, ih]
    show x a + (init + _) = _
    rw [add_left_comm]

instance : Subsingleton S_.Idx := ⟨fun a b => funext fun d => d.elim0⟩

theorem flatIdx_inj {p q : Nat} (hp : p < 4194304) (hq : q < 4194304) (h : flatIdx p hp = flatIdx q hq) : p = q := by
  have h0 := congrArg (fun j : S2048x2048.Idx => (j 0).val) h
  have h1 := congrArg (fun j : S2048x2048.Idx => (j 1).val) h
  simp only [flatIdx] at h0 h1
  change p / 2048 = q / 2048 at h0
  change p % 2048 = q % 2048 at h1
  omega

/-- The sum of the widened mask is the number of marked flat positions. -/
theorem total_apply (A : Vec Ideal S2048x2048 .f32) :
    RRTerm.total (F := Ideal) A ix0 = ((LibNonzeroEnum.total 4194304 (Mark A) : ℕ) : BitVec 32) := by
  unfold RRTerm.total
  rw [Host.reduce_eq_fold, fold_addi_eq_sum]
  show (0#32 : BitVec 32) + _ = _
  rw [BitVec.zero_add, Finset.filter_true_of_mem (fun i _ => Subsingleton.elim _ _)]
  have hterm : ∀ i : S2048x2048.Idx,
      extui 32 (mask (F := Ideal) A) natLt_1_32 i = if A i ≠ 0 then (1 : BitVec 32) else 0 := by
    intro i
    rw [extui_apply]
    unfold mask
    rw [cmpf_apply, bcast0, constant_apply, Ideal.ofBits_zero_f32]
    show (Ideal.cmp .une (A i) 0).setWidth 32 = _
    unfold Ideal.cmp
    by_cases h : A i ≠ 0
    · rw [if_pos h]; simp [h]
    · rw [if_neg h]; simp [h]
  simp only [hterm]
  rw [Finset.sum_boole]
  refine congrArg (fun n : ℕ => (n : BitVec 32)) ?_
  unfold LibNonzeroEnum.total cntLt
  symm
  refine Finset.card_bij (fun p hp => flatIdx p (Finset.mem_range.1 (Finset.mem_filter.1 hp).1)) ?_ ?_ ?_
  · intro p hp
    obtain ⟨_, h, hne⟩ := Finset.mem_filter.1 hp
    exact Finset.mem_filter.2 ⟨Finset.mem_univ _, hne⟩
  · intro p hp q hq h
    exact flatIdx_inj _ _ h
  · intro i hi
    have hne := (Finset.mem_filter.1 hi).2
    have h0 : (i 0).val < 2048 := (i 0).isLt
    have h1 : (i 1).val < 2048 := (i 1).isLt
    have hp : (i 0).val * 2048 + (i 1).val < 4194304 := by omega
    have hflat : flatIdx ((i 0).val * 2048 + (i 1).val) hp = i := by
      funext a
      match a with
      | ⟨0, _⟩ => exact Fin.ext (by show ((i 0).val * 2048 + (i 1).val) / 2048 = (i 0).val; omega)
      | ⟨1, _⟩ => exact Fin.ext (by show ((i 0).val * 2048 + (i 1).val) % 2048 = (i 1).val; omega)
    refine ⟨(i 0).val * 2048 + (i 1).val, Finset.mem_filter.2 ⟨Finset.mem_range.2 hp, hp, ?_⟩, hflat⟩
    rw [hflat]; exact hne

end NZWords

end
-- ==== Proof.NEFinal.lean ====
/-
  The reference's edge list enumerates the nonzero rows of each column and the self-loops: the statement
  about the edge list with the two counting facts (the second running total holds the flat position of
  each marked entry; the count holds the number of marked entries) plugged in.
-/
import proofs.«111189_g13383118094673_cont_sun_m_231_3_alg».proof.Proof.NESum
import proofs.«111189_g13383118094673_cont_sun_m_231_3_alg».proof.Proof.NZCount
import proofs.«111189_g13383118094673_cont_sun_m_231_3_alg».proof.Proof.NZTotal

noncomputable section

namespace NZEdges

open Idealize.ShloMosaic Cert.ReferenceIdeal

variable [Cert.ReferenceIdeal.Facts]

/-- The edge list enumerates, for each destination, the rows with a nonzero entry in that column once each
    and the self-loop once. -/
theorem edges (A : Vec Ideal S2048x2048 .f32) : EdgeSpec.Holds A :=
  edges_hold A (NZWords.cum2_apply A) (NZWords.total_apply A)

end NZEdges

end
-- ==== Proof.lean ====
/-
  A two-layer graph convolution on 2048 nodes with 32 features: a dense kernel against an edge-list
  reference, equal as functions on the extended reals.

  The kernel keeps the whole 2048 × 2048 adjacency array `A` resident and computes, per layer with
  input `h`, weights `W`, bias `b`:
      deg n = (∑ i, A i n) + 1,   dis = deg^(-1/2),   h' = h · W,
      conv n f = ((∑ i, (h' i f · dis i) · A i n) + h' n f · dis n) · dis n + b f,
  and returns conv₂ (relu (conv₁ x)) + x (module `Spec`).  Its result array is that function of the
  argument arrays by commutativity and associativity alone (modules `KV…`).

  The reference lists the nonzero entries of `A` by two running totals and a histogram, appends one
  self-loop per node, and per layer scatter-adds ones for the degrees and scatter-adds, at each edge's
  destination, the source's row of `h · W` scaled by `dis source · dis destination`.
    * Its run ends at a staged pure term of the argument arrays (modules `RR…`).
    * The integer stages enumerate, for each destination `n`, the rows `i` with `A i n ≠ 0` once each and the
      self-loop once: the running count of nonzero flat positions, its histogram and the histogram's running
      total invert the rank of a nonzero position (modules `LibPrefixSum`, `LibScatterSum`, `LibNonzeroEnum`,
      `NZ…`, `NE…`; the statement is `EdgeSpec.Holds`).
    * Over such an edge list each float stage is the dense formula, PROVIDED every entry of `A` is 0 or 1 —
      an edge carries weight one whatever the nonzero entry, the kernel multiplies by the entry — and every
      input is a real number, which makes `· dis n` distribute over the sum (modules `RV…`).
  Both hypotheses are the precondition (module `PCPre`).
-/
import proofs.«111189_g13383118094673_cont_sun_m_231_3_alg».proof.Defs
import proofs.«111189_g13383118094673_cont_sun_m_231_3_alg».proof.Proof.Gen.Kernel
import proofs.«111189_g13383118094673_cont_sun_m_231_3_alg».proof.Proof.Gen.Kernel.Frame
import proofs.«111189_g13383118094673_cont_sun_m_231_3_alg».proof.Proof.Gen.KernelIdeal
import proofs.«111189_g13383118094673_cont_sun_m_231_3_alg».proof.Proof.Gen.KernelIdeal.Frame
import proofs.«111189_g13383118094673_cont_sun_m_231_3_alg».proof.Proof.Gen.KernelIdeal.Value
import proofs.«111189_g13383118094673_cont_sun_m_231_3_alg».proof.Proof.Gen.ReferenceIdeal
import proofs.«111189_g13383118094673_cont_sun_m_231_3_alg».proof.Proof.Gen.Pre_finite_inputs
import proofs.«111189_g13383118094673_cont_sun_m_231_3_alg».proof.Proof.KVRun
import proofs.«111189_g13383118094673_cont_sun_m_231_3_alg».proof.Proof.PCPre
import proofs.«111189_g13383118094673_cont_sun_m_231_3_alg».proof.Proof.RRRun
import proofs.«111189_g13383118094673_cont_sun_m_231_3_alg».proof.Proof.RVOut
import proofs.«111189_g13383118094673_cont_sun_m_231_3_alg».proof.Proof.NEFinal
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ => Cert.ReferenceIdeal.RefRun.frame (F := Ideal) m ρ

/-- The idealized kernel is the kernel's own text read on the extended reals: nothing was rewritten. -/
theorem preserves : Cert.preserves_Kernel_KernelIdeal := trivial

/-- Both idealized programs end with the dense network output of the arguments: the kernel by its run; the
    reference by its run, the enumeration of the nonzero entries by its edge list, and — the adjacency entries
    being 0 or 1 and every input a real number — the dense form of each layer over that edge list. -/
theorem algebraic : Cert.algebraic_KernelIdeal_ReferenceIdeal := by
  intro m ρ m' ρ' hpre hagree
  refine ⟨fun c => Cert.KernelIdeal.KVal.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.KVal.run m ρ, ?_⟩
  refine (θ_run Cert.ReferenceIdeal.defs _ _).mono (fun _ h c => ⟨(h c).1.trans ?_, (h c).2⟩)
    (Cert.ReferenceIdeal.RefRun.run (F := Ideal) m' ρ')
  obtain ⟨h01, -, hx, hW1, hb1, hW2, hb2⟩ := Cert.PC.pre_facts m hpre c
  rw [(hagree c).1, (hagree c).2.1, (hagree c).2.2.1, (hagree c).2.2.2.1, (hagree c).2.2.2.2.1, (hagree c).2.2.2.2.2]
  exact Cert.RefValue.out_eq_spec _ _ _ _ _ _ h01 hx hW1 hb1 hW2 hb2 (NZEdges.edges _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
